-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x512 : Shape := ⟨2, ![10000, 512]⟩
abbrev S2x160000 : Shape := ⟨2, ![2, 160000]⟩
abbrev S512x512 : Shape := ⟨2, ![512, 512]⟩
abbrev S512 : Shape := ⟨1, ![512]⟩
abbrev S1024x256 : Shape := ⟨2, ![1024, 256]⟩
abbrev S256 : Shape := ⟨1, ![256]⟩
abbrev S256x128 : Shape := ⟨2, ![256, 128]⟩
abbrev S128 : Shape := ⟨1, ![128]⟩
abbrev S128x2 : Shape := ⟨2, ![128, 2]⟩
abbrev S2 : Shape := ⟨1, ![2]⟩
abbrev S_ : Shape := ⟨0, ![]⟩

class Facts : Prop where
  bcast_S_S10000x512 : S_.BroadcastsInDim S10000x512 (![] : Fin 0 → Fin S10000x512.rank)
  reducesTo_S10000x512_S_d0_1 : S10000x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S1024x256 : S_.BroadcastsInDim S1024x256 (![] : Fin 0 → Fin S1024x256.rank)
  reducesTo_S1024x256_S_d0_1 : S1024x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg8 : FVec F S128x2 .f32) (main_arg9 : FVec F S2 .f32) (main_v33 : IVec S_ 1) : IVec S_ 1 :=
  let main_v34 : FVec F S128x2 .f32 := Host.absf main_arg8
  let main_cst_12 : FVec F S_ .f32 := constant S_ .f32 0x7F800000#32
  let main_v35 : FVec F S128x2 .f32 := broadcastInDim S128x2 ![] bcast_S_S128x2 main_cst_12
  let main_v36 : IVec S128x2 1 := cmpf .olt main_v34 main_v35
  let main_c_13 : IVec S_ 1 := constantI S_ 1 1#1
  let main_v37 : IVec S_ 1 := (fun x v => Host.reduce IntOp.andi x v reducesTo_S128x2_S_d0_1 h_S_) main_v36 main_c_13
  let main_v38 : IVec S_ 1 := andi main_v33 main_v37
  let main_v39 : FVec F S2 .f32 := Host.absf main_arg9
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg5 : FVec F S256 .f32) (main_arg6 : FVec F S256x128 .f32) (main_arg7 : FVec F S128 .f32) (main_arg8 : FVec F S128x2 .f32) (main_arg9 : FVec F S2 .f32) (main_v13 : IVec S_ 1) (main_v16 : IVec S1024x256 1) : IVec S_ 1 :=
  let main_c_5 : IVec S_ 1 := constantI S_ 1 1#1
  let main_v17 : IVec S_ 1 := (fun x v => Host.reduce IntOp.andi x v reducesTo_S1024x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x128 .f32 := Host.absf main_arg6
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S10000x512 .f32) (main_arg1 : IVec S2x160000 32) (main_arg2 : FVec F S512x512 .f32) (main_arg3 : FVec F S512 .f32) (main_arg4 : FVec F S1024x256 .f32) (main_arg5 : FVec F S256 .f32) (main_arg6 : FVec F S256x128 .f32) (main_arg7 : FVec F S128 .f32) (main_arg8 : FVec F S128x2 .f32) (main_arg9 : FVec F S2 .f32) : IVec S_ 1 :=
  let main_v0 : FVec F S10000x512 .f32 := Host.absf main_arg0
  let main_cst : FVec F S_ .f32 := constant S_ .f32 0x7F800000#32
  let main_v1 : FVec F S10000x512 .f32 := broadcastInDim S10000x512 ![] bcast_S_S10000x512 main_cst
  let main_v2 : IVec S10000x512 1 := cmpf .olt main_v0 main_v1
  let main_c : IVec S_ 1 := constantI S_ 1 1#1
  let main_v3 : IVec S_ 1 := (fun x v => Host.reduce IntOp.andi x v reducesTo_S10000x512_S_d0_1 h_S_) main_v2 main_c
  let main_v4 : FVec F S512x512 .f32 := Host.absf main_arg2
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S1024x256 .f32 := Host.absf main_arg4
  let main_cst_4 : FVec F S_ .f32 := constant S_ .f32 0x7F800000#32
  let main_v15 : FVec F S1024x256 .f32 := broadcastInDim S1024x256 ![] bcast_S_S1024x256 main_cst_4
  let main_v16 : IVec S1024x256 1 := cmpf .olt main_v14 main_v15
  fn_part1 (F := F) main_arg5 main_arg6 main_arg7 main_arg8 main_arg9 main_v13 main_v16
-- ==== Kernel.lean ====
abbrev S10000x512 : Shape := ⟨2, ![10000, 512]⟩
abbrev S2x160000 : Shape := ⟨2, ![2, 160000]⟩
abbrev S512x512 : Shape := ⟨2, ![512, 512]⟩
abbrev S512 : Shape := ⟨1, ![512]⟩
abbrev S1024x256 : Shape := ⟨2, ![1024, 256]⟩
abbrev S256 : Shape := ⟨1, ![256]⟩
abbrev S256x128 : Shape := ⟨2, ![256, 128]⟩
abbrev S128 : Shape := ⟨1, ![128]⟩
abbrev S128x2 : Shape := ⟨2, ![128, 2]⟩
abbrev S2 : Shape := ⟨1, ![2]⟩
abbrev S1x160000 : Shape := ⟨2, ![1, 160000]⟩
abbrev S160000 : Shape := ⟨1, ![160000]⟩
abbrev S_ : Shape := ⟨0, ![]⟩
abbrev S160000x1 : Shape := ⟨2, ![160000, 1]⟩
abbrev S160000x512 : Shape := ⟨2, ![160000, 512]⟩
abbrev S10000 : Shape := ⟨1, ![10000]⟩
abbrev S10000x1 : Shape := ⟨2, ![10000, 1]⟩
abbrev S512x256 : Shape := ⟨2, ![512, 256]⟩
abbrev S1x512 : Shape := ⟨2, ![1, 512]⟩
abbrev S10000x256 : Shape := ⟨2, ![10000, 256]⟩
abbrev S1000x512 : Shape := ⟨2, ![1000, 512]⟩
abbrev S1000x1 : Shape := ⟨2, ![1000, 1]⟩
abbrev S1000x256 : Shape := ⟨2, ![1000, 256]⟩
abbrev S160000x256 : Shape := ⟨2, ![160000, 256]⟩
abbrev S1x256 : Shape := ⟨2, ![1, 256]⟩
abbrev S1x128 : Shape := ⟨2, ![1, 128]⟩
abbrev S1x2 : Shape := ⟨2, ![1, 2]⟩
abbrev S10000x2 : Shape := ⟨2, ![10000, 2]⟩
abbrev S1000x2 : Shape := ⟨2, ![1000, 2]⟩
abbrev S1000x128 : Shape := ⟨2, ![1000, 128]⟩

abbrev nBuf : Space → Nat
  | .hbm => 62
  | .vmem => 25
  | .smem => 0
  | _ => 0

abbrev bufTy : (tb : Table) → Fin (tcTables nBuf tb) → BufTy
  | .hbm, ⟨0, _⟩ => ⟨S10000x512, .f32⟩
  | .hbm, ⟨1, _⟩ => ⟨S2x160000, .i32⟩
  | .hbm, ⟨2, _⟩ => ⟨S512x512, .f32⟩
  | .hbm, ⟨3, _⟩ => ⟨S512, .f32⟩
  | .hbm, ⟨4, _⟩ => ⟨S1024x256, .f32⟩
  | .hbm, ⟨5, _⟩ => ⟨S256, .f32⟩
  | .hbm, ⟨6, _⟩ => ⟨S256x128, .f32⟩
  | .hbm, ⟨7, _⟩ => ⟨S128, .f32⟩
  | .hbm, ⟨8, _⟩ => ⟨S128x2, .f32⟩
  | .hbm, ⟨9, _⟩ => ⟨S2, .f32⟩
  | .hbm, ⟨10, _⟩ => ⟨S1x160000, .i32⟩
  | .hbm, ⟨11, _⟩ => ⟨S160000, .i32⟩
  | .hbm, ⟨12, _⟩ => ⟨S1x160000, .i32⟩
  | .hbm, ⟨13, _⟩ => ⟨S160000, .i32⟩
  | .hbm, ⟨14, _⟩ => ⟨S10000x512, .bf16⟩
  | .hbm, ⟨15, _⟩ => ⟨S_, .i32⟩
  | .hbm, ⟨16, _⟩ => ⟨S160000, .i32⟩
  | .hbm, ⟨17, _⟩ => ⟨S160000, .i1⟩
  | .hbm, ⟨18, _⟩ => ⟨S_, .i32⟩
  | .hbm, ⟨19, _⟩ => ⟨S160000, .i32⟩
  | .hbm, ⟨20, _⟩ => ⟨S160000, .i32⟩
  | .hbm, ⟨21, _⟩ => ⟨S160000, .i32⟩
  | .hbm, ⟨22, _⟩ => ⟨S160000x1, .i32⟩
  | .hbm, ⟨23, _⟩ => ⟨S160000x512, .bf16⟩
  | .hbm, ⟨24, _⟩ => ⟨S160000x512, .f32⟩
  | .hbm, ⟨25, _⟩ => ⟨S_, .f32⟩
  | .hbm, ⟨26, _⟩ => ⟨S10000x512, .f32⟩
  | .hbm, ⟨27, _⟩ => ⟨S160000x1, .i32⟩
  | .hbm, ⟨28, _⟩ => ⟨S10000x512, .f32⟩
  | .hbm, ⟨29, _⟩ => ⟨S_, .f32⟩
  | .hbm, ⟨30, _⟩ => ⟨S160000, .f32⟩
  | .hbm, ⟨31, _⟩ => ⟨S_, .f32⟩
  | .hbm, ⟨32, _⟩ => ⟨S10000, .f32⟩
  | .hbm, ⟨33, _⟩ => ⟨S160000x1, .i32⟩
  | .hbm, ⟨34, _⟩ => ⟨S10000, .f32⟩
  | .hbm, ⟨35, _⟩ => ⟨S_, .f32⟩
  | .hbm, ⟨36, _⟩ => ⟨S10000, .f32⟩
  | .hbm, ⟨37, _⟩ => ⟨S10000, .f32⟩
  | .hbm, ⟨38, _⟩ => ⟨S10000, .f32⟩
  | .hbm, ⟨39, _⟩ => ⟨S10000x1, .f32⟩
  | .hbm, ⟨40, _⟩ => ⟨S512x256, .f32⟩
  | .hbm, ⟨41, _⟩ => ⟨S512x256, .f32⟩
  | .hbm, ⟨42, _⟩ => ⟨S1x512, .f32⟩
  | .hbm, ⟨43, _⟩ => ⟨S10000x256, .bf16⟩
  | .hbm, ⟨44, _⟩ => ⟨S_, .i32⟩
  | .hbm, ⟨45, _⟩ => ⟨S160000, .i32⟩
  | .hbm, ⟨46, _⟩ => ⟨S160000, .i1⟩
  | .hbm, ⟨47, _⟩ => ⟨S_, .i32⟩
  | .hbm, ⟨48, _⟩ => ⟨S160000, .i32⟩
  | .hbm, ⟨49, _⟩ => ⟨S160000, .i32⟩
  | .hbm, ⟨50, _⟩ => ⟨S160000, .i32⟩
  | .hbm, ⟨51, _⟩ => ⟨S160000x1, .i32⟩
  | .hbm, ⟨52, _⟩ => ⟨S160000x256, .bf16⟩
  | .hbm, ⟨53, _⟩ => ⟨S160000x256, .f32⟩
  | .hbm, ⟨54, _⟩ => ⟨S_, .f32⟩
  | .hbm, ⟨55, _⟩ => ⟨S10000x256, .f32⟩
  | .hbm, ⟨56, _⟩ => ⟨S160000x1, .i32⟩
  | .hbm, ⟨57, _⟩ => ⟨S10000x256, .f32⟩
  | .hbm, ⟨58, _⟩ => ⟨S1x256, .f32⟩
  | .hbm, ⟨59, _⟩ => ⟨S1x128, .f32⟩
  | .hbm, ⟨60, _⟩ => ⟨S1x2, .f32⟩
  | .hbm, ⟨61, _⟩ => ⟨S10000x2, .f32⟩
  | .local _ .vmem, ⟨0, _⟩ => ⟨S1000x512, .f32⟩
  | .local _ .vmem, ⟨1, _⟩ => ⟨S1000x512, .f32⟩
  | .local _ .vmem, ⟨2, _⟩ => ⟨S1000x512, .f32⟩
  | .local _ .vmem, ⟨3, _⟩ => ⟨S1000x512, .f32⟩
  | .local _ .vmem, ⟨4, _⟩ => ⟨S1000x1, .f32⟩
  | .local _ .vmem, ⟨5, _⟩ => ⟨S1000x1, .f32⟩
  | .local _ .vmem, ⟨6, _⟩ => ⟨S512x512, .f32⟩
  | .local _ .vmem, ⟨7, _⟩ => ⟨S1x512, .f32⟩
  | .local _ .vmem, ⟨8, _⟩ => ⟨S512x256, .f32⟩
  | .local _ .vmem, ⟨9, _⟩ => ⟨S512x256, .f32⟩
  | .local _ .vmem, ⟨10, _⟩ => ⟨S1000x256, .bf16⟩
  | .local _ .vmem, ⟨11, _⟩ => ⟨S1000x256, .bf16⟩
  | .local _ .vmem, ⟨12, _⟩ => ⟨S1000x256, .f32⟩
  | .local _ .vmem, ⟨13, _⟩ => ⟨S1000x256, .f32⟩
  | .local _ .vmem, ⟨14, _⟩ => ⟨S1000x256, .bf16⟩
  | .local _ .vmem, ⟨15, _⟩ => ⟨S1000x256, .bf16⟩
  | .local _ .vmem, ⟨16, _⟩ => ⟨S1000x1, .f32⟩
  | .local _ .vmem, ⟨17, _⟩ => ⟨S1000x1, .f32⟩
  | .local _ .vmem, ⟨18, _⟩ => ⟨S1x256, .f32⟩
  | .local _ .vmem, ⟨19, _⟩ => ⟨S256x128, .f32⟩
  | .local _ .vmem, ⟨20, _⟩ => ⟨S1x128, .f32⟩
  | .local _ .vmem, ⟨21, _⟩ => ⟨S128x2, .f32⟩
  | .local _ .vmem, ⟨22, _⟩ => ⟨S1x2, .f32⟩
  | .local _ .vmem, ⟨23, _⟩ => ⟨S1000x2, .f32⟩
  | .local _ .vmem, ⟨24, _⟩ => ⟨S1000x2, .f32⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c : Ref sig .tc := ⟨.hbm, 15, rfl⟩
abbrev main_v5 : Ref sig .tc := ⟨.hbm, 16, rfl⟩
abbrev main_v6 : Ref sig .tc := ⟨.hbm, 17, rfl⟩
abbrev main_c_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_1 : Ref sig .tc := ⟨.hbm, 29, rfl⟩
abbrev main_v16 : Ref sig .tc := ⟨.hbm, 30, rfl⟩
abbrev main_cst_2 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_3 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_4 : Ref sig .tc := ⟨.hbm, 44, rfl⟩
abbrev main_v28 : Ref sig .tc := ⟨.hbm, 45, rfl⟩
abbrev main_v29 : Ref sig .tc := ⟨.hbm, 46, rfl⟩
abbrev main_c_5 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_6 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg8_0 : Ref sig .tc := ⟨.vmem, 23, rfl⟩
abbrev cc1_stg8_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem8_0 : DmaSem sig := 23
abbrev cc1_sem8_1 : DmaSem sig := 24

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1000x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x2 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x2 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S1000x2 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  bitsLt_bf16_f32 : FTy.bits .bf16 < FTy.bits .f32
  bcast_S_S160000 : S_.BroadcastsInDim S160000 (![] : Fin 0 → Fin S160000.rank)
  bcast_S160000_S160000x1_0 : S160000.BroadcastsInDim S160000x1 (![0] : Fin 1 → Fin S160000x1.rank)
  bcast_S_S10000x512 : S_.BroadcastsInDim S10000x512 (![] : Fin 0 → Fin S10000x512.rank)
  bcast_S_S10000 : S_.BroadcastsInDim S10000 (![] : Fin 0 → Fin S10000.rank)
  shapeCasts_S10000_S10000x1 : S10000.ShapeCasts S10000x1
  slices_S1024x256_S512x256_0_0 : S1024x256.Slices ![0, 0] S512x256
  slices_S1024x256_S512x256_512_0 : S1024x256.Slices ![512, 0] S512x256
  shapeCasts_S512_S1x512 : S512.ShapeCasts S1x512
  inb_S1000x512_S1000x512_0_0 : ∀ a, (![0, 0] : Fin 2 → Nat) a + S1000x512.size a ≤ S1000x512.size a
  h_S1000x512 : 0 < S1000x512.numel
  shapeCasts_S1000x512_S1000x512 : S1000x512.ShapeCasts S1000x512
  inb_S512x512_S512x512_0_0 : ∀ a, (![0, 0] : Fin 2 → Nat) a + S512x512.size a ≤ S512x512.size a
  h_S512x512 : 0 < S512x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1000x512 : S1x512.Broadcasts S1000x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  broadcasts_S1000x1_S1000x256 : S1000x1.Broadcasts S1000x256
  inb_S1000x256_S1000x256_0_0 : ∀ a, (![0, 0] : Fin 2 → Nat) a + S1000x256.size a ≤ S1000x256.size a
  h_S1000x256 : 0 < S1000x256.numel
  packedbf16_S1000x256_S1000x256_0_0 : (Rect.unit (s := S1000x256) ![0, 0] S1000x256.size inb_S1000x256_S1000x256_0_0).PackedRows (EltTy.packing .bf16)
  bcast_S_S10000x256 : S_.BroadcastsInDim S10000x256 (![] : Fin 0 → Fin S10000x256.rank)
  shapeCasts_S256_S1x256 : S256.ShapeCasts S1x256
  shapeCasts_S128_S1x128 : S128.ShapeCasts S1x128
  shapeCasts_S2_S1x2 : S2.ShapeCasts S1x2
  shapeCasts_S1000x256_S1000x256 : S1000x256.ShapeCasts S1000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1000x256 : S1x256.Broadcasts S1000x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  inb_S128x2_S128x2_0_0 : ∀ a, (![0, 0] : Fin 2 → Nat) a + S128x2.size a ≤ S128x2.size a
  h_S128x2 : 0 < S128x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S1000x2 : S1x2.Broadcasts S1000x2
  inb_S1000x2_S1000x2_0_0 : ∀ a, (![0, 0] : Fin 2 → Nat) a + S1000x2.size a ≤ S1000x2.size a
  h_S1000x2 : 0 < S1000x2.numel
  gather_S10000x512_S160000x1_S160000x512_1_0_n_n_0_1_1512_wf : GatherDims.WF S10000x512 S160000x1 S160000x512 [1] [0] [] [0] [] 1 ![1, 512]
  scatter_S10000x512_S160000x1_S160000x512_1_0_0_1_wf : ScatterDims.WF S10000x512 S160000x1 S160000x512 [1] [0] [0] 1
  scatter_S10000_S160000x1_S160000_n_0_0_1_wf : ScatterDims.WF S10000 S160000x1 S160000 [] [0] [0] 1
  dot_S1000x512_S512x512_S1000x512_1_0_0_1_n_n_wf : DotDims.WF S1000x512 S512x512 S1000x512 [1] [0] [0] [1] [] []
  dot_S1000x512_S512x256_S1000x256_1_0_0_1_n_n_wf : DotDims.WF S1000x512 S512x256 S1000x256 [1] [0] [0] [1] [] []
  gather_S10000x256_S160000x1_S160000x256_1_0_n_n_0_1_1256_wf : GatherDims.WF S10000x256 S160000x1 S160000x256 [1] [0] [] [0] [] 1 ![1, 256]
  scatter_S10000x256_S160000x1_S160000x256_1_0_0_1_wf : ScatterDims.WF S10000x256 S160000x1 S160000x256 [1] [0] [0] 1
  dot_S1000x256_S256x128_S1000x128_1_0_0_1_n_n_wf : DotDims.WF S1000x256 S256x128 S1000x128 [1] [0] [0] [1] [] []
  dot_S1000x128_S128x2_S1000x2_1_0_0_1_n_n_wf : DotDims.WF S1000x128 S128x2 S1000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x512.size a ≤ S10000x512.size a
  hwx0_0 : ∀ i : grid0.Coords, EltTy.bits .f32 = 32 ∨ (Rect.block (s := S10000x512) S1000x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x512.size a ≤ S10000x512.size a
  hwx0_1 : ∀ i : grid0.Coords, EltTy.bits .f32 = 32 ∨ (Rect.block (s := S10000x512) S1000x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x1.size a ≤ S10000x1.size a
  hwx0_2 : ∀ i : grid0.Coords, EltTy.bits .f32 = 32 ∨ (Rect.block (s := S10000x1) S1000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .f32 = 32 ∨ (Rect.block (s := S512x512) S512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x256.size a ≤ S512x256.size a
  hwx0_5 : ∀ i : grid0.Coords, EltTy.bits .f32 = 32 ∨ (Rect.block (s := S512x256) S512x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x256.size a ≤ S512x256.size a
  hwx0_6 : ∀ i : grid0.Coords, EltTy.bits .f32 = 32 ∨ (Rect.block (s := S512x256) S512x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1000x256.size a ≤ S10000x256.size a
  hwx0_7 : ∀ i : grid0.Coords, EltTy.bits .bf16 = 32 ∨ (Rect.block (s := S10000x256) S1000x256.size (cc0_transform_7 i) (hinb0_7 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x256.size a ≤ S10000x256.size a
  hwx1_0 : ∀ i : grid1.Coords, EltTy.bits .f32 = 32 ∨ (Rect.block (s := S10000x256) S1000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x256.size a ≤ S10000x256.size a
  hwx1_1 : ∀ i : grid1.Coords, EltTy.bits .bf16 = 32 ∨ (Rect.block (s := S10000x256) S1000x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x1.size a ≤ S10000x1.size a
  hwx1_2 : ∀ i : grid1.Coords, EltTy.bits .f32 = 32 ∨ (Rect.block (s := S10000x1) S1000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x128.size a ≤ S256x128.size a
  hwx1_4 : ∀ i : grid1.Coords, EltTy.bits .f32 = 32 ∨ (Rect.block (s := S256x128) S256x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x2.size a ≤ S128x2.size a
  hwx1_6 : ∀ i : grid1.Coords, EltTy.bits .f32 = 32 ∨ (Rect.block (s := S128x2) S128x2.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x2.size a ≤ S1x2.size a
  hwx1_7 : ∀ i : grid1.Coords, EltTy.bits .f32 = 32 ∨ (Rect.block (s := S1x2) S1x2.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1000x2.size a ≤ S10000x2.size a
  hwx1_8 : ∀ i : grid1.Coords, EltTy.bits .f32 = 32 ∨ (Rect.block (s := S10000x2) S1000x2.size (cc1_transform_8 i) (hinb1_8 i)).WholeWords (EltTy.packing .f32)

variable [Facts₀]

def gather_S10000x512_S160000x1_S160000x512_1_0_n_n_0_1_1512 : GatherDims S10000x512 S160000x1 S160000x512 where
  offsetDims := [1]
  collapsedSliceDims := [0]
  operandBatchingDims := []
  startIndicesBatchingDims := []
  startIndexMap := [0]
  indexVectorDim := 1
  sliceSizes := ![1, 512]
  wf := gather_S10000x512_S160000x1_S160000x512_1_0_n_n_0_1_1512_wf
def scatter_S10000x512_S160000x1_S160000x512_1_0_0_1 : ScatterDims S10000x512 S160000x1 S160000x512 where
  updateWindowDims := [1]
  insertedWindowDims := [0]
  scatterDimsToOperandDims := [0]
  indexVectorDim := 1
  wf := scatter_S10000x512_S160000x1_S160000x512_1_0_0_1_wf
def scatter_S10000_S160000x1_S160000_n_0_0_1 : ScatterDims S10000 S160000x1 S160000 where
  updateWindowDims := []
  insertedWindowDims := [0]
  scatterDimsToOperandDims := [0]
  indexVectorDim := 1
  wf := scatter_S10000_S160000x1_S160000_n_0_0_1_wf
def dot_S1000x512_S512x512_S1000x512_1_0_0_1_n_n : DotDims S1000x512 S512x512 S1000x512 where
  lhsContracting := [1]
  rhsContracting := [0]
  lhsNonContracting := [0]
  rhsNonContracting := [1]
  lhsBatch := []
  rhsBatch := []
  wf := dot_S1000x512_S512x512_S1000x512_1_0_0_1_n_n_wf
def dot_S1000x512_S512x256_S1000x256_1_0_0_1_n_n : DotDims S1000x512 S512x256 S1000x256 where
  lhsContracting := [1]
  rhsContracting := [0]
  lhsNonContracting := [0]
  rhsNonContracting := [1]
  lhsBatch := []
  rhsBatch := []
  wf := dot_S1000x512_S512x256_S1000x256_1_0_0_1_n_n_wf
def gather_S10000x256_S160000x1_S160000x256_1_0_n_n_0_1_1256 : GatherDims S10000x256 S160000x1 S160000x256 where
  offsetDims := [1]
  collapsedSliceDims := [0]
  operandBatchingDims := []
  startIndicesBatchingDims := []
  startIndexMap := [0]
  indexVectorDim := 1
  sliceSizes := ![1, 256]
  wf := gather_S10000x256_S160000x1_S160000x256_1_0_n_n_0_1_1256_wf
def scatter_S10000x256_S160000x1_S160000x256_1_0_0_1 : ScatterDims S10000x256 S160000x1 S160000x256 where
  updateWindowDims := [1]
  insertedWindowDims := [0]
  scatterDimsToOperandDims := [0]
  indexVectorDim := 1
  wf := scatter_S10000x256_S160000x1_S160000x256_1_0_0_1_wf
def dot_S1000x256_S256x128_S1000x128_1_0_0_1_n_n : DotDims S1000x256 S256x128 S1000x128 where
  lhsContracting := [1]
  rhsContracting := [0]
  lhsNonContracting := [0]
  rhsNonContracting := [1]
  lhsBatch := []
  rhsBatch := []
  wf := dot_S1000x256_S256x128_S1000x128_1_0_0_1_n_n_wf
def dot_S1000x128_S128x2_S1000x2_1_0_0_1_n_n : DotDims S1000x128 S128x2 S1000x2 where
  lhsContracting := [1]
  rhsContracting := [0]
  lhsNonContracting := [0]
  rhsNonContracting := [1]
  lhsBatch := []
  rhsBatch := []
  wf := dot_S1000x128_S128x2_S1000x2_1_0_0_1_n_n_wf

abbrev win0_0 : Pipeline.Window sig grid0 :=
  Pipeline.Window.ofSpec (Memref.whole main_arg0) S1000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S1000x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S1000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S512x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v25) S512x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v27) S1000x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v38) S1000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S1000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v23) S1000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v39) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S256x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg8) S128x2.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v41) S1x2.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v42) S1000x2.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S10000x512 : Shape := ⟨2, ![10000, 512]⟩
abbrev S2x160000 : Shape := ⟨2, ![2, 160000]⟩
abbrev S512x512 : Shape := ⟨2, ![512, 512]⟩
abbrev S512 : Shape := ⟨1, ![512]⟩
abbrev S1024x256 : Shape := ⟨2, ![1024, 256]⟩
abbrev S256 : Shape := ⟨1, ![256]⟩
abbrev S256x128 : Shape := ⟨2, ![256, 128]⟩
abbrev S128 : Shape := ⟨1, ![128]⟩
abbrev S128x2 : Shape := ⟨2, ![128, 2]⟩
abbrev S2 : Shape := ⟨1, ![2]⟩
abbrev S1x160000 : Shape := ⟨2, ![1, 160000]⟩
abbrev S160000 : Shape := ⟨1, ![160000]⟩
abbrev S_ : Shape := ⟨0, ![]⟩
abbrev S160000x1 : Shape := ⟨2, ![160000, 1]⟩
abbrev S160000x512 : Shape := ⟨2, ![160000, 512]⟩
abbrev S1x512 : Shape := ⟨2, ![1, 512]⟩
abbrev S10000x1024 : Shape := ⟨2, ![10000, 1024]⟩
abbrev S10000x256 : Shape := ⟨2, ![10000, 256]⟩
abbrev S10000 : Shape := ⟨1, ![10000]⟩
abbrev S170000 : Shape := ⟨1, ![170000]⟩
abbrev S170000x1 : Shape := ⟨2, ![170000, 1]⟩
abbrev S170000x256 : Shape := ⟨2, ![170000, 256]⟩
abbrev S1x256 : Shape := ⟨2, ![1, 256]⟩
abbrev S10000x128 : Shape := ⟨2, ![10000, 128]⟩
abbrev S1x128 : Shape := ⟨2, ![1, 128]⟩
abbrev S10000x2 : Shape := ⟨2, ![10000, 2]⟩
abbrev S1x2 : Shape := ⟨2, ![1, 2]⟩

abbrev nBuf : Space → Nat
  | .hbm => 102
  | .vmem => 0
  | .smem => 0
  | _ => 0

abbrev bufTy : (tb : Table) → Fin (tcTables nBuf tb) → BufTy
  | .hbm, ⟨0, _⟩ => ⟨S10000x512, .f32⟩
  | .hbm, ⟨1, _⟩ => ⟨S2x160000, .i32⟩
  | .hbm, ⟨2, _⟩ => ⟨S512x512, .f32⟩
  | .hbm, ⟨3, _⟩ => ⟨S512, .f32⟩
  | .hbm, ⟨4, _⟩ => ⟨S1024x256, .f32⟩
  | .hbm, ⟨5, _⟩ => ⟨S256, .f32⟩
  | .hbm, ⟨6, _⟩ => ⟨S256x128, .f32⟩
  | .hbm, ⟨7, _⟩ => ⟨S128, .f32⟩
  | .hbm, ⟨8, _⟩ => ⟨S128x2, .f32⟩
  | .hbm, ⟨9, _⟩ => ⟨S2, .f32⟩
  | .hbm, ⟨10, _⟩ => ⟨S1x160000, .i32⟩
  | .hbm, ⟨11, _⟩ => ⟨S160000, .i32⟩
  | .hbm, ⟨12, _⟩ => ⟨S1x160000, .i32⟩
  | .hbm, ⟨13, _⟩ => ⟨S160000, .i32⟩
  | .hbm, ⟨14, _⟩ => ⟨S_, .i32⟩
  | .hbm, ⟨15, _⟩ => ⟨S160000, .i32⟩
  | .hbm, ⟨16, _⟩ => ⟨S160000, .i1⟩
  | .hbm, ⟨17, _⟩ => ⟨S_, .i32⟩
  | .hbm, ⟨18, _⟩ => ⟨S160000, .i32⟩
  | .hbm, ⟨19, _⟩ => ⟨S160000, .i32⟩
  | .hbm, ⟨20, _⟩ => ⟨S160000, .i32⟩
  | .hbm, ⟨21, _⟩ => ⟨S160000x1, .i32⟩
  | .hbm, ⟨22, _⟩ => ⟨S160000x512, .f32⟩
  | .hbm, ⟨23, _⟩ => ⟨S_, .f32⟩
  | .hbm, ⟨24, _⟩ => ⟨S10000x512, .f32⟩
  | .hbm, ⟨25, _⟩ => ⟨S160000x1, .i32⟩
  | .hbm, ⟨26, _⟩ => ⟨S10000x512, .f32⟩
  | .hbm, ⟨27, _⟩ => ⟨S10000x512, .f32⟩
  | .hbm, ⟨28, _⟩ => ⟨S1x512, .f32⟩
  | .hbm, ⟨29, _⟩ => ⟨S10000x512, .f32⟩
  | .hbm, ⟨30, _⟩ => ⟨S10000x512, .f32⟩
  | .hbm, ⟨31, _⟩ => ⟨S10000x1024, .f32⟩
  | .hbm, ⟨32, _⟩ => ⟨S10000x256, .f32⟩
  | .hbm, ⟨33, _⟩ => ⟨S10000, .i32⟩
  | .hbm, ⟨34, _⟩ => ⟨S170000, .i32⟩
  | .hbm, ⟨35, _⟩ => ⟨S170000, .i32⟩
  | .hbm, ⟨36, _⟩ => ⟨S_, .f32⟩
  | .hbm, ⟨37, _⟩ => ⟨S170000, .f32⟩
  | .hbm, ⟨38, _⟩ => ⟨S_, .f32⟩
  | .hbm, ⟨39, _⟩ => ⟨S10000, .f32⟩
  | .hbm, ⟨40, _⟩ => ⟨S170000x1, .i32⟩
  | .hbm, ⟨41, _⟩ => ⟨S10000, .f32⟩
  | .hbm, ⟨42, _⟩ => ⟨S_, .f32⟩
  | .hbm, ⟨43, _⟩ => ⟨S10000, .f32⟩
  | .hbm, ⟨44, _⟩ => ⟨S10000, .i1⟩
  | .hbm, ⟨45, _⟩ => ⟨S_, .f32⟩
  | .hbm, ⟨46, _⟩ => ⟨S10000, .f32⟩
  | .hbm, ⟨47, _⟩ => ⟨S10000, .f32⟩
  | .hbm, ⟨48, _⟩ => ⟨S10000, .f32⟩
  | .hbm, ⟨49, _⟩ => ⟨S_, .f32⟩
  | .hbm, ⟨50, _⟩ => ⟨S_, .f32⟩
  | .hbm, ⟨51, _⟩ => ⟨S10000, .f32⟩
  | .hbm, ⟨52, _⟩ => ⟨S10000, .f32⟩
  | .hbm, ⟨53, _⟩ => ⟨S_, .i32⟩
  | .hbm, ⟨54, _⟩ => ⟨S170000, .i32⟩
  | .hbm, ⟨55, _⟩ => ⟨S170000, .i1⟩
  | .hbm, ⟨56, _⟩ => ⟨S_, .i32⟩
  | .hbm, ⟨57, _⟩ => ⟨S170000, .i32⟩
  | .hbm, ⟨58, _⟩ => ⟨S170000, .i32⟩
  | .hbm, ⟨59, _⟩ => ⟨S170000, .i32⟩
  | .hbm, ⟨60, _⟩ => ⟨S170000x1, .i32⟩
  | .hbm, ⟨61, _⟩ => ⟨S170000, .f32⟩
  | .hbm, ⟨62, _⟩ => ⟨S_, .i32⟩
  | .hbm, ⟨63, _⟩ => ⟨S170000, .i32⟩
  | .hbm, ⟨64, _⟩ => ⟨S170000, .i1⟩
  | .hbm, ⟨65, _⟩ => ⟨S_, .i32⟩
  | .hbm, ⟨66, _⟩ => ⟨S170000, .i32⟩
  | .hbm, ⟨67, _⟩ => ⟨S170000, .i32⟩
  | .hbm, ⟨68, _⟩ => ⟨S170000, .i32⟩
  | .hbm, ⟨69, _⟩ => ⟨S170000x1, .i32⟩
  | .hbm, ⟨70, _⟩ => ⟨S170000, .f32⟩
  | .hbm, ⟨71, _⟩ => ⟨S170000, .f32⟩
  | .hbm, ⟨72, _⟩ => ⟨S_, .i32⟩
  | .hbm, ⟨73, _⟩ => ⟨S170000, .i32⟩
  | .hbm, ⟨74, _⟩ => ⟨S170000, .i1⟩
  | .hbm, ⟨75, _⟩ => ⟨S_, .i32⟩
  | .hbm, ⟨76, _⟩ => ⟨S170000, .i32⟩
  | .hbm, ⟨77, _⟩ => ⟨S170000, .i32⟩
  | .hbm, ⟨78, _⟩ => ⟨S170000, .i32⟩
  | .hbm, ⟨79, _⟩ => ⟨S170000x1, .i32⟩
  | .hbm, ⟨80, _⟩ => ⟨S170000x256, .f32⟩
  | .hbm, ⟨81, _⟩ => ⟨S170000x1, .f32⟩
  | .hbm, ⟨82, _⟩ => ⟨S170000x256, .f32⟩
  | .hbm, ⟨83, _⟩ => ⟨S170000x256, .f32⟩
  | .hbm, ⟨84, _⟩ => ⟨S_, .f32⟩
  | .hbm, ⟨85, _⟩ => ⟨S10000x256, .f32⟩
  | .hbm, ⟨86, _⟩ => ⟨S170000x1, .i32⟩
  | .hbm, ⟨87, _⟩ => ⟨S10000x256, .f32⟩
  | .hbm, ⟨88, _⟩ => ⟨S1x256, .f32⟩
  | .hbm, ⟨89, _⟩ => ⟨S10000x256, .f32⟩
  | .hbm, ⟨90, _⟩ => ⟨S10000x256, .f32⟩
  | .hbm, ⟨91, _⟩ => ⟨S10000x128, .f32⟩
  | .hbm, ⟨92, _⟩ => ⟨S1x128, .f32⟩
  | .hbm, ⟨93, _⟩ => ⟨S10000x128, .f32⟩
  | .hbm, ⟨94, _⟩ => ⟨S10000x128, .f32⟩
  | .hbm, ⟨95, _⟩ => ⟨S_, .f32⟩
  | .hbm, ⟨96, _⟩ => ⟨S10000x128, .f32⟩
  | .hbm, ⟨97, _⟩ => ⟨S10000x128, .f32⟩
  | .hbm, ⟨98, _⟩ => ⟨S10000x2, .f32⟩
  | .hbm, ⟨99, _⟩ => ⟨S1x2, .f32⟩
  | .hbm, ⟨100, _⟩ => ⟨S10000x2, .f32⟩
  | .hbm, ⟨101, _⟩ => ⟨S10000x2, .f32⟩
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_1 : Ref sig .tc := ⟨.hbm, 36, rfl⟩
abbrev main_v23 : Ref sig .tc := ⟨.hbm, 37, rfl⟩
abbrev main_cst_2 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_3 : Ref sig .tc := ⟨.hbm, 42, rfl⟩
abbrev main_v27 : Ref sig .tc := ⟨.hbm, 43, rfl⟩
abbrev main_v28 : Ref sig .tc := ⟨.hbm, 44, rfl⟩
abbrev main_cst_4 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_5 : Ref sig .tc := ⟨.hbm, 49, rfl⟩
abbrev main_call0_v0 : Ref sig .tc := ⟨.hbm, 50, rfl⟩
abbrev main_call0_v1 : Ref sig .tc := ⟨.hbm, 51, rfl⟩
abbrev main_v32 : Ref sig .tc := ⟨.hbm, 52, rfl⟩
abbrev main_c_6 : Ref sig .tc := ⟨.hbm, 53, rfl⟩
abbrev main_v33 : Ref sig .tc := ⟨.hbm, 54, rfl⟩
abbrev main_v34 : Ref sig .tc := ⟨.hbm, 55, rfl⟩
abbrev main_c_7 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_c_8 : Ref sig .tc := ⟨.hbm, 62, rfl⟩
abbrev main_v40 : Ref sig .tc := ⟨.hbm, 63, rfl⟩
abbrev main_v41 : Ref sig .tc := ⟨.hbm, 64, rfl⟩
abbrev main_c_9 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_c_10 : Ref sig .tc := ⟨.hbm, 72, rfl⟩
abbrev main_v48 : Ref sig .tc := ⟨.hbm, 73, rfl⟩
abbrev main_v49 : Ref sig .tc := ⟨.hbm, 74, rfl⟩
abbrev main_c_11 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_12 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_call1_cst : Ref sig .tc := ⟨.hbm, 95, rfl⟩
abbrev main_call1_v0 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩

abbrev nD : Nat := 1
abbrev τ : Topo := Topo.v7x

variable {F : FTy → Type} [FloatOps F]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  bcast_S_S160000 : S_.BroadcastsInDim S160000 (![] : Fin 0 → Fin S160000.rank)
  bcast_S160000_S160000x1_0 : S160000.BroadcastsInDim S160000x1 (![0] : Fin 1 → Fin S160000x1.rank)
  bcast_S_S10000x512 : S_.BroadcastsInDim S10000x512 (![] : Fin 0 → Fin S10000x512.rank)
  bcast_S512_S1x512_1 : S512.BroadcastsInDim S1x512 (![1] : Fin 1 → Fin S1x512.rank)
  bcast_S1x512_S10000x512_0_1 : S1x512.BroadcastsInDim S10000x512 (![0, 1] : Fin 2 → Fin S10000x512.rank)
  concatenates_S10000x512_S10000x512_S10000x1024_d1 : Shape.Concatenates [S10000x512, S10000x512] S10000x1024 1
  concatenates_S160000_S10000_S170000_d0 : Shape.Concatenates [S160000, S10000] S170000 0
  bcast_S_S170000 : S_.BroadcastsInDim S170000 (![] : Fin 0 → Fin S170000.rank)
  bcast_S_S10000 : S_.BroadcastsInDim S10000 (![] : Fin 0 → Fin S10000.rank)
  bcast_S170000_S170000x1_0 : S170000.BroadcastsInDim S170000x1 (![0] : Fin 1 → Fin S170000x1.rank)
  bcast_S170000x1_S170000x256_0_1 : S170000x1.BroadcastsInDim S170000x256 (![0, 1] : Fin 2 → Fin S170000x256.rank)
  bcast_S_S10000x256 : S_.BroadcastsInDim S10000x256 (![] : Fin 0 → Fin S10000x256.rank)
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  bcast_S2_S1x2_1 : S2.BroadcastsInDim S1x2 (![1] : Fin 1 → Fin S1x2.rank)
  bcast_S1x2_S10000x2_0_1 : S1x2.BroadcastsInDim S10000x2 (![0, 1] : Fin 2 → Fin S10000x2.rank)
  gather_S10000x512_S160000x1_S160000x512_1_0_n_n_0_1_1512_wf : GatherDims.WF S10000x512 S160000x1 S160000x512 [1] [0] [] [0] [] 1 ![1, 512]
  scatter_S10000x512_S160000x1_S160000x512_1_0_0_1_wf : ScatterDims.WF S10000x512 S160000x1 S160000x512 [1] [0] [0] 1
  dot_S10000x512_S512x512_S10000x512_1_0_0_1_n_n_wf : DotDims.WF S10000x512 S512x512 S10000x512 [1] [0] [0] [1] [] []
  dot_S10000x1024_S1024x256_S10000x256_1_0_0_1_n_n_wf : DotDims.WF S10000x1024 S1024x256 S10000x256 [1] [0] [0] [1] [] []
  scatter_S10000_S170000x1_S170000_n_0_0_1_wf : ScatterDims.WF S10000 S170000x1 S170000 [] [0] [0] 1
  gather_S10000_S170000x1_S170000_n_0_n_n_0_1_1_wf : GatherDims.WF S10000 S170000x1 S170000 [] [0] [] [0] [] 1 ![1]
  gather_S10000x256_S170000x1_S170000x256_1_0_n_n_0_1_1256_wf : GatherDims.WF S10000x256 S170000x1 S170000x256 [1] [0] [] [0] [] 1 ![1, 256]
  scatter_S10000x256_S170000x1_S170000x256_1_0_0_1_wf : ScatterDims.WF S10000x256 S170000x1 S170000x256 [1] [0] [0] 1
  dot_S10000x256_S256x128_S10000x128_1_0_0_1_n_n_wf : DotDims.WF S10000x256 S256x128 S10000x128 [1] [0] [0] [1] [] []
  dot_S10000x128_S128x2_S10000x2_1_0_0_1_n_n_wf : DotDims.WF S10000x128 S128x2 S10000x2 [1] [0] [0] [1] [] []

variable [Facts₀]

def gather_S10000x512_S160000x1_S160000x512_1_0_n_n_0_1_1512 : GatherDims S10000x512 S160000x1 S160000x512 where
  offsetDims := [1]
  collapsedSliceDims := [0]
  operandBatchingDims := []
  startIndicesBatchingDims := []
  startIndexMap := [0]
  indexVectorDim := 1
  sliceSizes := ![1, 512]
  wf := gather_S10000x512_S160000x1_S160000x512_1_0_n_n_0_1_1512_wf
def scatter_S10000x512_S160000x1_S160000x512_1_0_0_1 : ScatterDims S10000x512 S160000x1 S160000x512 where
  updateWindowDims := [1]
  insertedWindowDims := [0]
  scatterDimsToOperandDims := [0]
  indexVectorDim := 1
  wf := scatter_S10000x512_S160000x1_S160000x512_1_0_0_1_wf
def dot_S10000x512_S512x512_S10000x512_1_0_0_1_n_n : DotDims S10000x512 S512x512 S10000x512 where
  lhsContracting := [1]
  rhsContracting := [0]
  lhsNonContracting := [0]
  rhsNonContracting := [1]
  lhsBatch := []
  rhsBatch := []
  wf := dot_S10000x512_S512x512_S10000x512_1_0_0_1_n_n_wf
def dot_S10000x1024_S1024x256_S10000x256_1_0_0_1_n_n : DotDims S10000x1024 S1024x256 S10000x256 where
  lhsContracting := [1]
  rhsContracting := [0]
  lhsNonContracting := [0]
  rhsNonContracting := [1]
  lhsBatch := []
  rhsBatch := []
  wf := dot_S10000x1024_S1024x256_S10000x256_1_0_0_1_n_n_wf
def scatter_S10000_S170000x1_S170000_n_0_0_1 : ScatterDims S10000 S170000x1 S170000 where
  updateWindowDims := []
  insertedWindowDims := [0]
  scatterDimsToOperandDims := [0]
  indexVectorDim := 1
  wf := scatter_S10000_S170000x1_S170000_n_0_0_1_wf
def gather_S10000_S170000x1_S170000_n_0_n_n_0_1_1 : GatherDims S10000 S170000x1 S170000 where
  offsetDims := []
  collapsedSliceDims := [0]
  operandBatchingDims := []
  startIndicesBatchingDims := []
  startIndexMap := [0]
  indexVectorDim := 1
  sliceSizes := ![1]
  wf := gather_S10000_S170000x1_S170000_n_0_n_n_0_1_1_wf
def gather_S10000x256_S170000x1_S170000x256_1_0_n_n_0_1_1256 : GatherDims S10000x256 S170000x1 S170000x256 where
  offsetDims := [1]
  collapsedSliceDims := [0]
  operandBatchingDims := []
  startIndicesBatchingDims := []
  startIndexMap := [0]
  indexVectorDim := 1
  sliceSizes := ![1, 256]
  wf := gather_S10000x256_S170000x1_S170000x256_1_0_n_n_0_1_1256_wf
def scatter_S10000x256_S170000x1_S170000x256_1_0_0_1 : ScatterDims S10000x256 S170000x1 S170000x256 where
  updateWindowDims := [1]
  insertedWindowDims := [0]
  scatterDimsToOperandDims := [0]
  indexVectorDim := 1
  wf := scatter_S10000x256_S170000x1_S170000x256_1_0_0_1_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def dot_S10000x128_S128x2_S10000x2_1_0_0_1_n_n : DotDims S10000x128 S128x2 S10000x2 where
  lhsContracting := [1]
  rhsContracting := [0]
  lhsNonContracting := [0]
  rhsNonContracting := [1]
  lhsBatch := []
  rhsBatch := []
  wf := dot_S10000x128_S128x2_S10000x2_1_0_0_1_n_n_wf

class Facts : Prop extends Facts₀ where

variable [Facts]
-- ==== Proof.KernelRun.lean ====
/-
  The idealized kernel's run with its result named.  Every weakly fair execution of the program — a stretch of
  host operations, the first region, a second stretch, the second region — terminates without a fault; the
  thread's buffers then hold the contents the last boundary of that chain assigns them.  Read at the result
  buffer this is the second region's output array after its write-backs; read at an argument it is the launch
  contents, since no operation and no region writes an argument.
-/
import proofs.«102789_j62758062129644_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run : θ_run defs (onTc (τ := τ) (main (F := F))) ⟨m, fun _ => 0, ρ⟩ (fun r => ∀ c : Dev nD,
      r.2.mem ((c.tc : Thread nD τ).loc main_v42) = W4 m ρ c (Proc.devRef .tc main_v42)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v42 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c)⟩)

end Cert.KernelIdeal.RunValue

end
-- ==== Proof.Bodies.lean ====
/-
  The two kernel bodies read at an index, at the ideal values (every float an extended real, every operation exact, the
  format changes the identity). Each body is a composition of matrix products into a zero accumulator, row and column
  broadcasts, sums, products and a clamp at zero; read at (r, c) it is a nested finite sum over the contracted
  coordinates. First each matrix product's operand indices are computed from its dimension numbers (rows × contraction
  times contraction × columns), then the column broadcast [a, 1] → [a, b], then the two bodies.
-/
import proofs.«102789_j62758062129644_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.Bodies

open Idealize.ShloMosaic Idealize.SL.Sem Idealize.ShloMosaic.ValueIdx Cert.KernelIdeal Cert.KernelIdeal.Gen
open scoped BigOperators

/-! ## Matrix products into a zero accumulator, read at an index -/

/-! ### The [1000,512] × [512,512] contraction -/

/-- The left operand's row coordinate is the output's row. -/
theorem mm_512_512_lhs0 (i : S1000x512.Idx) (q : dot_S1000x512_S512x512_S1000x512_1_0_0_1_n_n.contr.Idx) :
    (dot_S1000x512_S512x512_S1000x512_1_0_0_1_n_n.lhsIdx i q 0).val = (i 0).val := by
  unfold DotDims.lhsIdx
  rw [dif_neg (show ¬(0 : Fin S1000x512.rank) ∈ dot_S1000x512_S512x512_S1000x512_1_0_0_1_n_n.lhsBatch by decide), dif_pos (show (0 : Fin S1000x512.rank) ∈ dot_S1000x512_S512x512_S1000x512_1_0_0_1_n_n.lhsNonContracting by decide)]
  rfl
/-- The left operand's column coordinate is the contracted coordinate. -/
theorem mm_512_512_lhs1 (i : S1000x512.Idx) (q : dot_S1000x512_S512x512_S1000x512_1_0_0_1_n_n.contr.Idx) :
    (dot_S1000x512_S512x512_S1000x512_1_0_0_1_n_n.lhsIdx i q 1).val = (q ⟨0, by decide⟩).val :=
  dot_S1000x512_S512x512_S1000x512_1_0_0_1_n_n.lhsIdx_val_of_single rfl i q
/-- The right operand's row coordinate is the contracted coordinate. -/
theorem mm_512_512_rhs0 (i : S1000x512.Idx) (q : dot_S1000x512_S512x512_S1000x512_1_0_0_1_n_n.contr.Idx) :
    (dot_S1000x512_S512x512_S1000x512_1_0_0_1_n_n.rhsIdx i q 0).val = (q ⟨0, by decide⟩).val :=
  dot_S1000x512_S512x512_S1000x512_1_0_0_1_n_n.rhsIdx_val_of_single rfl i q
/-- The right operand's column coordinate is the output's column. -/
theorem mm_512_512_rhs1 (i : S1000x512.Idx) (q : dot_S1000x512_S512x512_S1000x512_1_0_0_1_n_n.contr.Idx) :
    (dot_S1000x512_S512x512_S1000x512_1_0_0_1_n_n.rhsIdx i q 1).val = (i 1).val := by
  unfold DotDims.rhsIdx
  rw [dif_neg (show ¬(1 : Fin S512x512.rank) ∈ dot_S1000x512_S512x512_S1000x512_1_0_0_1_n_n.rhsBatch by decide), dif_pos (show (1 : Fin S512x512.rank) ∈ dot_S1000x512_S512x512_S1000x512_1_0_0_1_n_n.rhsNonContracting by decide)]
  rfl

/-- A matmul of an [1000,512] by a [512,512] matrix into a zero accumulator, read at (r, c): the sum over the
    contracted coordinate of the products. -/
theorem mm_512_512 (a : FVec Ideal S1000x512 .bf16) (b : FVec Ideal S512x512 .bf16) (r : Fin 1000) (c : Fin 512) :
    matmul dot_S1000x512_S512x512_S1000x512_1_0_0_1_n_n none a b (constant (F := Ideal) S1000x512 .f32 0x00000000#32) (ix2 r c)
      = ∑ k : Fin 512, a (ix2 r k) * b (ix2 k c) := by
  simp only [matmul]
  rw [Ideal.matmul_constant_zero_apply, ← Equiv.sum_comp (contrEquiv1 dot_S1000x512_S512x512_S1000x512_1_0_0_1_n_n 512 rfl rfl).symm]
  refine Finset.sum_congr rfl fun k _ => ?_
  have hk := contrEquiv1_symm_val dot_S1000x512_S512x512_S1000x512_1_0_0_1_n_n 512 rfl rfl k
  have el : dot_S1000x512_S512x512_S1000x512_1_0_0_1_n_n.lhsIdx (ix2 r c) ((contrEquiv1 dot_S1000x512_S512x512_S1000x512_1_0_0_1_n_n 512 rfl rfl).symm k) = ix2 r k := funext fun x => Fin.ext (by
    match x with
    | ⟨0, _⟩ => exact mm_512_512_lhs0 _ _
    | ⟨1, _⟩ => exact (mm_512_512_lhs1 _ _).trans hk)
  have er : dot_S1000x512_S512x512_S1000x512_1_0_0_1_n_n.rhsIdx (ix2 r c) ((contrEquiv1 dot_S1000x512_S512x512_S1000x512_1_0_0_1_n_n 512 rfl rfl).symm k) = ix2 k c := funext fun x => Fin.ext (by
    match x with
    | ⟨0, _⟩ => exact (mm_512_512_rhs0 _ _).trans hk
    | ⟨1, _⟩ => exact mm_512_512_rhs1 _ _)
  rw [el, er]

/-! ### The [1000,512] × [512,256] contraction -/

/-- The left operand's row coordinate is the output's row. -/
theorem mm_512_256_lhs0 (i : S1000x256.Idx) (q : dot_S1000x512_S512x256_S1000x256_1_0_0_1_n_n.contr.Idx) :
    (dot_S1000x512_S512x256_S1000x256_1_0_0_1_n_n.lhsIdx i q 0).val = (i 0).val := by
  unfold DotDims.lhsIdx
  rw [dif_neg (show ¬(0 : Fin S1000x512.rank) ∈ dot_S1000x512_S512x256_S1000x256_1_0_0_1_n_n.lhsBatch by decide), dif_pos (show (0 : Fin S1000x512.rank) ∈ dot_S1000x512_S512x256_S1000x256_1_0_0_1_n_n.lhsNonContracting by decide)]
  rfl
/-- The left operand's column coordinate is the contracted coordinate. -/
theorem mm_512_256_lhs1 (i : S1000x256.Idx) (q : dot_S1000x512_S512x256_S1000x256_1_0_0_1_n_n.contr.Idx) :
    (dot_S1000x512_S512x256_S1000x256_1_0_0_1_n_n.lhsIdx i q 1).val = (q ⟨0, by decide⟩).val :=
  dot_S1000x512_S512x256_S1000x256_1_0_0_1_n_n.lhsIdx_val_of_single rfl i q
/-- The right operand's row coordinate is the contracted coordinate. -/
theorem mm_512_256_rhs0 (i : S1000x256.Idx) (q : dot_S1000x512_S512x256_S1000x256_1_0_0_1_n_n.contr.Idx) :
    (dot_S1000x512_S512x256_S1000x256_1_0_0_1_n_n.rhsIdx i q 0).val = (q ⟨0, by decide⟩).val :=
  dot_S1000x512_S512x256_S1000x256_1_0_0_1_n_n.rhsIdx_val_of_single rfl i q
/-- The right operand's column coordinate is the output's column. -/
theorem mm_512_256_rhs1 (i : S1000x256.Idx) (q : dot_S1000x512_S512x256_S1000x256_1_0_0_1_n_n.contr.Idx) :
    (dot_S1000x512_S512x256_S1000x256_1_0_0_1_n_n.rhsIdx i q 1).val = (i 1).val := by
  unfold DotDims.rhsIdx
  rw [dif_neg (show ¬(1 : Fin S512x256.rank) ∈ dot_S1000x512_S512x256_S1000x256_1_0_0_1_n_n.rhsBatch by decide), dif_pos (show (1 : Fin S512x256.rank) ∈ dot_S1000x512_S512x256_S1000x256_1_0_0_1_n_n.rhsNonContracting by decide)]
  rfl

/-- A matmul of an [1000,512] by a [512,256] matrix into a zero accumulator, read at (r, c): the sum over the
    contracted coordinate of the products. -/
theorem mm_512_256 (a : FVec Ideal S1000x512 .bf16) (b : FVec Ideal S512x256 .bf16) (r : Fin 1000) (c : Fin 256) :
    matmul dot_S1000x512_S512x256_S1000x256_1_0_0_1_n_n none a b (constant (F := Ideal) S1000x256 .f32 0x00000000#32) (ix2 r c)
      = ∑ k : Fin 512, a (ix2 r k) * b (ix2 k c) := by
  simp only [matmul]
  rw [Ideal.matmul_constant_zero_apply, ← Equiv.sum_comp (contrEquiv1 dot_S1000x512_S512x256_S1000x256_1_0_0_1_n_n 512 rfl rfl).symm]
  refine Finset.sum_congr rfl fun k _ => ?_
  have hk := contrEquiv1_symm_val dot_S1000x512_S512x256_S1000x256_1_0_0_1_n_n 512 rfl rfl k
  have el : dot_S1000x512_S512x256_S1000x256_1_0_0_1_n_n.lhsIdx (ix2 r c) ((contrEquiv1 dot_S1000x512_S512x256_S1000x256_1_0_0_1_n_n 512 rfl rfl).symm k) = ix2 r k := funext fun x => Fin.ext (by
    match x with
    | ⟨0, _⟩ => exact mm_512_256_lhs0 _ _
    | ⟨1, _⟩ => exact (mm_512_256_lhs1 _ _).trans hk)
  have er : dot_S1000x512_S512x256_S1000x256_1_0_0_1_n_n.rhsIdx (ix2 r c) ((contrEquiv1 dot_S1000x512_S512x256_S1000x256_1_0_0_1_n_n 512 rfl rfl).symm k) = ix2 k c := funext fun x => Fin.ext (by
    match x with
    | ⟨0, _⟩ => exact (mm_512_256_rhs0 _ _).trans hk
    | ⟨1, _⟩ => exact mm_512_256_rhs1 _ _)
  rw [el, er]

/-! ### The [1000,256] × [256,128] contraction -/

/-- The left operand's row coordinate is the output's row. -/
theorem mm_256_128_lhs0 (i : S1000x128.Idx) (q : dot_S1000x256_S256x128_S1000x128_1_0_0_1_n_n.contr.Idx) :
    (dot_S1000x256_S256x128_S1000x128_1_0_0_1_n_n.lhsIdx i q 0).val = (i 0).val := by
  unfold DotDims.lhsIdx
  rw [dif_neg (show ¬(0 : Fin S1000x256.rank) ∈ dot_S1000x256_S256x128_S1000x128_1_0_0_1_n_n.lhsBatch by decide), dif_pos (show (0 : Fin S1000x256.rank) ∈ dot_S1000x256_S256x128_S1000x128_1_0_0_1_n_n.lhsNonContracting by decide)]
  rfl
/-- The left operand's column coordinate is the contracted coordinate. -/
theorem mm_256_128_lhs1 (i : S1000x128.Idx) (q : dot_S1000x256_S256x128_S1000x128_1_0_0_1_n_n.contr.Idx) :
    (dot_S1000x256_S256x128_S1000x128_1_0_0_1_n_n.lhsIdx i q 1).val = (q ⟨0, by decide⟩).val :=
  dot_S1000x256_S256x128_S1000x128_1_0_0_1_n_n.lhsIdx_val_of_single rfl i q
/-- The right operand's row coordinate is the contracted coordinate. -/
theorem mm_256_128_rhs0 (i : S1000x128.Idx) (q : dot_S1000x256_S256x128_S1000x128_1_0_0_1_n_n.contr.Idx) :
    (dot_S1000x256_S256x128_S1000x128_1_0_0_1_n_n.rhsIdx i q 0).val = (q ⟨0, by decide⟩).val :=
  dot_S1000x256_S256x128_S1000x128_1_0_0_1_n_n.rhsIdx_val_of_single rfl i q
/-- The right operand's column coordinate is the output's column. -/
theorem mm_256_128_rhs1 (i : S1000x128.Idx) (q : dot_S1000x256_S256x128_S1000x128_1_0_0_1_n_n.contr.Idx) :
    (dot_S1000x256_S256x128_S1000x128_1_0_0_1_n_n.rhsIdx i q 1).val = (i 1).val := by
  unfold DotDims.rhsIdx
  rw [dif_neg (show ¬(1 : Fin S256x128.rank) ∈ dot_S1000x256_S256x128_S1000x128_1_0_0_1_n_n.rhsBatch by decide), dif_pos (show (1 : Fin S256x128.rank) ∈ dot_S1000x256_S256x128_S1000x128_1_0_0_1_n_n.rhsNonContracting by decide)]
  rfl

/-- A matmul of an [1000,256] by a [256,128] matrix into a zero accumulator, read at (r, c): the sum over the
    contracted coordinate of the products. -/
theorem mm_256_128 (a : FVec Ideal S1000x256 .bf16) (b : FVec Ideal S256x128 .bf16) (r : Fin 1000) (c : Fin 128) :
    matmul dot_S1000x256_S256x128_S1000x128_1_0_0_1_n_n none a b (constant (F := Ideal) S1000x128 .f32 0x00000000#32) (ix2 r c)
      = ∑ k : Fin 256, a (ix2 r k) * b (ix2 k c) := by
  simp only [matmul]
  rw [Ideal.matmul_constant_zero_apply, ← Equiv.sum_comp (contrEquiv1 dot_S1000x256_S256x128_S1000x128_1_0_0_1_n_n 256 rfl rfl).symm]
  refine Finset.sum_congr rfl fun k _ => ?_
  have hk := contrEquiv1_symm_val dot_S1000x256_S256x128_S1000x128_1_0_0_1_n_n 256 rfl rfl k
  have el : dot_S1000x256_S256x128_S1000x128_1_0_0_1_n_n.lhsIdx (ix2 r c) ((contrEquiv1 dot_S1000x256_S256x128_S1000x128_1_0_0_1_n_n 256 rfl rfl).symm k) = ix2 r k := funext fun x => Fin.ext (by
    match x with
    | ⟨0, _⟩ => exact mm_256_128_lhs0 _ _
    | ⟨1, _⟩ => exact (mm_256_128_lhs1 _ _).trans hk)
  have er : dot_S1000x256_S256x128_S1000x128_1_0_0_1_n_n.rhsIdx (ix2 r c) ((contrEquiv1 dot_S1000x256_S256x128_S1000x128_1_0_0_1_n_n 256 rfl rfl).symm k) = ix2 k c := funext fun x => Fin.ext (by
    match x with
    | ⟨0, _⟩ => exact (mm_256_128_rhs0 _ _).trans hk
    | ⟨1, _⟩ => exact mm_256_128_rhs1 _ _)
  rw [el, er]

/-! ### The [1000,128] × [128,2] contraction -/

/-- The left operand's row coordinate is the output's row. -/
theorem mm_128_2_lhs0 (i : S1000x2.Idx) (q : dot_S1000x128_S128x2_S1000x2_1_0_0_1_n_n.contr.Idx) :
    (dot_S1000x128_S128x2_S1000x2_1_0_0_1_n_n.lhsIdx i q 0).val = (i 0).val := by
  unfold DotDims.lhsIdx
  rw [dif_neg (show ¬(0 : Fin S1000x128.rank) ∈ dot_S1000x128_S128x2_S1000x2_1_0_0_1_n_n.lhsBatch by decide), dif_pos (show (0 : Fin S1000x128.rank) ∈ dot_S1000x128_S128x2_S1000x2_1_0_0_1_n_n.lhsNonContracting by decide)]
  rfl
/-- The left operand's column coordinate is the contracted coordinate. -/
theorem mm_128_2_lhs1 (i : S1000x2.Idx) (q : dot_S1000x128_S128x2_S1000x2_1_0_0_1_n_n.contr.Idx) :
    (dot_S1000x128_S128x2_S1000x2_1_0_0_1_n_n.lhsIdx i q 1).val = (q ⟨0, by decide⟩).val :=
  dot_S1000x128_S128x2_S1000x2_1_0_0_1_n_n.lhsIdx_val_of_single rfl i q
/-- The right operand's row coordinate is the contracted coordinate. -/
theorem mm_128_2_rhs0 (i : S1000x2.Idx) (q : dot_S1000x128_S128x2_S1000x2_1_0_0_1_n_n.contr.Idx) :
    (dot_S1000x128_S128x2_S1000x2_1_0_0_1_n_n.rhsIdx i q 0).val = (q ⟨0, by decide⟩).val :=
  dot_S1000x128_S128x2_S1000x2_1_0_0_1_n_n.rhsIdx_val_of_single rfl i q
/-- The right operand's column coordinate is the output's column. -/
theorem mm_128_2_rhs1 (i : S1000x2.Idx) (q : dot_S1000x128_S128x2_S1000x2_1_0_0_1_n_n.contr.Idx) :
    (dot_S1000x128_S128x2_S1000x2_1_0_0_1_n_n.rhsIdx i q 1).val = (i 1).val := by
  unfold DotDims.rhsIdx
  rw [dif_neg (show ¬(1 : Fin S128x2.rank) ∈ dot_S1000x128_S128x2_S1000x2_1_0_0_1_n_n.rhsBatch by decide), dif_pos (show (1 : Fin S128x2.rank) ∈ dot_S1000x128_S128x2_S1000x2_1_0_0_1_n_n.rhsNonContracting by decide)]
  rfl

/-- A matmul of an [1000,128] by a [128,2] matrix into a zero accumulator, read at (r, c): the sum over the
    contracted coordinate of the products. -/
theorem mm_128_2 (a : FVec Ideal S1000x128 .bf16) (b : FVec Ideal S128x2 .bf16) (r : Fin 1000) (c : Fin 2) :
    matmul dot_S1000x128_S128x2_S1000x2_1_0_0_1_n_n none a b (constant (F := Ideal) S1000x2 .f32 0x00000000#32) (ix2 r c)
      = ∑ k : Fin 128, a (ix2 r k) * b (ix2 k c) := by
  simp only [matmul]
  rw [Ideal.matmul_constant_zero_apply, ← Equiv.sum_comp (contrEquiv1 dot_S1000x128_S128x2_S1000x2_1_0_0_1_n_n 128 rfl rfl).symm]
  refine Finset.sum_congr rfl fun k _ => ?_
  have hk := contrEquiv1_symm_val dot_S1000x128_S128x2_S1000x2_1_0_0_1_n_n 128 rfl rfl k
  have el : dot_S1000x128_S128x2_S1000x2_1_0_0_1_n_n.lhsIdx (ix2 r c) ((contrEquiv1 dot_S1000x128_S128x2_S1000x2_1_0_0_1_n_n 128 rfl rfl).symm k) = ix2 r k := funext fun x => Fin.ext (by
    match x with
    | ⟨0, _⟩ => exact mm_128_2_lhs0 _ _
    | ⟨1, _⟩ => exact (mm_128_2_lhs1 _ _).trans hk)
  have er : dot_S1000x128_S128x2_S1000x2_1_0_0_1_n_n.rhsIdx (ix2 r c) ((contrEquiv1 dot_S1000x128_S128x2_S1000x2_1_0_0_1_n_n 128 rfl rfl).symm k) = ix2 k c := funext fun x => Fin.ext (by
    match x with
    | ⟨0, _⟩ => exact (mm_128_2_rhs0 _ _).trans hk
    | ⟨1, _⟩ => exact mm_128_2_rhs1 _ _)
  rw [el, er]

/-! ### A column broadcast along the rows' lanes -/

/-- An `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ### The two bodies at an index -/

/-- The first body at (r, c): the two contractions of the row of `v0` and of the row of the affine image of `v2`,
    added and scaled by the row's factor. -/
theorem enc_apply (v0 v2 : Vec Ideal S1000x512 .f32) (v5 : Vec Ideal S512x512 .f32) (v8 : Vec Ideal S1x512 .f32)
    (v12 v15 : Vec Ideal S512x256 .f32) (v22 : Vec Ideal S1000x1 .f32) (r : Fin 1000) (c : Fin 256) :
    k0_pay1 (F := Ideal) v0 v2 v5 v8 v12 v15 v22 (ix2 r c)
      = ((∑ k : Fin 512, v0 (ix2 r k) * v12 (ix2 k c))
          + (∑ k : Fin 512, ((∑ j : Fin 512, v2 (ix2 r j) * v5 (ix2 j k)) + v8 (ix2 (0 : Fin 1) k)) * v15 (ix2 k c)))
        * v22 (ix2 r (0 : Fin 1)) := by
  unfold k0_pay1
  simp only [shapeCast_self, truncf_apply, mulf_apply, addf_apply, mm_512_256, mm_512_512, broadcastTo_a1_ab_apply,
    broadcastTo_1b_ab_apply]

/-- The second body at (r, c): the row's factor times the sum of the two inputs, shifted, contracted, shifted and
    clamped below at zero, contracted again and shifted. -/
theorem dec_apply (v0 : Vec Ideal S1000x256 .bf16) (v3 : Vec Ideal S1000x1 .f32) (v5 : Vec Ideal S1000x256 .f32)
    (v10 : Vec Ideal S1x256 .f32) (v15 : Vec Ideal S256x128 .f32) (v18 : Vec Ideal S1x128 .f32)
    (v24 : Vec Ideal S128x2 .f32) (v28 : Vec Ideal S1x2 .f32) (r : Fin 1000) (c : Fin 2) :
    k1_pay1 (F := Ideal) v0 v3 v5 v10 v15 v18 v24 v28 (ix2 r c)
      = (∑ k : Fin 128, max ((∑ j : Fin 256, (v3 (ix2 r (0 : Fin 1)) * (v5 (ix2 r j) + v0 (ix2 r j)) + v10 (ix2 (0 : Fin 1) j)) * v15 (ix2 j k)) + v18 (ix2 (0 : Fin 1) k)) (Ideal.ofBits .f32 0x00000000#32) * v24 (ix2 k c))
        + v28 (ix2 (0 : Fin 1) c) := by
  unfold k1_pay1
  simp only [shapeCast_self, truncf_apply, extf_apply, mulf_apply, addf_apply, maximumf_apply, broadcast_apply,
    mm_256_128, mm_128_2, broadcastTo_a1_ab_apply, broadcastTo_1b_ab_apply]
  rfl

end Cert.Bodies

end
-- ==== Proof.EncodeArray.lean ====
/-
  What the first region leaves in its output array, as one function of the arrays it finds on entry.
  The grid has ten points; point t works on rows 1000·t … 1000·t + 999 of the node-indexed arrays (the features,
  the neighbour sums, the column of normalisation factors) and on the whole of each weight array, and writes back
  rows 1000·t … 1000·t + 999 of the output.  Row n of the output therefore depends only on row n of the node-indexed
  inputs:  out[n, o] = (Σ_k x[n,k]·W1[k,o] + Σ_k (Σ_j agg[n,j]·fW[j,k] + fb[k])·W2[k,o]) · d[n].
  The ten blocks tile the array, so the array ends at that function everywhere.
-/
import proofs.«102789_j62758062129644_2_alg».proof.Proof.Gen.KernelIdeal.Frame
import proofs.«102789_j62758062129644_2_alg».proof.Proof.Bodies
import Idealize.ShloMosaic.Lib.Pipeline.Value
import Idealize.ShloMosaic.Lib.ValueIdx

set_option maxRecDepth 16384

noncomputable section

namespace Cert.KernelIdeal.Arrays

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- Row n, column o of the first region's output from the entry arrays. -/
def encAt (X AG : S10000x512.Idx → EReal) (DS : S10000x1.Idx → EReal) (FW : S512x512.Idx → EReal) (FB : S1x512.Idx → EReal)
    (G1 G2 : S512x256.Idx → EReal) (n : Fin 10000) (o : Fin 256) : EReal :=
  ((∑ k : Fin 512, X (ix2 n k) * G1 (ix2 k o))
      + (∑ k : Fin 512, ((∑ j : Fin 512, AG (ix2 n j) * FW (ix2 j k)) + FB (ix2 (0 : Fin 1) k)) * G2 (ix2 k o)))
    * DS (ix2 n (0 : Fin 1))

/-- The output array as a function of its index. -/
def encArr (X AG : S10000x512.Idx → EReal) (DS : S10000x1.Idx → EReal) (FW : S512x512.Idx → EReal) (FB : S1x512.Idx → EReal)
    (G1 G2 : S512x256.Idx → EReal) : S10000x256.Idx → EReal :=
  fun i => encAt X AG DS FW FB G1 G2 ⟨(i 0).val, idx2_lt0 i⟩ ⟨(i 1).val, idx2_lt1 i⟩

/-- The printed index maps over the ten points: the node-indexed windows move with the output's block on the row
    axis, every other coordinate of every window stays at block 0, and the output's row block is the point's number. -/
theorem idx_facts0 : ∀ t : Fin cfg0.N,
    win0_0.index t (0 : Fin 2) = win0_7.index t (0 : Fin 2) ∧ win0_0.index t (1 : Fin 2) = 0
    ∧ win0_1.index t (0 : Fin 2) = win0_7.index t (0 : Fin 2) ∧ win0_1.index t (1 : Fin 2) = 0
    ∧ win0_2.index t (0 : Fin 2) = win0_7.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 ∧ t.val < 10 :=
  (by decide +kernel : ∀ t : Fin grid0.N, _)

/-- WHAT POINT t WRITES BACK is block t of the whole-array function of the entry arrays. -/
theorem flushed0_eq (c : Dev nD) (t : Fin cfg0.N) :
    (dat0 V c).flushed 7 t = ((cfg0.win 7).blk t).view.read (Elt Ideal)
      (encArr (V c main_arg0) (V c main_v15) (V c main_v23) (V c main_arg2) (V c main_v26) (V c main_v24) (V c main_v25)) := by
  show (cfg0.win 7).cut (grid0.coords t) ((dat0 V c).after 7 t) = _
  rw [after0_7]
  unfold out0_7
  rw [View.canon_unit_zero hz]
  simp only [View.ld_unit_zero (S := S1000x512) hz, View.ld_unit_zero (S := S512x512) hz, View.ld_unit_zero (S := S1x512) hz,
    View.ld_unit_zero (S := S512x256) hz, View.ld_unit_zero (S := S1000x1) hz]
  obtain ⟨e00, e01, e10, e11, e20, e21, e30, e31, e40, e41, e50, e51, e60, e61, e70, e71, ht⟩ := idx_facts0 t
  funext j
  obtain ⟨r, q, rfl⟩ : ∃ (r : Fin 1000) (q : Fin 256), j = ix2 r q := ⟨j 0, j 1, eq_ix2 j⟩
  have hr : r.val < 1000 := r.isLt
  refine (Cert.Bodies.enc_apply (iblk0 V c 0 t) (iblk0 V c 1 t) (iblk0 V c 3 t) (iblk0 V c 4 t) (iblk0 V c 5 t) (iblk0 V c 6 t)
    (iblk0 V c 2 t) r q).trans ?_
  -- the row of the arrays this block row is
  have hR : t.val * 1000 + r.val < 10000 := by omega
  have h7 : ((cfg0.win 7).blk t).view.emb (ix2 r q) = ix2 (⟨t.val * 1000 + r.val, hR⟩ : Fin 10000) q := by
    funext a; apply Fin.ext
    match a with
    | ⟨0, _⟩ => show win0_7.index t (0 : Fin 2) * 1000 + 1 * r.val = t.val * 1000 + r.val; omega
    | ⟨1, _⟩ => show win0_7.index t (1 : Fin 2) * 256 + 1 * q.val = q.val; omega
  have hx : ∀ k : Fin 512, iblk0 V c 0 t (ix2 r k) = V c main_arg0 (ix2 (⟨t.val * 1000 + r.val, hR⟩ : Fin 10000) k) := fun k =>
    congrArg (V c main_arg0) (by
      funext a; apply Fin.ext
      match a with
      | ⟨0, _⟩ => show win0_0.index t (0 : Fin 2) * 1000 + 1 * r.val = t.val * 1000 + r.val; omega
      | ⟨1, _⟩ => show win0_0.index t (1 : Fin 2) * 512 + 1 * k.val = k.val; omega)
  have hag : ∀ k : Fin 512, iblk0 V c 1 t (ix2 r k) = V c main_v15 (ix2 (⟨t.val * 1000 + r.val, hR⟩ : Fin 10000) k) := fun k =>
    congrArg (V c main_v15) (by
      funext a; apply Fin.ext
      match a with
      | ⟨0, _⟩ => show win0_1.index t (0 : Fin 2) * 1000 + 1 * r.val = t.val * 1000 + r.val; omega
      | ⟨1, _⟩ => show win0_1.index t (1 : Fin 2) * 512 + 1 * k.val = k.val; omega)
  have hds : iblk0 V c 2 t (ix2 r (0 : Fin 1)) = V c main_v23 (ix2 (⟨t.val * 1000 + r.val, hR⟩ : Fin 10000) (0 : Fin 1)) :=
    congrArg (V c main_v23) (by
      funext a; apply Fin.ext
      match a with
      | ⟨0, _⟩ => show win0_2.index t (0 : Fin 2) * 1000 + 1 * r.val = t.val * 1000 + r.val; omega
      | ⟨1, _⟩ => show win0_2.index t (1 : Fin 2) * 1 + 1 * 0 = 0; omega)
  have hfw : ∀ (j k : Fin 512), iblk0 V c 3 t (ix2 j k) = V c main_arg2 (ix2 j k) := fun j k =>
    congrArg (V c main_arg2) (by
      funext a; apply Fin.ext
      match a with
      | ⟨0, _⟩ => show win0_3.index t (0 : Fin 2) * 512 + 1 * j.val = j.val; omega
      | ⟨1, _⟩ => show win0_3.index t (1 : Fin 2) * 512 + 1 * k.val = k.val; omega)
  have hfb : ∀ k : Fin 512, iblk0 V c 4 t (ix2 (0 : Fin 1) k) = V c main_v26 (ix2 (0 : Fin 1) k) := fun k =>
    congrArg (V c main_v26) (by
      funext a; apply Fin.ext
      match a with
      | ⟨0, _⟩ => show win0_4.index t (0 : Fin 2) * 1 + 1 * 0 = 0; omega
      | ⟨1, _⟩ => show win0_4.index t (1 : Fin 2) * 512 + 1 * k.val = k.val; omega)
  have hg1 : ∀ (k : Fin 512) (o : Fin 256), iblk0 V c 5 t (ix2 k o) = V c main_v24 (ix2 k o) := fun k o =>
    congrArg (V c main_v24) (by
      funext a; apply Fin.ext
      match a with
      | ⟨0, _⟩ => show win0_5.index t (0 : Fin 2) * 512 + 1 * k.val = k.val; omega
      | ⟨1, _⟩ => show win0_5.index t (1 : Fin 2) * 256 + 1 * o.val = o.val; omega)
  have hg2 : ∀ (k : Fin 512) (o : Fin 256), iblk0 V c 6 t (ix2 k o) = V c main_v25 (ix2 k o) := fun k o =>
    congrArg (V c main_v25) (by
      funext a; apply Fin.ext
      match a with
      | ⟨0, _⟩ => show win0_6.index t (0 : Fin 2) * 512 + 1 * k.val = k.val; omega
      | ⟨1, _⟩ => show win0_6.index t (1 : Fin 2) * 256 + 1 * o.val = o.val; omega)
  simp only [hx, hag, hds, hfw, hfb, hg1, hg2]
  show _ = encArr (V c main_arg0) (V c main_v15) (V c main_v23) (V c main_arg2) (V c main_v26) (V c main_v24) (V c main_v25)
    (((cfg0.win 7).blk t).view.emb (ix2 r q))
  rw [h7]
  rfl

/-- An index of the output array is in point t's block iff each coordinate is in the block's range on its axis. -/
theorem mem_blk0 (t : Fin cfg0.N) (i : S10000x256.Idx) :
    i ∈ ((cfg0.win 7).blk t).view.set ↔ ∀ a : Fin 2, win0_7.index t a * S1000x256.size a ≤ (i a).val ∧ (i a).val < win0_7.index t a * S1000x256.size a + S1000x256.size a := by
  show i ∈ ((View.whole main_v27).slice (win0_7.rect t)).set ↔ _
  rw [View.set_slice_whole, Rect.mem_set_unit]
  exact Iff.rfl

/-- Every block row is some point's. -/
theorem idx_onto0 : ∀ q0 : Fin 10, ∃ t : Fin cfg0.N, win0_7.index t = ![q0.val, 0] :=
  (by decide +kernel : ∀ q0 : Fin 10, ∃ t : Fin grid0.N, win0_7.index t = ![q0.val, 0])

/-- The ten blocks cover the output array. -/
theorem cover0 (i : S10000x256.Idx) : ∃ t : Fin cfg0.N, (cfg0.win 7).flush t = true ∧ i ∈ ((cfg0.win 7).blk t).view.set := by
  have hi0 : (i 0).val < 10000 := (i 0).isLt
  have hi1 : (i 1).val < 256 := (i 1).isLt
  obtain ⟨t, ht⟩ := idx_onto0 ⟨(i 0).val / 1000, by omega⟩
  have q0 : win0_7.index t (0 : Fin 2) = (i 0).val / 1000 := congrFun ht 0
  have q1 : win0_7.index t (1 : Fin 2) = 0 := congrFun ht 1
  refine ⟨t, flush0_7 t, ?_⟩
  rw [mem_blk0]
  intro a
  match a with
  | ⟨0, _⟩ => show win0_7.index t (0 : Fin 2) * 1000 ≤ (i 0).val ∧ (i 0).val < win0_7.index t (0 : Fin 2) * 1000 + 1000; omega
  | ⟨1, _⟩ => show win0_7.index t (1 : Fin 2) * 256 ≤ (i 1).val ∧ (i 1).val < win0_7.index t (1 : Fin 2) * 256 + 256; omega

/-- THE OUTPUT ARRAY after the first region: the whole-array function of the entry arrays. -/
theorem final0 (c : Dev nD) : (dat0 V c).arrAt 7 cfg0.N
    = encArr (V c main_arg0) (V c main_v15) (V c main_v23) (V c main_arg2) (V c main_v26) (V c main_v24) (V c main_v25) :=
  (dat0 V c).arrAt_eq_of_cover 7 _ (fun t _ => flushed0_eq V c t) cover0

end Cert.KernelIdeal.Arrays

end
-- ==== Proof.DecodeArray.lean ====
/-
  What the second region leaves in its output array, as one function of the arrays it finds on entry.
  Point t of its ten-point grid works on rows 1000·t … 1000·t + 999 of the node-indexed arrays (the neighbour sums
  of the scaled rows, the scaled rows themselves, the column of factors) and on the whole of each weight and bias
  array, and writes back rows 1000·t … 1000·t + 999 of the output, two columns wide.  Row n of the output depends
  only on row n of the node-indexed inputs:
    u[n, j]   = d[n] · (raw[n, j] + hs[n, j]) + b[j]
    out[n, c] = Σ_k max(Σ_j u[n, j]·A[j, k] + a[k], 0) · B[k, c] + b'[c].
-/
import proofs.«102789_j62758062129644_2_alg».proof.Proof.Gen.KernelIdeal.Frame
import proofs.«102789_j62758062129644_2_alg».proof.Proof.Bodies
import Idealize.ShloMosaic.Lib.Pipeline.Value
import Idealize.ShloMosaic.Lib.ValueIdx

set_option maxRecDepth 16384

noncomputable section

namespace Cert.KernelIdeal.Arrays

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem hz' : (![0, 0] : Fin 2 → Nat) = fun _ => 0 := funext fun a => by fin_cases a <;> rfl

/-- Row n, column c of the second region's output from the entry arrays. -/
def decAt (RAW HS : S10000x256.Idx → EReal) (DS : S10000x1.Idx → EReal) (GB : S1x256.Idx → EReal) (A : S256x128.Idx → EReal)
    (AB : S1x128.Idx → EReal) (B : S128x2.Idx → EReal) (BB : S1x2.Idx → EReal) (n : Fin 10000) (c : Fin 2) : EReal :=
  (∑ k : Fin 128, max ((∑ j : Fin 256, (DS (ix2 n (0 : Fin 1)) * (RAW (ix2 n j) + HS (ix2 n j)) + GB (ix2 (0 : Fin 1) j)) * A (ix2 j k))
      + AB (ix2 (0 : Fin 1) k)) (Ideal.ofBits .f32 0x00000000#32) * B (ix2 k c))
    + BB (ix2 (0 : Fin 1) c)

/-- The output array as a function of its index. -/
def decArr (RAW HS : S10000x256.Idx → EReal) (DS : S10000x1.Idx → EReal) (GB : S1x256.Idx → EReal) (A : S256x128.Idx → EReal)
    (AB : S1x128.Idx → EReal) (B : S128x2.Idx → EReal) (BB : S1x2.Idx → EReal) : S10000x2.Idx → EReal :=
  fun i => decAt RAW HS DS GB A AB B BB ⟨(i 0).val, idx2_lt0 i⟩ ⟨(i 1).val, idx2_lt1 i⟩

/-- The printed index maps over the ten points. -/
theorem idx_facts1 : ∀ t : Fin cfg1.N,
    win1_0.index t (0 : Fin 2) = win1_8.index t (0 : Fin 2) ∧ win1_0.index t (1 : Fin 2) = 0
    ∧ win1_1.index t (0 : Fin 2) = win1_8.index t (0 : Fin 2) ∧ win1_1.index t (1 : Fin 2) = 0
    ∧ win1_2.index t (0 : Fin 2) = win1_8.index t (0 : Fin 2) ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0 ∧ t.val < 10 :=
  (by decide +kernel : ∀ t : Fin grid1.N, _)

/-- WHAT POINT t WRITES BACK is block t of the whole-array function of the entry arrays. -/
theorem flushed1_eq (c : Dev nD) (t : Fin cfg1.N) :
    (dat1 V c).flushed 8 t = ((cfg1.win 8).blk t).view.read (Elt Ideal)
      (decArr (V c main_v38) (V c main_v27) (V c main_v23) (V c main_v39) (V c main_arg6) (V c main_v40) (V c main_arg8) (V c main_v41)) := by
  show (cfg1.win 8).cut (grid1.coords t) ((dat1 V c).after 8 t) = _
  rw [after1_8]
  unfold out1_8
  rw [View.canon_unit_zero hz']
  simp only [View.ld_unit_zero (S := S1000x256) hz', View.ld_unit_zero (S := S1000x1) hz', View.ld_unit_zero (S := S1x256) hz',
    View.ld_unit_zero (S := S256x128) hz', View.ld_unit_zero (S := S1x128) hz', View.ld_unit_zero (S := S128x2) hz',
    View.ld_unit_zero (S := S1x2) hz']
  obtain ⟨e00, e01, e10, e11, e20, e21, e30, e31, e40, e41, e50, e51, e60, e61, e70, e71, e80, e81, ht⟩ := idx_facts1 t
  funext j
  obtain ⟨r, q, rfl⟩ : ∃ (r : Fin 1000) (q : Fin 2), j = ix2 r q := ⟨j 0, j 1, eq_ix2 j⟩
  have hr : r.val < 1000 := r.isLt
  refine (Cert.Bodies.dec_apply (iblk1 V c 1 t) (iblk1 V c 2 t) (iblk1 V c 0 t) (iblk1 V c 3 t) (iblk1 V c 4 t) (iblk1 V c 5 t)
    (iblk1 V c 6 t) (iblk1 V c 7 t) r q).trans ?_
  have hR : t.val * 1000 + r.val < 10000 := by omega
  have h8 : ((cfg1.win 8).blk t).view.emb (ix2 r q) = ix2 (⟨t.val * 1000 + r.val, hR⟩ : Fin 10000) q := by
    funext a; apply Fin.ext
    match a with
    | ⟨0, _⟩ => show win1_8.index t (0 : Fin 2) * 1000 + 1 * r.val = t.val * 1000 + r.val; omega
    | ⟨1, _⟩ => show win1_8.index t (1 : Fin 2) * 2 + 1 * q.val = q.val; omega
  have hraw : ∀ k : Fin 256, iblk1 V c 0 t (ix2 r k) = V c main_v38 (ix2 (⟨t.val * 1000 + r.val, hR⟩ : Fin 10000) k) := fun k =>
    congrArg (V c main_v38) (by
      funext a; apply Fin.ext
      match a with
      | ⟨0, _⟩ => show win1_0.index t (0 : Fin 2) * 1000 + 1 * r.val = t.val * 1000 + r.val; omega
      | ⟨1, _⟩ => show win1_0.index t (1 : Fin 2) * 256 + 1 * k.val = k.val; omega)
  have hhs : ∀ k : Fin 256, iblk1 V c 1 t (ix2 r k) = V c main_v27 (ix2 (⟨t.val * 1000 + r.val, hR⟩ : Fin 10000) k) := fun k =>
    congrArg (V c main_v27) (by
      funext a; apply Fin.ext
      match a with
      | ⟨0, _⟩ => show win1_1.index t (0 : Fin 2) * 1000 + 1 * r.val = t.val * 1000 + r.val; omega
      | ⟨1, _⟩ => show win1_1.index t (1 : Fin 2) * 256 + 1 * k.val = k.val; omega)
  have hds : iblk1 V c 2 t (ix2 r (0 : Fin 1)) = V c main_v23 (ix2 (⟨t.val * 1000 + r.val, hR⟩ : Fin 10000) (0 : Fin 1)) :=
    congrArg (V c main_v23) (by
      funext a; apply Fin.ext
      match a with
      | ⟨0, _⟩ => show win1_2.index t (0 : Fin 2) * 1000 + 1 * r.val = t.val * 1000 + r.val; omega
      | ⟨1, _⟩ => show win1_2.index t (1 : Fin 2) * 1 + 1 * 0 = 0; omega)
  have hgb : ∀ k : Fin 256, iblk1 V c 3 t (ix2 (0 : Fin 1) k) = V c main_v39 (ix2 (0 : Fin 1) k) := fun k =>
    congrArg (V c main_v39) (by
      funext a; apply Fin.ext
      match a with
      | ⟨0, _⟩ => show win1_3.index t (0 : Fin 2) * 1 + 1 * 0 = 0; omega
      | ⟨1, _⟩ => show win1_3.index t (1 : Fin 2) * 256 + 1 * k.val = k.val; omega)
  have hA : ∀ (j : Fin 256) (k : Fin 128), iblk1 V c 4 t (ix2 j k) = V c main_arg6 (ix2 j k) := fun j k =>
    congrArg (V c main_arg6) (by
      funext a; apply Fin.ext
      match a with
      | ⟨0, _⟩ => show win1_4.index t (0 : Fin 2) * 256 + 1 * j.val = j.val; omega
      | ⟨1, _⟩ => show win1_4.index t (1 : Fin 2) * 128 + 1 * k.val = k.val; omega)
  have hAB : ∀ k : Fin 128, iblk1 V c 5 t (ix2 (0 : Fin 1) k) = V c main_v40 (ix2 (0 : Fin 1) k) := fun k =>
    congrArg (V c main_v40) (by
      funext a; apply Fin.ext
      match a with
      | ⟨0, _⟩ => show win1_5.index t (0 : Fin 2) * 1 + 1 * 0 = 0; omega
      | ⟨1, _⟩ => show win1_5.index t (1 : Fin 2) * 128 + 1 * k.val = k.val; omega)
  have hB : ∀ (k : Fin 128) (o : Fin 2), iblk1 V c 6 t (ix2 k o) = V c main_arg8 (ix2 k o) := fun k o =>
    congrArg (V c main_arg8) (by
      funext a; apply Fin.ext
      match a with
      | ⟨0, _⟩ => show win1_6.index t (0 : Fin 2) * 128 + 1 * k.val = k.val; omega
      | ⟨1, _⟩ => show win1_6.index t (1 : Fin 2) * 2 + 1 * o.val = o.val; omega)
  have hBB : ∀ o : Fin 2, iblk1 V c 7 t (ix2 (0 : Fin 1) o) = V c main_v41 (ix2 (0 : Fin 1) o) := fun o =>
    congrArg (V c main_v41) (by
      funext a; apply Fin.ext
      match a with
      | ⟨0, _⟩ => show win1_7.index t (0 : Fin 2) * 1 + 1 * 0 = 0; omega
      | ⟨1, _⟩ => show win1_7.index t (1 : Fin 2) * 2 + 1 * o.val = o.val; omega)
  simp only [hraw, hhs, hds, hgb, hA, hAB, hB, hBB]
  show _ = decArr (V c main_v38) (V c main_v27) (V c main_v23) (V c main_v39) (V c main_arg6) (V c main_v40) (V c main_arg8) (V c main_v41)
    (((cfg1.win 8).blk t).view.emb (ix2 r q))
  rw [h8]
  rfl

/-- An index of the output array is in point t's block iff each coordinate is in the block's range on its axis. -/
theorem mem_blk1 (t : Fin cfg1.N) (i : S10000x2.Idx) :
    i ∈ ((cfg1.win 8).blk t).view.set ↔ ∀ a : Fin 2, win1_8.index t a * S1000x2.size a ≤ (i a).val ∧ (i a).val < win1_8.index t a * S1000x2.size a + S1000x2.size a := by
  show i ∈ ((View.whole main_v42).slice (win1_8.rect t)).set ↔ _
  rw [View.set_slice_whole, Rect.mem_set_unit]
  exact Iff.rfl

/-- Every block row is some point's. -/
theorem idx_onto1 : ∀ q0 : Fin 10, ∃ t : Fin cfg1.N, win1_8.index t = ![q0.val, 0] :=
  (by decide +kernel : ∀ q0 : Fin 10, ∃ t : Fin grid1.N, win1_8.index t = ![q0.val, 0])

/-- The ten blocks cover the output array. -/
theorem cover1 (i : S10000x2.Idx) : ∃ t : Fin cfg1.N, (cfg1.win 8).flush t = true ∧ i ∈ ((cfg1.win 8).blk t).view.set := by
  have hi0 : (i 0).val < 10000 := (i 0).isLt
  have hi1 : (i 1).val < 2 := (i 1).isLt
  obtain ⟨t, ht⟩ := idx_onto1 ⟨(i 0).val / 1000, by omega⟩
  have q0 : win1_8.index t (0 : Fin 2) = (i 0).val / 1000 := congrFun ht 0
  have q1 : win1_8.index t (1 : Fin 2) = 0 := congrFun ht 1
  refine ⟨t, flush1_8 t, ?_⟩
  rw [mem_blk1]
  intro a
  match a with
  | ⟨0, _⟩ => show win1_8.index t (0 : Fin 2) * 1000 ≤ (i 0).val ∧ (i 0).val < win1_8.index t (0 : Fin 2) * 1000 + 1000; omega
  | ⟨1, _⟩ => show win1_8.index t (1 : Fin 2) * 2 ≤ (i 1).val ∧ (i 1).val < win1_8.index t (1 : Fin 2) * 2 + 2; omega

/-- THE OUTPUT ARRAY after the second region: the whole-array function of the entry arrays. -/
theorem final1 (c : Dev nD) : (dat1 V c).arrAt 8 cfg1.N
    = decArr (V c main_v38) (V c main_v27) (V c main_v23) (V c main_v39) (V c main_arg6) (V c main_v40) (V c main_arg8) (V c main_v41) :=
  (dat1 V c).arrAt_eq_of_cover 8 _ (fun t _ => flushed1_eq V c t) cover1

end Cert.KernelIdeal.Arrays

end
-- ==== Proof.Spec.lean ====
/-
  The mathematics of the claim, free of any program: a graph on N nodes with E directed edges, edge e carrying
  a source node S e (the row it reads) and an integer target T e (the row it adds into; an edge whose target is
  no node adds nowhere).  A neighbour sum at node n adds, over the edges pointing at n, a row of features read at
  the edge's source.  The node's degree counts those edges plus the node's own loop, and the normalisation factor
  is d n = (degree n)^(-1/2), a positive real.

  One side of the claim scales every row by its own factor, sums the scaled rows over the neighbours, adds the
  node's own scaled row and multiplies the total by d n.  The other side appends one loop edge per node to the
  edge list and sums rows scaled by the product of both endpoints' factors.  The two agree because a
  nonnegative real factor distributes over sums of extended reals (sums there may meet both infinities, where a
  general factor would not distribute), and because the appended loop edges contribute, at node n, exactly the
  n-th loop.
-/
import Idealize.ShloMosaic.PureOps.Ideal
import Idealize.ShloMosaic.PureOps.Ideal.Laws

noncomputable section

namespace Cert.Spec

open Idealize.ShloMosaic Finset

variable {N E D : ℕ}

/-- The edges pointing at node n: those whose integer target is n. -/
def into (T : Fin E → ℤ) (n : Fin N) : Finset (Fin E) := univ.filter fun e => T e = (n.val : ℤ)

/-- How many edges point at node n, as an extended real: a sum of ones. -/
def cnt (T : Fin E → ℤ) (n : Fin N) : EReal := ∑ _e ∈ into T n, (1 : EReal)

/-- The normalisation factor of node n when every node also carries a loop: (count + 1)^(-1/2). -/
def dis (T : Fin E → ℤ) (n : Fin N) : EReal := Ideal.rsqrt (cnt T n + 1)

/-- The same factor computed from an edge list that already holds the loops, guarded against an empty count the
    way the reference guards it: zero where nothing points at the node, else (max count 1)^(-1/2). -/
def disGuard (T : Fin E → ℤ) (n : Fin N) : EReal :=
  if 0 < cnt T n then Ideal.rsqrt (max (cnt T n) 1) else 0

/-! ## A count is a nonnegative real, so the factor is one too -/

theorem sum_one_real {ι : Type*} (s : Finset ι) : ∃ r : ℝ, 0 ≤ r ∧ ∑ _e ∈ s, (1 : EReal) = (r : EReal) := by
  classical
  induction s using Finset.induction_on with
  | empty => exact ⟨0, le_rfl, by simp⟩
  | insert a s ha ih =>
    obtain ⟨r, hr, e⟩ := ih
    refine ⟨1 + r, by positivity, ?_⟩
    rw [Finset.sum_insert ha, e, EReal.coe_add, EReal.coe_one]

theorem cnt_real (T : Fin E → ℤ) (n : Fin N) : ∃ r : ℝ, 0 ≤ r ∧ cnt T n = (r : EReal) := sum_one_real _

theorem rsqrt_coe_pos {r : ℝ} (h : 0 < r) : Ideal.rsqrt (r : EReal) = (((Real.sqrt r)⁻¹ : ℝ) : EReal) := by
  show (if r < 0 then (⊥ : EReal) else if r = 0 then ⊤ else (((Real.sqrt r)⁻¹ : ℝ) : EReal)) = _
  rw [if_neg (not_lt.mpr h.le), if_neg h.ne']

/-- The factor is a nonnegative real. -/
theorem dis_real (T : Fin E → ℤ) (n : Fin N) : ∃ r : ℝ, 0 ≤ r ∧ dis T n = (r : EReal) := by
  obtain ⟨r, hr, e⟩ := cnt_real T n
  refine ⟨(Real.sqrt (r + 1))⁻¹, inv_nonneg.mpr (Real.sqrt_nonneg _), ?_⟩
  unfold dis
  rw [e, ← EReal.coe_one, ← EReal.coe_add]
  exact rsqrt_coe_pos (by positivity)

theorem dis_nonneg (T : Fin E → ℤ) (n : Fin N) : 0 ≤ dis T n := by
  obtain ⟨r, hr, e⟩ := dis_real T n; rw [e]; exact_mod_cast hr

theorem dis_ne_top (T : Fin E → ℤ) (n : Fin N) : dis T n ≠ ⊤ := by
  obtain ⟨r, _, e⟩ := dis_real T n; rw [e]; exact EReal.coe_ne_top r

/-! ## A nonnegative real factor distributes over a finite sum of extended reals -/

theorem mul_sum_of_real {ι : Type*} (s : Finset ι) {d : EReal} (h0 : 0 ≤ d) (ht : d ≠ ⊤) (f : ι → EReal) :
    d * ∑ i ∈ s, f i = ∑ i ∈ s, d * f i := by
  classical
  induction s using Finset.induction_on with
  | empty => simp
  | insert a s ha ih =>
    rw [Finset.sum_insert ha, Finset.sum_insert ha, EReal.left_distrib_of_nonneg_of_ne_top h0 ht, ih]

/-! ## An edge list with the loops appended -/

/-- A sum over the edges of the longer list pointing at n is the sum over the original edges pointing at n plus
    the sum over the appended ones pointing at n. -/
theorem sum_into_append (T' : Fin (E + N) → ℤ) (n : Fin N) (F : Fin (E + N) → EReal) :
    ∑ e ∈ into T' n, F e
      = ∑ e ∈ into (fun e : Fin E => T' (Fin.castAdd N e)) n, F (Fin.castAdd N e)
        + ∑ m ∈ into (fun m : Fin N => T' (Fin.natAdd E m)) n, F (Fin.natAdd E m) := by
  unfold into
  rw [Finset.sum_filter, Finset.sum_filter, Finset.sum_filter, Fin.sum_univ_add]

/-- Among the loops, one per node in order, exactly the n-th points at n. -/
theorem into_loops (n : Fin N) : into (fun m : Fin N => (m.val : ℤ)) n = {n} := by
  unfold into
  ext m
  simp only [Finset.mem_filter, Finset.mem_univ, true_and, Finset.mem_singleton]
  constructor
  · intro h; exact Fin.ext (by exact_mod_cast h)
  · intro h; rw [h]

section Append

variable (S : Fin E → Fin N) (T : Fin E → ℤ) (S' Sd : Fin (E + N) → Fin N) (T' : Fin (E + N) → ℤ)
  (hT : ∀ e, T' (Fin.castAdd N e) = T e) (lT : ∀ m, T' (Fin.natAdd E m) = (m.val : ℤ))

include hT lT in
/-- Counting over the longer list counts the original edges and the one loop. -/
theorem cnt_append (n : Fin N) : cnt T' n = cnt T n + 1 := by
  unfold cnt
  rw [sum_into_append T' n (fun _ => (1 : EReal))]
  have e1 : (fun e : Fin E => T' (Fin.castAdd N e)) = T := funext hT
  have e2 : (fun m : Fin N => T' (Fin.natAdd E m)) = fun m : Fin N => (m.val : ℤ) := funext lT
  rw [e1, e2, into_loops, Finset.sum_singleton]

include hT lT in
/-- The guarded factor over the longer list is the factor over the original one: the count is at least one. -/
theorem disGuard_append (n : Fin N) : disGuard T' n = dis T n := by
  unfold disGuard dis
  rw [cnt_append T T' hT lT n]
  obtain ⟨r, hr, e⟩ := cnt_real T n
  rw [e, ← EReal.coe_one, ← EReal.coe_add]
  have h1 : (0 : EReal) < ((r + 1 : ℝ) : EReal) := by exact_mod_cast (by positivity : (0 : ℝ) < r + 1)
  have h2 : ((1 : ℝ) : EReal) ≤ ((r + 1 : ℝ) : EReal) := by exact_mod_cast (by linarith : (1 : ℝ) ≤ r + 1)
  rw [if_pos h1, max_eq_left h2]

include hT lT in
/-- THE LAW JOINING THE TWO SIDES.  Summing, over the longer edge list, rows scaled by both endpoints' guarded
    factors is scaling the node's total — the neighbours' rows each scaled by its own factor, plus the node's own
    scaled row — by the node's factor. -/
theorem normalised_sum_agree
    (hS : ∀ e, S' (Fin.castAdd N e) = S e) (hSd : ∀ e (n : Fin N), T e = (n.val : ℤ) → Sd (Fin.castAdd N e) = n)
    (lS : ∀ m, S' (Fin.natAdd E m) = m) (lSd : ∀ m, Sd (Fin.natAdd E m) = m)
    (h : Fin N → Fin D → EReal) (n : Fin N) (o : Fin D) :
    ∑ e ∈ into T' n, h (S' e) o * (disGuard T' (S' e) * disGuard T' (Sd e))
      = dis T n * ((∑ e ∈ into T n, h (S e) o * dis T (S e)) + h n o * dis T n) := by
  have hd : ∀ k, disGuard T' k = dis T k := disGuard_append T T' hT lT
  simp only [hd]
  rw [sum_into_append T' n]
  have e1 : (fun e : Fin E => T' (Fin.castAdd N e)) = T := funext hT
  have e2 : (fun m : Fin N => T' (Fin.natAdd E m)) = fun m : Fin N => (m.val : ℤ) := funext lT
  rw [e1, e2, into_loops, Finset.sum_singleton, lS, lSd]
  rw [EReal.left_distrib_of_nonneg_of_ne_top (dis_nonneg T n) (dis_ne_top T n),
    mul_sum_of_real _ (dis_nonneg T n) (dis_ne_top T n)]
  congr 1
  · refine Finset.sum_congr rfl fun e he => ?_
    have hte : T e = (n.val : ℤ) := (Finset.mem_filter.mp he).2
    rw [hS, hSd e n hte, mul_comm (dis T n), mul_assoc]
  · rw [mul_comm (dis T n) (h n o * dis T n), mul_assoc]

end Append

/-! ## The dense layers, row by row -/

/-- A dense layer: row n times a matrix plus a bias row. -/
def dense {A B : ℕ} (x : Fin N → Fin A → EReal) (W : Fin A → Fin B → EReal) (b : Fin B → EReal)
    (n : Fin N) (k : Fin B) : EReal := (∑ j : Fin A, x n j * W j k) + b k

/-- The decoder: dense, rectified at z, dense. -/
def decode {A B C : ℕ} (z : EReal) (W1 : Fin A → Fin B → EReal) (b1 : Fin B → EReal) (W2 : Fin B → Fin C → EReal)
    (b2 : Fin C → EReal) (o : Fin N → Fin A → EReal) (n : Fin N) (c : Fin C) : EReal :=
  (∑ k : Fin B, max (dense o W1 b1 n k) z * W2 k c) + b2 c

end Cert.Spec

end
-- ==== Proof.EdgeWords.lean ====
/-
  An edge endpoint arrives as a 32-bit word. A negative word is normalised by adding the node count 10000; the word is
  then read as a signed integer and clamped into [0, 9999]. A word that already names a node n < 10000 is not negative
  and lies inside the range, so normalising and clamping leave it alone: it reads back as n.
-/
import Idealize.ShloMosaic.PureOps.Ideal
import Idealize.ShloMosaic.Lib.ValueIdx

namespace Cert.EdgeWords

open Idealize.ShloMosaic

/-- A negative word moved up by the node count, any other word kept. -/
def nrm (w : BitVec 32) : BitVec 32 := Scalar.select (IntOp.cmpi .slt w 0#32) (IntOp.addi w 10000#32) w

/-- The node a word names: the normalised word as a signed integer, clamped into [0, 9999]. -/
def rowOf (w : BitVec 32) : Fin 10000 := ⟨min (nrm w).toInt.toNat (10000 - 1), by omega⟩

/-- A word whose signed value is not negative is its own normal form. -/
theorem nrm_of_nonneg (w : BitVec 32) (h : 0 ≤ w.toInt) : nrm w = w := by
  have hs : w.slt 0#32 = false := by
    rw [BitVec.slt, BitVec.toInt_zero]
    exact decide_eq_false (not_lt.mpr h)
  unfold nrm IntOp.cmpi
  simp only [hs]
  rfl

/-- A word that already names a node is left alone: it is not negative and it is inside the range. -/
theorem rowOf_of_toInt (w : BitVec 32) (n : Fin 10000) (h : w.toInt = (n.val : ℤ)) : rowOf w = n := by
  have h0 : 0 ≤ w.toInt := by rw [h]; exact Int.natCast_nonneg _
  apply Fin.ext
  show min (nrm w).toInt.toNat (10000 - 1) = n.val
  rw [nrm_of_nonneg w h0, h, Int.toNat_natCast]
  have := n.isLt
  omega

/-- A natural number below 10000, as a 32-bit word, has itself as its signed value. -/
theorem toInt_ofNat_lt (k : ℕ) (hk : k < 10000) : (BitVec.ofNat 32 k).toInt = (k : ℤ) := by
  rw [BitVec.toInt_eq_toNat_of_lt, BitVec.toNat_ofNat, Nat.mod_eq_of_lt (by omega)]
  rw [BitVec.toNat_ofNat, Nat.mod_eq_of_lt (by omega)]
  omega

/-- The word of a node reads back as that node. -/
theorem rowOf_ofNat (m : Fin 10000) : rowOf (BitVec.ofNat 32 m.val) = m :=
  rowOf_of_toInt _ m (toInt_ofNat_lt m.val m.isLt)

end Cert.EdgeWords
-- ==== Proof.Model.lean ====
/-
  Both programs' results as functions of the ten argument arrays, and that the two functions are one.

  The edge array holds, per edge e, a source word and a target word.  A gather reads the source word as a signed
  integer, adds the node count to a negative one and clamps the result into the node range: that node is src e.
  An accumulating scatter reads the target word as a signed integer and adds into that row when it is a node's,
  nowhere otherwise: that integer is dst e.

  One side computes  h = x·W_top + (agg·fW + fb)·W_bot  with the 1024-row weight cut in two, scales row n by the
  factor d n, sums the scaled rows over the edges into n, adds the node's own scaled row, scales by d n again and
  adds a bias.  The other side joins x and (agg·fW + fb) side by side and multiplies by the whole weight, appends
  one loop edge per node, and sums over the longer edge list rows scaled by both endpoints' guarded factors, then
  adds the bias.  After that both apply the same two dense layers with a rectifier between.
-/
import proofs.«102789_j62758062129644_2_alg».proof.Proof.Spec
import proofs.«102789_j62758062129644_2_alg».proof.Proof.EdgeWords
import Idealize.ShloMosaic.Lib.ValueIdx

noncomputable section

namespace Cert.Model

open Idealize.ShloMosaic Idealize.ShloMosaic.ValueIdx Cert.Spec Cert.EdgeWords Finset

abbrev Arr2 (a b : ℕ) := (⟨2, ![a, b]⟩ : Shape).Idx → EReal
abbrev Arr1 (a : ℕ) := (⟨1, ![a]⟩ : Shape).Idx → EReal
abbrev Edges := (⟨2, ![2, 160000]⟩ : Shape).Idx → BitVec 32

variable (X : Arr2 10000 512) (EI : Edges) (FW : Arr2 512 512) (FB : Arr1 512) (GW : Arr2 1024 256) (GB : Arr1 256)
  (D1W : Arr2 256 128) (D1B : Arr1 128) (D2W : Arr2 128 2) (D2B : Arr1 2)

/-- The node an edge's gather reads. -/
def src (e : Fin 160000) : Fin 10000 := rowOf (EI (ix2 (0 : Fin 2) e))
/-- The integer an edge's scatter adds at. -/
def dst (e : Fin 160000) : ℤ := (EI (ix2 (1 : Fin 2) e)).toInt

/-- The neighbour sum of the features. -/
def agg (n : Fin 10000) (k : Fin 512) : EReal := ∑ e ∈ into (dst EI) n, X (ix2 (src EI e) k)
/-- The first dense layer on the neighbour sums. -/
def h1 (n : Fin 10000) (k : Fin 512) : EReal := (∑ j : Fin 512, agg X EI n j * FW (ix2 j k)) + FB (ix1 k)
/-- The second layer with the weight cut in two: the features meet its upper half, the first layer its lower half. -/
def hCut (n : Fin 10000) (o : Fin 256) : EReal :=
  (∑ k : Fin 512, X (ix2 n k) * GW (ix2 (Fin.castAdd 512 k) o))
    + (∑ k : Fin 512, h1 X EI FW FB n k * GW (ix2 (Fin.natAdd 512 k) o))
/-- The normalisation factor. -/
def d (n : Fin 10000) : EReal := Spec.dis (dst EI) n
/-- The scaled rows. -/
def hs (n : Fin 10000) (o : Fin 256) : EReal := hCut X EI FW FB GW n o * d EI n
/-- The neighbour sum of the scaled rows. -/
def raw (n : Fin 10000) (o : Fin 256) : EReal := ∑ e ∈ into (dst EI) n, hs X EI FW FB GW (src EI e) o
/-- The normalised convolution, one side's way. -/
def conv (n : Fin 10000) (j : Fin 256) : EReal :=
  d EI n * (raw X EI FW FB GW n j + hs X EI FW FB GW n j) + GB (ix1 j)

/-- The decoder's two dense layers on a 256-wide input. -/
def dec (u : Fin 10000 → Fin 256 → EReal) (n : Fin 10000) (c : Fin 2) : EReal :=
  Spec.decode (Ideal.ofBits .f32 0x00000000#32) (fun j k => D1W (ix2 j k)) (fun k => D1B (ix1 k)) (fun k c => D2W (ix2 k c))
    (fun c => D2B (ix1 c)) u n c

/-- ONE SIDE'S RESULT. -/
def kernelOut (n : Fin 10000) (c : Fin 2) : EReal := dec D1W D1B D2W D2B (conv X EI FW FB GW GB) n c

/-! ## The other side: the longer edge list and the joined layer -/

/-- Sources over the edges followed by one loop per node. -/
def srcL : Fin (160000 + 10000) → Fin 10000 := Fin.addCases (src EI) (fun m => rowOf (BitVec.ofNat 32 m.val))
/-- Integer targets over the longer list. -/
def dstL : Fin (160000 + 10000) → ℤ := Fin.addCases (dst EI) (fun m => (BitVec.ofNat 32 m.val).toInt)
/-- The node a gather by the TARGET word reads, over the longer list. -/
def dstRowL : Fin (160000 + 10000) → Fin 10000 :=
  Fin.addCases (fun e => rowOf (EI (ix2 (1 : Fin 2) e))) (fun m => rowOf (BitVec.ofNat 32 m.val))

/-- Features and first layer side by side. -/
def joined (n : Fin 10000) : Fin (512 + 512) → EReal := Fin.addCases (fun k => X (ix2 n k)) (fun k => h1 X EI FW FB n k)
/-- The second layer on the joined row with the whole weight. -/
def hJoin (n : Fin 10000) (o : Fin 256) : EReal := ∑ k : Fin (512 + 512), joined X EI FW FB n k * GW (ix2 k o)
/-- The guarded factor over the longer list. -/
def dL (n : Fin 10000) : EReal := Spec.disGuard (dstL EI) n
/-- The normalised convolution, the other side's way. -/
def convL (n : Fin 10000) (o : Fin 256) : EReal :=
  (∑ e ∈ into (dstL EI) n, hJoin X EI FW FB GW (srcL EI e) o * (dL EI (srcL EI e) * dL EI (dstRowL EI e))) + GB (ix1 o)

/-- THE OTHER SIDE'S RESULT. -/
def refOut (n : Fin 10000) (c : Fin 2) : EReal := dec D1W D1B D2W D2B (convL X EI FW FB GW GB) n c

/-! ## They are one function -/

theorem hJoin_eq (n : Fin 10000) (o : Fin 256) : hJoin X EI FW FB GW n o = hCut X EI FW FB GW n o := by
  unfold hJoin hCut joined
  rw [Fin.sum_univ_add]
  simp only [Fin.addCases_left, Fin.addCases_right]

theorem convL_eq (n : Fin 10000) (o : Fin 256) : convL X EI FW FB GW GB n o = conv X EI FW FB GW GB n o := by
  unfold convL conv dL
  rw [Spec.normalised_sum_agree (src EI) (dst EI) (srcL EI) (dstRowL EI) (dstL EI)
    (fun e => by unfold dstL; rw [Fin.addCases_left])
    (fun m => by unfold dstL; rw [Fin.addCases_right]; exact toInt_ofNat_lt m.val m.isLt)
    (fun e => by unfold srcL; rw [Fin.addCases_left])
    (fun e k hk => by unfold dstRowL; rw [Fin.addCases_left]; exact rowOf_of_toInt _ k hk)
    (fun m => by unfold srcL; rw [Fin.addCases_right]; exact rowOf_ofNat m)
    (fun m => by unfold dstRowL; rw [Fin.addCases_right]; exact rowOf_ofNat m)
    (hJoin X EI FW FB GW) n o]
  simp only [hJoin_eq]
  rfl

theorem refOut_eq_kernelOut : refOut X EI FW FB GW GB D1W D1B D2W D2B = kernelOut X EI FW FB GW GB D1W D1B D2W D2B := by
  funext n c
  unfold refOut kernelOut
  have e : convL X EI FW FB GW GB = conv X EI FW FB GW GB := funext fun n => funext fun o => convL_eq X EI FW FB GW GB n o
  rw [e]

end Cert.Model

end
-- ==== Proof.LibIndexed.lean ====
/-
  Reading the host gather and the host accumulating scatter AT AN INDEX, for the two patterns of dimension
  numbers that "take rows of a table at an integer array" and "add rows into a table at an integer array" lower to:

  * ROW pattern: a table of shape [N, D], one start index per row e of an index array of shape [E, 1],
    whole rows of length D moved (offset / window axis 1, collapsed / inserted axis 0);
  * FLAT pattern: a table of shape [N], an index array of shape [E, 1], single elements moved.

  The gather reads its start index signed and CLAMPS it into [0, N - 1]; the scatter reads it signed and does NOT
  clamp: an update whose row falls outside [0, N) is dropped. All statements are generic in the extents N, D, E
  and in the index width, and take the dimension-number record as a variable with equations on its fields.
-/
import Idealize.ShloMosaic.PureOps.Ideal
import Idealize.ShloMosaic.PureOps.Dims
import Idealize.ShloMosaic.PureOps.ShapeOps
import Idealize.ShloMosaic.PureOps.Contract
import Idealize.ShloMosaic.Lib.ValueIdx

noncomputable section

open scoped BigOperators

namespace Cert.LibIndexed

open Idealize.ShloMosaic Idealize.ShloMosaic.ValueIdx

/-! ## The row pattern: a table [N, D] at an index array [E, 1] -/

/-- ROW GATHER read at (e, k): the table's row at the start index idx[e, 0], read signed and clamped into
    [0, N - 1], at column k. -/
theorem row_gather_apply {α : Type} {N D E w : Nat} (hN : 0 < N)
    (d : GatherDims ⟨2, ![N, D]⟩ ⟨2, ![E, 1]⟩ ⟨2, ![E, D]⟩)
    (h_od : d.offsetDims = [1]) (h_cd : d.collapsedSliceDims = [0]) (h_ob : d.operandBatchingDims = [])
    (h_sb : d.startIndicesBatchingDims = []) (h_sm : d.startIndexMap = [0]) (h_iv : d.indexVectorDim = 1)
    (h_ss : d.sliceSizes = ![1, D])
    (x : (⟨2, ![N, D]⟩ : Shape).Idx → α) (idx : IVec ⟨2, ![E, 1]⟩ w) (e : Fin E) (k : Fin D) :
    Host.gather d x idx (ix2 e k)
      = x (ix2 ⟨min (idx (ix2 e (0 : Fin 1))).toInt.toNat (N - 1), by omega⟩ k) := by
  obtain ⟨od, cd, ob, sb, sm, iv, ss, wf⟩ := d
  simp only at h_od h_cd h_ob h_sb h_sm h_iv h_ss
  subst h_od h_cd h_ob h_sb h_sm h_iv h_ss
  unfold Host.gather
  congr 1
  funext a
  refine Fin.ext ?_
  match a with
  | ⟨0, _⟩ =>
    show GatherDims.start _ (ix2 e k) idx 0 + GatherDims.batchCoord _ (ix2 e k) 0 + GatherDims.offCoord _ (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    refine congrArg (fun v : BitVec w => min v.toInt.toNat (N - 1)) (congrArg idx ?_)
    funext b; refine Fin.ext ?_
    match b with
    | ⟨0, _⟩ => rfl
    | ⟨1, _⟩ => rfl
  | ⟨1, _⟩ =>
    show GatherDims.start _ (ix2 e k) idx 1 + GatherDims.batchCoord _ (ix2 e k) 1 + GatherDims.offCoord _ (ix2 e k) 1 = _
    rw [GatherDims.batchCoord_eq_zero _ _ _ List.not_mem_nil]
    unfold GatherDims.start GatherDims.offCoord
    rw [dif_neg (show (1 : Fin 2) ∉ [(0 : Fin 2)] by decide),
      dif_pos ((GatherDims.mem_sKept _ _).mpr ⟨show (1 : Fin 2) ∉ [(0 : Fin 2)] by decide, List.not_mem_nil⟩)]
    simp only [Nat.zero_add]
    rfl

/-- The ROW SCATTER's dimension numbers for a table [N, D], scatter indices [E, 1] and updates [E, D]: window axis 1
    of the updates goes to axis 1 of the table, axis 0 of the table is addressed by the one index component. -/
abbrev rowScatterDims (N D E : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- ROW SCATTER, axis 0 of "start plus window coordinate": the start index idx[e', 0] read signed (no window
    coordinate on the inserted axis). -/
theorem rowScatter_pos0 {N D E w : Nat} (wf : ScatterDims.WF ⟨2, ![N, D]⟩ ⟨2, ![E, 1]⟩ ⟨2, ![E, D]⟩ [1] [0] [0] 1)
    (idx : IVec ⟨2, ![E, 1]⟩ w) (j : (⟨2, ![E, D]⟩ : Shape).Idx) :
    (rowScatterDims N D E wf).start j idx 0 + ((rowScatterDims N D E wf).window j 0 : ℤ)
      = (idx (ix2 (j 0) (0 : Fin 1))).toInt := by
  unfold ScatterDims.start ScatterDims.window
  rw [dif_pos (List.mem_singleton.mpr rfl),
    dif_neg (show (0 : Fin 2) ∉ Shape.kept ⟨2, ![N, D]⟩ [(0 : Fin 2)] by simp [Shape.kept])]
  simp only [Nat.cast_zero, add_zero]
  refine congrArg (fun v : BitVec w => v.toInt) (congrArg idx ?_)
  funext b; refine Fin.ext ?_
  match b with
  | ⟨0, _⟩ => rfl
  | ⟨1, _⟩ => rfl

/-- ROW SCATTER, axis 1 of "start plus window coordinate": the update's own column (no start on that axis). -/
theorem rowScatter_pos1 {N D E w : Nat} (wf : ScatterDims.WF ⟨2, ![N, D]⟩ ⟨2, ![E, 1]⟩ ⟨2, ![E, D]⟩ [1] [0] [0] 1)
    (idx : IVec ⟨2, ![E, 1]⟩ w) (j : (⟨2, ![E, D]⟩ : Shape).Idx) :
    (rowScatterDims N D E wf).start j idx 1 + ((rowScatterDims N D E wf).window j 1 : ℤ) = ((j 1).val : ℤ) := by
  unfold ScatterDims.start ScatterDims.window
  rw [dif_neg (show (1 : Fin 2) ∉ [(0 : Fin 2)] by decide),
    dif_pos (show (1 : Fin 2) ∈ Shape.kept ⟨2, ![N, D]⟩ [(0 : Fin 2)] by simp [Shape.kept])]
  simp only [zero_add]
  rfl

/-- ROW SCATTER, where an update lands: update j = (e', k') lands at table element i exactly when its start index
    idx[e', 0], read signed and not clamped, is i's row and k' is i's column. -/
theorem rowScatter_resultIdx_eq_some {N D E w : Nat}
    (wf : ScatterDims.WF ⟨2, ![N, D]⟩ ⟨2, ![E, 1]⟩ ⟨2, ![E, D]⟩ [1] [0] [0] 1)
    (idx : IVec ⟨2, ![E, 1]⟩ w) (j : (⟨2, ![E, D]⟩ : Shape).Idx) (i : (⟨2, ![N, D]⟩ : Shape).Idx) :
    (rowScatterDims N D E wf).resultIdx? j idx = some i
      ↔ (idx (ix2 (j 0) (0 : Fin 1))).toInt = ((i 0).val : ℤ) ∧ (j 1).val = (i 1).val := by
  have h0 := rowScatter_pos0 wf idx j
  have h1 := rowScatter_pos1 wf idx j
  have hi0 := idx2_lt0 i
  have hi1 := idx2_lt1 i
  have hj1 := idx2_lt1 j
  unfold ScatterDims.resultIdx?
  split
  · rename_i h
    rw [Option.some.injEq]
    constructor
    · intro hfi
      have e0 : ((rowScatterDims N D E wf).start j idx 0 + ((rowScatterDims N D E wf).window j 0 : ℤ)).toNat = (i 0).val :=
        congrArg (fun f : (⟨2, ![N, D]⟩ : Shape).Idx => (f 0).val) hfi
      have e1 : ((rowScatterDims N D E wf).start j idx 1 + ((rowScatterDims N D E wf).window j 1 : ℤ)).toNat = (i 1).val :=
        congrArg (fun f : (⟨2, ![N, D]⟩ : Shape).Idx => (f 1).val) hfi
      have g0 := (h 0).1
      rw [h0] at e0 g0
      rw [h1] at e1
      constructor
      · omega
      · omega
    · rintro ⟨ha, hb⟩
      funext a; refine Fin.ext ?_
      match a with
      | ⟨0, _⟩ =>
        show ((rowScatterDims N D E wf).start j idx 0 + ((rowScatterDims N D E wf).window j 0 : ℤ)).toNat = (i 0).val
        rw [h0, ha]; exact Int.toNat_natCast _
      | ⟨1, _⟩ =>
        show ((rowScatterDims N D E wf).start j idx 1 + ((rowScatterDims N D E wf).window j 1 : ℤ)).toNat = (i 1).val
        rw [h1, Int.toNat_natCast]; exact hb
  · rename_i h
    constructor
    · intro hh; cases hh
    · rintro ⟨ha, hb⟩
      exfalso; apply h
      intro a
      match a with
      | ⟨0, _⟩ =>
        show 0 ≤ (rowScatterDims N D E wf).start j idx 0 + ((rowScatterDims N D E wf).window j 0 : ℤ)
          ∧ (rowScatterDims N D E wf).start j idx 0 + ((rowScatterDims N D E wf).window j 0 : ℤ) < ((N : ℕ) : ℤ)
        rw [h0, ha]; omega
      | ⟨1, _⟩ =>
        show 0 ≤ (rowScatterDims N D E wf).start j idx 1 + ((rowScatterDims N D E wf).window j 1 : ℤ)
          ∧ (rowScatterDims N D E wf).start j idx 1 + ((rowScatterDims N D E wf).window j 1 : ℤ) < ((D : ℕ) : ℤ)
        rw [h1]; omega

/-- ROW SCATTER-ADD read at (n, k): the table's element plus the sum, over the rows e of the index array whose start
    index idx[e, 0] (read signed, not clamped) is n, of the update's element (e, k). Rows whose start index is
    outside [0, N) contribute to no element. -/
theorem row_scatterAdd_apply {N D E w : Nat}
    (d : ScatterDims ⟨2, ![N, D]⟩ ⟨2, ![E, 1]⟩ ⟨2, ![E, D]⟩)
    (h_uw : d.updateWindowDims = [1]) (h_iw : d.insertedWindowDims = [0])
    (h_sd : d.scatterDimsToOperandDims = [0]) (h_iv : d.indexVectorDim = 1)
    (x : (⟨2, ![N, D]⟩ : Shape).Idx → EReal) (idx : IVec ⟨2, ![E, 1]⟩ w)
    (upd : (⟨2, ![E, D]⟩ : Shape).Idx → EReal) (n : Fin N) (k : Fin D) :
    Ideal.hostScatterAdd d x idx upd (ix2 n k)
      = x (ix2 n k) + ∑ e ∈ Finset.univ.filter (fun e : Fin E => (idx (ix2 e (0 : Fin 1))).toInt = (n.val : ℤ)),
          upd (ix2 e k) := by
  obtain ⟨uw, iw, sd, iv, wf⟩ := d
  simp only at h_uw h_iw h_sd h_iv
  subst h_uw h_iw h_sd h_iv
  show x (ix2 n k) + ∑ j ∈ Finset.univ.filter (fun j => (rowScatterDims N D E wf).resultIdx? j idx = some (ix2 n k)), upd j = _
  congr 1
  refine Finset.sum_nbij' (fun j : (⟨2, ![E, D]⟩ : Shape).Idx => (j 0 : Fin E)) (fun e : Fin E => ix2 e k) ?_ ?_ ?_ ?_ ?_
  · intro j hj
    exact Finset.mem_filter.mpr ⟨Finset.mem_univ _,
      ((rowScatter_resultIdx_eq_some wf idx j (ix2 n k)).mp (Finset.mem_filter.mp hj).2).1⟩
  · intro e he
    exact Finset.mem_filter.mpr ⟨Finset.mem_univ _,
      (rowScatter_resultIdx_eq_some wf idx (ix2 e k) (ix2 n k)).mpr ⟨(Finset.mem_filter.mp he).2, rfl⟩⟩
  · intro j hj
    have hk : j 1 = k := Fin.ext ((rowScatter_resultIdx_eq_some wf idx j (ix2 n k)).mp (Finset.mem_filter.mp hj).2).2
    subst hk; exact (eq_ix2 j).symm
  · intro e _
    rfl
  · intro j hj
    have hk : j 1 = k := Fin.ext ((rowScatter_resultIdx_eq_some wf idx j (ix2 n k)).mp (Finset.mem_filter.mp hj).2).2
    subst hk; exact congrArg upd (eq_ix2 j)

/-- The same read of `Host.scatterAdd` at the ideal instance. -/
theorem row_host_scatterAdd_apply {N D E w : Nat} {φ : FTy}
    (d : ScatterDims ⟨2, ![N, D]⟩ ⟨2, ![E, 1]⟩ ⟨2, ![E, D]⟩)
    (h_uw : d.updateWindowDims = [1]) (h_iw : d.insertedWindowDims = [0])
    (h_sd : d.scatterDimsToOperandDims = [0]) (h_iv : d.indexVectorDim = 1)
    (x : FVec Ideal ⟨2, ![N, D]⟩ φ) (idx : IVec ⟨2, ![E, 1]⟩ w)
    (upd : FVec Ideal ⟨2, ![E, D]⟩ φ) (n : Fin N) (k : Fin D) :
    Host.scatterAdd (F := Ideal) d x idx upd (ix2 n k)
      = x (ix2 n k) + ∑ e ∈ Finset.univ.filter (fun e : Fin E => (idx (ix2 e (0 : Fin 1))).toInt = (n.val : ℤ)),
          upd (ix2 e k) :=
  row_scatterAdd_apply d h_uw h_iw h_sd h_iv x idx upd n k

/-! ## The flat pattern: a table [N] at an index array [E, 1] -/

/-- FLAT GATHER read at e: the table's element at the start index idx[e, 0], read signed and clamped into
    [0, N - 1]. -/
theorem flat_gather_apply {α : Type} {N E w : Nat} (hN : 0 < N)
    (d : GatherDims ⟨1, ![N]⟩ ⟨2, ![E, 1]⟩ ⟨1, ![E]⟩)
    (h_od : d.offsetDims = []) (h_cd : d.collapsedSliceDims = [0]) (h_ob : d.operandBatchingDims = [])
    (h_sb : d.startIndicesBatchingDims = []) (h_sm : d.startIndexMap = [0]) (h_iv : d.indexVectorDim = 1)
    (h_ss : d.sliceSizes = ![1])
    (x : (⟨1, ![N]⟩ : Shape).Idx → α) (idx : IVec ⟨2, ![E, 1]⟩ w) (e : Fin E) :
    Host.gather d x idx (ix1 e)
      = x (ix1 ⟨min (idx (ix2 e (0 : Fin 1))).toInt.toNat (N - 1), by omega⟩) := by
  obtain ⟨od, cd, ob, sb, sm, iv, ss, wf⟩ := d
  simp only at h_od h_cd h_ob h_sb h_sm h_iv h_ss
  subst h_od h_cd h_ob h_sb h_sm h_iv h_ss
  unfold Host.gather
  congr 1
  funext a
  refine Fin.ext ?_
  match a with
  | ⟨0, _⟩ =>
    show GatherDims.start _ (ix1 e) idx 0 + GatherDims.batchCoord _ (ix1 e) 0 + GatherDims.offCoord _ (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    refine congrArg (fun v : BitVec w => min v.toInt.toNat (N - 1)) (congrArg idx ?_)
    funext b; refine Fin.ext ?_
    match b with
    | ⟨0, _⟩ => rfl
    | ⟨1, _⟩ => rfl

/-- The FLAT SCATTER's dimension numbers for a table [N], scatter indices [E, 1] and updates [E]: no window axis,
    the table's one axis is addressed by the one index component. -/
abbrev flatScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- FLAT SCATTER, the one axis of "start plus window coordinate": the start index idx[e', 0] read signed. -/
theorem flatScatter_pos0 {N E w : Nat} (wf : ScatterDims.WF ⟨1, ![N]⟩ ⟨2, ![E, 1]⟩ ⟨1, ![E]⟩ [] [0] [0] 1)
    (idx : IVec ⟨2, ![E, 1]⟩ w) (j : (⟨1, ![E]⟩ : Shape).Idx) :
    (flatScatterDims N E wf).start j idx 0 + ((flatScatterDims N E wf).window j 0 : ℤ)
      = (idx (ix2 (j 0) (0 : Fin 1))).toInt := by
  unfold ScatterDims.start ScatterDims.window
  rw [dif_pos (List.mem_singleton.mpr rfl),
    dif_neg (show (0 : Fin 1) ∉ Shape.kept ⟨1, ![N]⟩ [(0 : Fin 1)] by simp [Shape.kept])]
  simp only [Nat.cast_zero, add_zero]
  refine congrArg (fun v : BitVec w => v.toInt) (congrArg idx ?_)
  funext b; refine Fin.ext ?_
  match b with
  | ⟨0, _⟩ => rfl
  | ⟨1, _⟩ => rfl

/-- FLAT SCATTER, where an update lands: update e' lands at table element i exactly when its start index
    idx[e', 0], read signed and not clamped, is i. -/
theorem flatScatter_resultIdx_eq_some {N E w : Nat}
    (wf : ScatterDims.WF ⟨1, ![N]⟩ ⟨2, ![E, 1]⟩ ⟨1, ![E]⟩ [] [0] [0] 1)
    (idx : IVec ⟨2, ![E, 1]⟩ w) (j : (⟨1, ![E]⟩ : Shape).Idx) (i : (⟨1, ![N]⟩ : Shape).Idx) :
    (flatScatterDims N E wf).resultIdx? j idx = some i
      ↔ (idx (ix2 (j 0) (0 : Fin 1))).toInt = ((i 0).val : ℤ) := by
  have h0 := flatScatter_pos0 wf idx j
  have hi0 : (i 0).val < N := (i 0).isLt
  unfold ScatterDims.resultIdx?
  split
  · rename_i h
    rw [Option.some.injEq]
    constructor
    · intro hfi
      have e0 : ((flatScatterDims N E wf).start j idx 0 + ((flatScatterDims N E wf).window j 0 : ℤ)).toNat = (i 0).val :=
        congrArg (fun f : (⟨1, ![N]⟩ : Shape).Idx => (f 0).val) hfi
      have g0 := (h 0).1
      rw [h0] at e0 g0
      omega
    · intro ha
      funext a; refine Fin.ext ?_
      match a with
      | ⟨0, _⟩ =>
        show ((flatScatterDims N E wf).start j idx 0 + ((flatScatterDims N E wf).window j 0 : ℤ)).toNat = (i 0).val
        rw [h0, ha]; exact Int.toNat_natCast _
  · rename_i h
    constructor
    · intro hh; cases hh
    · intro ha
      exfalso; apply h
      intro a
      match a with
      | ⟨0, _⟩ =>
        show 0 ≤ (flatScatterDims N E wf).start j idx 0 + ((flatScatterDims N E wf).window j 0 : ℤ)
          ∧ (flatScatterDims N E wf).start j idx 0 + ((flatScatterDims N E wf).window j 0 : ℤ) < ((N : ℕ) : ℤ)
        rw [h0, ha]; omega

/-- FLAT SCATTER-ADD read at n: the table's element plus the sum, over the rows e of the index array whose start
    index idx[e, 0] (read signed, not clamped) is n, of the update's element e. Rows whose start index is outside
    [0, N) contribute to no element. -/
theorem flat_scatterAdd_apply {N E w : Nat}
    (d : ScatterDims ⟨1, ![N]⟩ ⟨2, ![E, 1]⟩ ⟨1, ![E]⟩)
    (h_uw : d.updateWindowDims = []) (h_iw : d.insertedWindowDims = [0])
    (h_sd : d.scatterDimsToOperandDims = [0]) (h_iv : d.indexVectorDim = 1)
    (x : (⟨1, ![N]⟩ : Shape).Idx → EReal) (idx : IVec ⟨2, ![E, 1]⟩ w)
    (upd : (⟨1, ![E]⟩ : Shape).Idx → EReal) (n : Fin N) :
    Ideal.hostScatterAdd d x idx upd (ix1 n)
      = x (ix1 n) + ∑ e ∈ Finset.univ.filter (fun e : Fin E => (idx (ix2 e (0 : Fin 1))).toInt = (n.val : ℤ)),
          upd (ix1 e) := by
  obtain ⟨uw, iw, sd, iv, wf⟩ := d
  simp only at h_uw h_iw h_sd h_iv
  subst h_uw h_iw h_sd h_iv
  show x (ix1 n) + ∑ j ∈ Finset.univ.filter (fun j => (flatScatterDims N E wf).resultIdx? j idx = some (ix1 n)), upd j = _
  congr 1
  refine Finset.sum_nbij' (fun j : (⟨1, ![E]⟩ : Shape).Idx => (j 0 : Fin E)) (fun e : Fin E => ix1 e) ?_ ?_ ?_ ?_ ?_
  · intro j hj
    exact Finset.mem_filter.mpr ⟨Finset.mem_univ _,
      (flatScatter_resultIdx_eq_some wf idx j (ix1 n)).mp (Finset.mem_filter.mp hj).2⟩
  · intro e he
    exact Finset.mem_filter.mpr ⟨Finset.mem_univ _,
      (flatScatter_resultIdx_eq_some wf idx (ix1 e) (ix1 n)).mpr (Finset.mem_filter.mp he).2⟩
  · intro j _
    exact (eq_ix1 j).symm
  · intro e _
    rfl
  · intro j _
    exact congrArg upd (eq_ix1 j)

/-- The same read of `Host.scatterAdd` at the ideal instance. -/
theorem flat_host_scatterAdd_apply {N E w : Nat} {φ : FTy}
    (d : ScatterDims ⟨1, ![N]⟩ ⟨2, ![E, 1]⟩ ⟨1, ![E]⟩)
    (h_uw : d.updateWindowDims = []) (h_iw : d.insertedWindowDims = [0])
    (h_sd : d.scatterDimsToOperandDims = [0]) (h_iv : d.indexVectorDim = 1)
    (x : FVec Ideal ⟨1, ![N]⟩ φ) (idx : IVec ⟨2, ![E, 1]⟩ w)
    (upd : FVec Ideal ⟨1, ![E]⟩ φ) (n : Fin N) :
    Host.scatterAdd (F := Ideal) d x idx upd (ix1 n)
      = x (ix1 n) + ∑ e ∈ Finset.univ.filter (fun e : Fin E => (idx (ix2 e (0 : Fin 1))).toInt = (n.val : ℤ)),
          upd (ix1 e) :=
  flat_scatterAdd_apply d h_uw h_iw h_sd h_iv x idx upd n

end Cert.LibIndexed

end
-- ==== Proof.EntryOne.lean ====
/-
  What the program's first stretch of host operations leaves in the buffers its first region reads, each read at an
  index as a term of the launch contents of the arguments: the two rows of the edge array as flat word arrays, the
  neighbour sum of the feature rows, the normalisation factor, the first layer's bias as a row, and the two halves of
  the second layer's weight.
-/
import proofs.«102789_j62758062129644_2_alg».proof.Proof.Gen.KernelIdeal.Frame
import proofs.«102789_j62758062129644_2_alg».proof.Proof.Model
import proofs.«102789_j62758062129644_2_alg».proof.Proof.LibIndexed
import proofs.«102789_j62758062129644_2_alg».proof.Proof.EdgeWords
import Idealize.ShloMosaic.Lib.ValueIdx
import Idealize.ShloMosaic.Lib.Pipeline.Value
import Idealize.ShloMosaic.Lib.StableHlo.Run
import Idealize.ShloMosaic.PureOps.Ideal.Laws

set_option maxRecDepth 16384

noncomputable section

namespace Cert.KernelIdeal.Entry

open Cert.KernelIdeal Cert.KernelIdeal.Gen
open Idealize.ShloMosaic Idealize.ShloMosaic.TcCoe Idealize.ShloMosaic.ValueIdx Idealize.ShloMosaic.StableHlo
open Idealize.SL.Sem
open scoped BigOperators
open Cert.LibIndexed Cert.EdgeWords

variable (m : (ℓ : Loc nD τ sig) → Buf (Elt Ideal) ℓ) (ρ : Dev nD → PrngReg) (c : Dev nD)

/-- The feature table at launch. -/
abbrev X : Cert.Model.Arr2 10000 512 := m ((c : Thread nD τ).loc main_arg0)
/-- The edge array at launch: row 0 the source words, row 1 the target words. -/
abbrev EI : Cert.Model.Edges := m ((c : Thread nD τ).loc main_arg1)
/-- The first layer's weight at launch. -/
abbrev FW : Cert.Model.Arr2 512 512 := m ((c : Thread nD τ).loc main_arg2)
/-- The first layer's bias at launch. -/
abbrev FB : Cert.Model.Arr1 512 := m ((c : Thread nD τ).loc main_arg3)
/-- The second layer's weight at launch. -/
abbrev GW : Cert.Model.Arr2 1024 256 := m ((c : Thread nD τ).loc main_arg4)

/-! ## The two rows of the edge array as flat word arrays -/

/-- The flat array of source words as the operations build it: row 0 of the edge array cut out, then flattened. -/
def srcW : S160000.Idx → BitVec 32 :=
  shapeCast S160000 (extractStridedSlice S1x160000 ![0, 0] (EI m c) slices_S2x160000_S1x160000_0_0)
    shapeCasts_S1x160000_S160000
/-- The flat array of target words as the operations build it: row 1 of the edge array cut out, then flattened. -/
def dstW : S160000.Idx → BitVec 32 :=
  shapeCast S160000 (extractStridedSlice S1x160000 ![1, 0] (EI m c) slices_S2x160000_S1x160000_1_0)
    shapeCasts_S1x160000_S160000

/-- Entry e of the flat source array is entry (0, e) of the edge array. -/
theorem srcW_apply (e : Fin 160000) : srcW m c (ix1 e) = EI m c (ix2 (0 : Fin 2) e) := by
  unfold srcW
  refine (shapeCast_apply _ shapeCasts_S1x160000_S160000 (ix1 e) (ix2 (0 : Fin 1) e) ?_).trans ?_
  · rewrite [Shape.rowMajor_val_two, Shape.rowMajor_val_one]
    show 0 * 160000 + e.val = e.val; omega
  · exact extractStridedSlice_apply ![0, 0] (EI m c) slices_S2x160000_S1x160000_0_0 (ix2 (0 : Fin 1) e)
      (ix2 (0 : Fin 2) e) (fun a => match a with
        | ⟨0, _⟩ => by show (0 : ℕ) = 0 + 0; rfl
        | ⟨1, _⟩ => by show e.val = 0 + e.val; omega)

/-- Entry e of the flat target array is entry (1, e) of the edge array. -/
theorem dstW_apply (e : Fin 160000) : dstW m c (ix1 e) = EI m c (ix2 (1 : Fin 2) e) := by
  unfold dstW
  refine (shapeCast_apply _ shapeCasts_S1x160000_S160000 (ix1 e) (ix2 (0 : Fin 1) e) ?_).trans ?_
  · rewrite [Shape.rowMajor_val_two, Shape.rowMajor_val_one]
    show 0 * 160000 + e.val = e.val; omega
  · exact extractStridedSlice_apply ![1, 0] (EI m c) slices_S2x160000_S1x160000_1_0 (ix2 (0 : Fin 1) e)
      (ix2 (1 : Fin 2) e) (fun a => match a with
        | ⟨0, _⟩ => by show (1 : ℕ) = 1 + 0; rfl
        | ⟨1, _⟩ => by show e.val = 0 + e.val; omega)

/-- The buffer of source words after the first stretch. -/
theorem e_src : (V1 m ρ c main_v1 : S160000.Idx → BitVec 32) = srcW m c := by
  dsimp only [V1, W1, hostOps0]; after_results; rfl
/-- The buffer of target words after the first stretch. -/
theorem e_dst : (V1 m ρ c main_v3 : S160000.Idx → BitVec 32) = dstW m c := by
  dsimp only [V1, W1, hostOps0]; after_results; rfl

/-- The source words: entry e is the edge array's (0, e). -/
theorem w_src (e : Fin 160000) :
    (V1 m ρ c main_v1 : S160000.Idx → BitVec 32) (ix1 e) = EI m c (ix2 (0 : Fin 2) e) := by
  rw [e_src]; exact srcW_apply m c e
/-- The target words: entry e is the edge array's (1, e). -/
theorem w_dst (e : Fin 160000) :
    (V1 m ρ c main_v3 : S160000.Idx → BitVec 32) (ix1 e) = EI m c (ix2 (1 : Fin 2) e) := by
  rw [e_dst]; exact dstW_apply m c e

/-! ## Untouched arguments, the bias row, the weight's halves -/

/-- No operation of the first stretch writes the feature table. -/
theorem e_x : (V1 m ρ c main_arg0 : S10000x512.Idx → EReal) = X m c := by
  dsimp only [V1, W1, hostOps0]; after_results

/-- No operation of the first stretch writes the first layer's weight. -/
theorem e_fw : (V1 m ρ c main_arg2 : S512x512.Idx → EReal) = FW m c := by
  dsimp only [V1, W1, hostOps0]; after_results

/-- The first layer's bias as a one-row matrix. -/
theorem e_fb (k : Fin 512) : (V1 m ρ c main_v26 : S1x512.Idx → EReal) (ix2 (0 : Fin 1) k) = FB m c (ix1 k) := by
  have h : (V1 m ρ c main_v26 : S1x512.Idx → EReal) = shapeCast S1x512 (FB m c) shapeCasts_S512_S1x512 := by
    dsimp only [V1, W1, hostOps0]; after_results; rfl
  rw [h]
  refine shapeCast_apply _ shapeCasts_S512_S1x512 (ix2 (0 : Fin 1) k) (ix1 k) ?_
  rewrite [Shape.rowMajor_val_two, Shape.rowMajor_val_one]
  show k.val = 0 * 512 + k.val; omega

/-- The upper half of the second layer's weight: rows 0 to 511. -/
theorem e_g1 (k : Fin 512) (o : Fin 256) :
    (V1 m ρ c main_v24 : S512x256.Idx → EReal) (ix2 k o) = GW m c (ix2 (Fin.castAdd 512 k) o) := by
  have h : (V1 m ρ c main_v24 : S512x256.Idx → EReal)
      = extractStridedSlice S512x256 ![0, 0] (GW m c) slices_S1024x256_S512x256_0_0 := by
    dsimp only [V1, W1, hostOps0]; after_results
  rw [h]
  exact extractStridedSlice_apply ![0, 0] (GW m c) slices_S1024x256_S512x256_0_0 (ix2 k o)
    (ix2 (Fin.castAdd 512 k) o) (fun a => match a with
      | ⟨0, _⟩ => by show k.val = 0 + k.val; omega
      | ⟨1, _⟩ => by show o.val = 0 + o.val; omega)

/-- The lower half of the second layer's weight: rows 512 to 1023. -/
theorem e_g2 (k : Fin 512) (o : Fin 256) :
    (V1 m ρ c main_v25 : S512x256.Idx → EReal) (ix2 k o) = GW m c (ix2 (Fin.natAdd 512 k) o) := by
  have h : (V1 m ρ c main_v25 : S512x256.Idx → EReal)
      = extractStridedSlice S512x256 ![512, 0] (GW m c) slices_S1024x256_S512x256_512_0 := by
    dsimp only [V1, W1, hostOps0]; after_results
  rw [h]
  exact extractStridedSlice_apply ![512, 0] (GW m c) slices_S1024x256_S512x256_512_0 (ix2 k o)
    (ix2 (Fin.natAdd 512 k) o) (fun a => match a with
      | ⟨0, _⟩ => by show 512 + k.val = 512 + k.val; rfl
      | ⟨1, _⟩ => by show o.val = 0 + o.val; omega)

/-! ## The neighbour sum of the feature rows -/

/-- The start indices of the gather, as the operations build them: each source word, moved up by the node count when
    negative, as a one-column array. -/
def srcCol : S160000x1.Idx → BitVec 32 :=
  broadcastInDim S160000x1 ![0] bcast_S160000_S160000x1_0
    (select (cmpi .slt (srcW m c) (broadcastInDim S160000 ![] bcast_S_S160000 (constantI S_ 32 0#32)))
      (addi (srcW m c) (broadcastInDim S160000 ![] bcast_S_S160000 (constantI S_ 32 10000#32))) (srcW m c))
/-- The scatter indices, as the operations build them: the target words as a one-column array. -/
def dstCol : S160000x1.Idx → BitVec 32 :=
  broadcastInDim S160000x1 ![0] bcast_S160000_S160000x1_0 (dstW m c)

/-- Row e of the gather's start indices is the normalised source word of edge e. -/
theorem srcCol_apply (e : Fin 160000) : srcCol m c (ix2 e (0 : Fin 1)) = nrm (EI m c (ix2 (0 : Fin 2) e)) := by
  unfold srcCol
  refine (broadcastInDim_apply _ bcast_S160000_S160000x1_0 _ (ix2 e (0 : Fin 1)) (ix1 e) (fun a => match a with
    | ⟨0, _⟩ => by show e.val = if (160000 : Nat) = 1 then 0 else e.val; rw [if_neg (by decide)])).trans ?_
  show Scalar.select (IntOp.cmpi .slt (srcW m c (ix1 e)) 0#32) (IntOp.addi (srcW m c (ix1 e)) 10000#32) (srcW m c (ix1 e)) = _
  rw [srcW_apply]; rfl

/-- Row e of the scatter indices is the target word of edge e. -/
theorem dstCol_apply (e : Fin 160000) : dstCol m c (ix2 e (0 : Fin 1)) = EI m c (ix2 (1 : Fin 2) e) := by
  unfold dstCol
  refine (broadcastInDim_apply _ bcast_S160000_S160000x1_0 _ (ix2 e (0 : Fin 1)) (ix1 e) (fun a => match a with
    | ⟨0, _⟩ => by show e.val = if (160000 : Nat) = 1 then 0 else e.val; rw [if_neg (by decide)])).trans ?_
  exact dstW_apply m c e

/-- The neighbour-sum buffer after the first stretch, as the operations build it: rows of the feature table gathered at
    the normalised source words, added into a zero table at the target words. -/
theorem e_agg_term : (V1 m ρ c main_v15 : S10000x512.Idx → EReal)
    = Host.scatterAdd (F := Ideal) scatter_S10000x512_S160000x1_S160000x512_1_0_0_1
        (broadcastInDim S10000x512 ![] bcast_S_S10000x512 (constant (F := Ideal) S_ .f32 0x00000000#32))
        (dstCol m c)
        (extf (F := Ideal) .f32 (Host.gather gather_S10000x512_S160000x1_S160000x512_1_0_n_n_0_1_1512
          (truncf (F := Ideal) .bf16 (X m c) bitsLt_bf16_f32) (srcCol m c)) bitsLt_bf16_f32) := by
  dsimp only [V1, W1, hostOps0]; after_results_simp; rfl

/-- THE NEIGHBOUR SUM: element (n, k) of the buffer is the sum, over the edges whose target is n, of the feature
    table's row at the edge's source, at column k. -/
theorem e_agg (n : Fin 10000) (k : Fin 512) :
    (V1 m ρ c main_v15 : S10000x512.Idx → EReal) (ix2 n k) = Cert.Model.agg (X m c) (EI m c) n k := by
  rw [e_agg_term]
  refine (row_host_scatterAdd_apply _ rfl rfl rfl rfl _ _ _ n k).trans ?_
  unfold Cert.Model.agg Cert.Spec.into
  rw [show broadcastInDim S10000x512 ![] bcast_S_S10000x512 (constant (F := Ideal) S_ .f32 0x00000000#32) (ix2 n k)
      = Ideal.ofBits .f32 0x00000000#32 from rfl, Ideal.ofBits_zero_f32, zero_add]
  refine Finset.sum_congr (Finset.filter_congr fun e _ => by rw [dstCol_apply]; rfl) (fun e _ => ?_)
  show Host.gather gather_S10000x512_S160000x1_S160000x512_1_0_n_n_0_1_1512
      (truncf (F := Ideal) .bf16 (X m c) bitsLt_bf16_f32) (srcCol m c) (ix2 e k) = _
  refine (row_gather_apply (by norm_num) _ rfl rfl rfl rfl rfl rfl rfl _ _ e k).trans ?_
  show X m c (ix2 ⟨min (srcCol m c (ix2 e (0 : Fin 1))).toInt.toNat (10000 - 1), _⟩ k) = _
  refine congrArg (fun r : Fin 10000 => X m c (ix2 r k)) (Fin.ext ?_)
  show min (srcCol m c (ix2 e (0 : Fin 1))).toInt.toNat (10000 - 1) = (rowOf (EI m c (ix2 (0 : Fin 2) e))).val
  rw [srcCol_apply]; rfl

/-! ## The normalisation factor -/

/-- The factor's buffer after the first stretch, as the operations build it: ones added into a zero array at the target
    words, plus one, the inverse square root, as a one-column array. -/
theorem e_dis_term : (V1 m ρ c main_v23 : S10000x1.Idx → EReal)
    = shapeCast S10000x1 (Host.rsqrt (addf
        (Host.scatterAdd (F := Ideal) scatter_S10000_S160000x1_S160000_n_0_0_1
          (broadcastInDim S10000 ![] bcast_S_S10000 (constant (F := Ideal) S_ .f32 0x00000000#32))
          (dstCol m c)
          (broadcastInDim S160000 ![] bcast_S_S160000 (constant (F := Ideal) S_ .f32 0x3F800000#32)))
        (broadcastInDim S10000 ![] bcast_S_S10000 (constant (F := Ideal) S_ .f32 0x3F800000#32))))
      shapeCasts_S10000_S10000x1 := by
  dsimp only [V1, W1, hostOps0]; after_results_simp; rfl

/-- The word 0x3F800000 is the real number one. -/
theorem ofBits_one_f32 : Ideal.ofBits .f32 0x3F800000#32 = 1 := by
  simp [Ideal.ofBits, Ideal.ieee, -EReal.coe_mul]; norm_num

/-- THE FACTOR: entry n of the buffer is (number of edges whose target is n, plus one)^(-1/2). -/
theorem e_dis (n : Fin 10000) :
    (V1 m ρ c main_v23 : S10000x1.Idx → EReal) (ix2 n (0 : Fin 1)) = Cert.Model.d (EI m c) n := by
  rw [e_dis_term]
  refine (shapeCast_apply _ shapeCasts_S10000_S10000x1 (ix2 n (0 : Fin 1)) (ix1 n) ?_).trans ?_
  · rewrite [Shape.rowMajor_val_two, Shape.rowMajor_val_one]
    show n.val = n.val * 1 + 0; omega
  unfold Cert.Model.d Cert.Spec.dis
  rw [show ∀ (x : FVec Ideal S10000 .f32) (i : S10000.Idx), Host.rsqrt x i = Ideal.rsqrt (x i) from fun _ _ => rfl,
    addf_apply,
    show broadcastInDim S10000 ![] bcast_S_S10000 (constant (F := Ideal) S_ .f32 0x3F800000#32) (ix1 n)
      = Ideal.ofBits .f32 0x3F800000#32 from rfl, ofBits_one_f32]
  refine congrArg (fun v : EReal => Ideal.rsqrt (v + 1)) ?_
  refine (flat_host_scatterAdd_apply _ rfl rfl rfl rfl _ _ _ n).trans ?_
  unfold Cert.Spec.cnt Cert.Spec.into
  rw [show broadcastInDim S10000 ![] bcast_S_S10000 (constant (F := Ideal) S_ .f32 0x00000000#32) (ix1 n)
      = Ideal.ofBits .f32 0x00000000#32 from rfl, Ideal.ofBits_zero_f32, zero_add]
  refine Finset.sum_congr (Finset.filter_congr fun e _ => by rw [dstCol_apply]; rfl) (fun e _ => ?_)
  rw [show broadcastInDim S160000 ![] bcast_S_S160000 (constant (F := Ideal) S_ .f32 0x3F800000#32) (ix1 e)
      = Ideal.ofBits .f32 0x3F800000#32 from rfl]
  exact ofBits_one_f32

end Cert.KernelIdeal.Entry

end
-- ==== Proof.EntryKept.lean ====
/-
  What the second stretch of host operations keeps and what it re-lays. Between the two pipelined regions the program
  runs seventeen host operations. None of them writes the first region's result, the normalisation column or the
  argument arrays, so at the second region's entry those buffers hold what they held before: the first region's result
  as that region left it, the normalisation column as the first region found it (that region only reads it), the
  arguments as launched. Three of the operations re-lay a bias vector of length a as a one-row matrix [1, a]: element
  (0, j) of the matrix is element j of the vector.
-/
import proofs.«102789_j62758062129644_2_alg».proof.Proof.Gen.KernelIdeal.Frame
import Idealize.ShloMosaic.Lib.Pipeline.Value
import Idealize.ShloMosaic.Lib.ValueIdx
import Idealize.ShloMosaic.Lib.StableHlo.Run

set_option maxRecDepth 16384

noncomputable section

namespace Cert.KernelIdeal.Entry

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable (m : (ℓ : Loc nD τ sig) → Buf (Elt Ideal) ℓ) (ρ : Dev nD → PrngReg) (c : Dev nD)

/-- No operation of a stretch writes the buffer: each operation's written set is a singleton other than it. -/
local macro "stretch_skips " ops:ident : tactic =>
  `(tactic| (
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

/-! ## Buffers the second stretch does not write -/

/-- The first region's result reaches the second region as the first left it. -/
theorem k_hs : V3 m ρ c main_v27 = V2 m ρ c main_v27 :=
  StableHlo.after_of_forall_not_mem (b := Proc.devRef .tc main_v27) _ _ (List.forall_iff_forall_mem.mp (by
    stretch_skips hostOps1))

/-- The normalisation column reaches the second region as the first region found it: the stretch does not write it
    and the first region only reads it. -/
theorem k_dis : V3 m ρ c main_v23 = V1 m ρ c main_v23 :=
  calc W3 m ρ c (Proc.devRef .tc main_v23)
    _ = W2 m ρ c (Proc.devRef .tc main_v23) :=
        StableHlo.after_of_forall_not_mem (b := Proc.devRef .tc main_v23) _ _ (List.forall_iff_forall_mem.mp (by
          stretch_skips hostOps1))
    _ = W1 m ρ c (Proc.devRef .tc main_v23) :=
        (W2_arr m ρ c 2).trans (((dat0 (V1 m ρ) c).arrAt_in 2 rfl _).trans (A_eq0 (V1 m ρ) c 2))

/-- The first decoder weight reaches the second region as launched. -/
theorem k_a : V3 m ρ c main_arg6 = m ((c : Thread nD τ).loc main_arg6) :=
  ((W4_arr m ρ c 4).trans (((dat1 (V3 m ρ) c).arrAt_in 4 rfl _).trans (A_eq1 (V3 m ρ) c 4))).symm.trans
    (W4_main_arg6 m ρ c)

/-- The second decoder weight reaches the second region as launched. -/
theorem k_b : V3 m ρ c main_arg8 = m ((c : Thread nD τ).loc main_arg8) :=
  ((W4_arr m ρ c 6).trans (((dat1 (V3 m ρ) c).arrAt_in 6 rfl _).trans (A_eq1 (V3 m ρ) c 6))).symm.trans
    (W4_main_arg8 m ρ c)

/-! ## The bias vectors at the first region's exit are the launched ones -/

theorem W2_main_arg5 : W2 m ρ c (Proc.devRef .tc main_arg5) = m ((c : Thread nD τ).loc main_arg5) :=
  calc W2 m ρ c (Proc.devRef .tc main_arg5)
    _ = W1 m ρ c (Proc.devRef .tc main_arg5) := W2_of_ne m ρ c main_arg5 (by decide)
    _ = W0 m ρ c (Proc.devRef .tc main_arg5) :=
        StableHlo.after_of_forall_not_mem (b := Proc.devRef .tc main_arg5) _ _ (List.forall_iff_forall_mem.mp (by
          stretch_skips hostOps0))
    _ = m ((c : Thread nD τ).loc main_arg5) := rfl

theorem W2_main_arg7 : W2 m ρ c (Proc.devRef .tc main_arg7) = m ((c : Thread nD τ).loc main_arg7) :=
  calc W2 m ρ c (Proc.devRef .tc main_arg7)
    _ = W1 m ρ c (Proc.devRef .tc main_arg7) := W2_of_ne m ρ c main_arg7 (by decide)
    _ = W0 m ρ c (Proc.devRef .tc main_arg7) :=
        StableHlo.after_of_forall_not_mem (b := Proc.devRef .tc main_arg7) _ _ (List.forall_iff_forall_mem.mp (by
          stretch_skips hostOps0))
    _ = m ((c : Thread nD τ).loc main_arg7) := rfl

theorem W2_main_arg9 : W2 m ρ c (Proc.devRef .tc main_arg9) = m ((c : Thread nD τ).loc main_arg9) :=
  calc W2 m ρ c (Proc.devRef .tc main_arg9)
    _ = W1 m ρ c (Proc.devRef .tc main_arg9) := W2_of_ne m ρ c main_arg9 (by decide)
    _ = W0 m ρ c (Proc.devRef .tc main_arg9) :=
        StableHlo.after_of_forall_not_mem (b := Proc.devRef .tc main_arg9) _ _ (List.forall_iff_forall_mem.mp (by
          stretch_skips hostOps0))
    _ = m ((c : Thread nD τ).loc main_arg9) := rfl

/-! ## The bias vectors re-laid as one-row matrices -/

set_option maxHeartbeats 4000000 in
/-- The convolution's bias as a one-row matrix: element (0, j) is element j of the launched vector. -/
theorem k_gb (j : Fin 256) :
    V3 m ρ c main_v39 (ix2 (0 : Fin 1) j) = m ((c : Thread nD τ).loc main_arg5) (ix1 j) := by
  show StableHlo.after hostOps1 (W2 m ρ c) (Proc.devRef .tc main_v39) (ix2 (0 : Fin 1) j) = _
  after_results_simp
  show shapeCast S1x256 (W2 m ρ c (Proc.devRef .tc main_arg5)) shapeCasts_S256_S1x256 (ix2 (0 : Fin 1) j) = _
  rw [shapeCast_apply _ shapeCasts_S256_S1x256 (ix2 (0 : Fin 1) j) (ix1 j) (by
    rewrite [Shape.rowMajor_val_one, Shape.rowMajor_val_two]; show j.val = 0 * 256 + j.val; omega)]
  exact congrFun (W2_main_arg5 m ρ c) (ix1 j)

set_option maxHeartbeats 4000000 in
/-- The decoder's first bias as a one-row matrix. -/
theorem k_ab (k : Fin 128) :
    V3 m ρ c main_v40 (ix2 (0 : Fin 1) k) = m ((c : Thread nD τ).loc main_arg7) (ix1 k) := by
  show StableHlo.after hostOps1 (W2 m ρ c) (Proc.devRef .tc main_v40) (ix2 (0 : Fin 1) k) = _
  after_results_simp
  show shapeCast S1x128 (W2 m ρ c (Proc.devRef .tc main_arg7)) shapeCasts_S128_S1x128 (ix2 (0 : Fin 1) k) = _
  rw [shapeCast_apply _ shapeCasts_S128_S1x128 (ix2 (0 : Fin 1) k) (ix1 k) (by
    rewrite [Shape.rowMajor_val_one, Shape.rowMajor_val_two]; show k.val = 0 * 128 + k.val; omega)]
  exact congrFun (W2_main_arg7 m ρ c) (ix1 k)

set_option maxHeartbeats 4000000 in
/-- The decoder's second bias as a one-row matrix. -/
theorem k_bb (q : Fin 2) :
    V3 m ρ c main_v41 (ix2 (0 : Fin 1) q) = m ((c : Thread nD τ).loc main_arg9) (ix1 q) := by
  show StableHlo.after hostOps1 (W2 m ρ c) (Proc.devRef .tc main_v41) (ix2 (0 : Fin 1) q) = _
  after_results_simp
  show shapeCast S1x2 (W2 m ρ c (Proc.devRef .tc main_arg9)) shapeCasts_S2_S1x2 (ix2 (0 : Fin 1) q) = _
  rw [shapeCast_apply _ shapeCasts_S2_S1x2 (ix2 (0 : Fin 1) q) (ix1 q) (by
    rewrite [Shape.rowMajor_val_one, Shape.rowMajor_val_two]; show q.val = 0 * 2 + q.val; omega)]
  exact congrFun (W2_main_arg9 m ρ c) (ix1 q)

end Cert.KernelIdeal.Entry

end
-- ==== Proof.EntryTwo.lean ====
/-
  What the second region finds on entry, and the kernel program's result array.

  Between the regions the host gathers, per edge, the scaled row of the edge's source node out of the first region's
  output and adds it into the row of the edge's target: the neighbour sum of the scaled rows.  The second region also
  reads the scaled rows themselves, the column of factors as the first region found it, three bias vectors re-laid
  as one-row matrices, and two weight arguments.  Its output array, row by row, is the model's result.
-/
import proofs.«102789_j62758062129644_2_alg».proof.Proof.Gen.KernelIdeal.Frame
import proofs.«102789_j62758062129644_2_alg».proof.Proof.EncodeArray
import proofs.«102789_j62758062129644_2_alg».proof.Proof.DecodeArray
import proofs.«102789_j62758062129644_2_alg».proof.Proof.EntryOne
import proofs.«102789_j62758062129644_2_alg».proof.Proof.EntryKept
import proofs.«102789_j62758062129644_2_alg».proof.Proof.Model
import proofs.«102789_j62758062129644_2_alg».proof.Proof.LibIndexed
import proofs.«102789_j62758062129644_2_alg».proof.Proof.EdgeWords
import Idealize.ShloMosaic.Lib.Pipeline.Value
import Idealize.ShloMosaic.Lib.ValueIdx
import Idealize.ShloMosaic.Lib.StableHlo.Run
import Idealize.ShloMosaic.PureOps.Ideal.Laws

set_option maxRecDepth 16384

noncomputable section

namespace Cert.KernelIdeal.Entry

open Cert.KernelIdeal Cert.KernelIdeal.Gen Cert.KernelIdeal.Arrays
open Idealize.ShloMosaic Idealize.ShloMosaic.TcCoe Idealize.SL.Sem Idealize.ShloMosaic.ValueIdx Idealize.ShloMosaic.StableHlo
open Cert.LibIndexed Cert.EdgeWords

variable (m : (ℓ : Loc nD τ sig) → Buf (Elt Ideal) ℓ) (ρ : Dev nD → PrngReg) (c : Dev nD)

/-- The launch contents of the ten arguments on core c, as arrays of the model's types. -/
abbrev aX : Cert.Model.Arr2 10000 512 := m ((c : Thread nD τ).loc main_arg0)
abbrev aEI : Cert.Model.Edges := m ((c : Thread nD τ).loc main_arg1)
abbrev aFW : Cert.Model.Arr2 512 512 := m ((c : Thread nD τ).loc main_arg2)
abbrev aFB : Cert.Model.Arr1 512 := m ((c : Thread nD τ).loc main_arg3)
abbrev aGW : Cert.Model.Arr2 1024 256 := m ((c : Thread nD τ).loc main_arg4)
abbrev aGB : Cert.Model.Arr1 256 := m ((c : Thread nD τ).loc main_arg5)
abbrev aD1W : Cert.Model.Arr2 256 128 := m ((c : Thread nD τ).loc main_arg6)
abbrev aD1B : Cert.Model.Arr1 128 := m ((c : Thread nD τ).loc main_arg7)
abbrev aD2W : Cert.Model.Arr2 128 2 := m ((c : Thread nD τ).loc main_arg8)
abbrev aD2B : Cert.Model.Arr1 2 := m ((c : Thread nD τ).loc main_arg9)

/-- The scaled rows: the first region's output array, row by row, is the model's. -/
theorem hs_eq (n : Fin 10000) (o : Fin 256) :
    V2 m ρ c main_v27 (ix2 n o) = Cert.Model.hs (aX m c) (aEI m c) (aFW m c) (aFB m c) (aGW m c) n o := by
  show W2 m ρ c (Proc.devRef .tc (Pipeline.arrRef spec0 7)) (ix2 n o) = _
  rw [W2_arr m ρ c 7, final0 (V1 m ρ) c]
  show encAt (V1 m ρ c main_arg0) (V1 m ρ c main_v15) (V1 m ρ c main_v23) (V1 m ρ c main_arg2) (V1 m ρ c main_v26)
    (V1 m ρ c main_v24) (V1 m ρ c main_v25) n o = _
  unfold encAt Cert.Model.hs Cert.Model.hCut Cert.Model.h1
  simp only [e_x m ρ c, e_fw m ρ c, e_agg m ρ c, e_dis m ρ c, e_fb m ρ c, e_g1 m ρ c, e_g2 m ρ c]

/-- A vector of words laid as a one-column matrix, read at row e. -/
theorem col_apply (y : S160000.Idx → BitVec 32) (e : Fin 160000) :
    broadcastInDim S160000x1 ![0] bcast_S160000_S160000x1_0 y (ix2 e (0 : Fin 1)) = y (ix1 e) :=
  broadcastInDim_apply _ bcast_S160000_S160000x1_0 y (ix2 e (0 : Fin 1)) (ix1 e) (fun a => match a with
    | ⟨0, _⟩ => by show e.val = if (160000 : Nat) = 1 then 0 else e.val; rw [if_neg (by decide)])

set_option maxHeartbeats 4000000 in
/-- The neighbour sum of the scaled rows is what the second region finds in its first window. -/
theorem e2_raw (n : Fin 10000) (o : Fin 256) :
    V3 m ρ c main_v38 (ix2 n o) = Cert.Model.raw (aX m c) (aEI m c) (aFW m c) (aFB m c) (aGW m c) n o := by
  show StableHlo.after hostOps1 (W2 m ρ c) (Proc.devRef .tc main_v38) (ix2 n o) = _
  after_results_simp
  rw [row_host_scatterAdd_apply _ rfl rfl rfl rfl]
  have hz0 : broadcastInDim S10000x256 ![] bcast_S_S10000x256 (constant (F := Ideal) S_ .f32 0x00000000#32) (ix2 n o) = 0 := by
    rw [broadcastInDim_apply _ bcast_S_S10000x256 _ (ix2 n o) ix0 (fun a => a.elim0)]
    exact Ideal.ofBits_zero_f32
  have hw1 : ∀ e : Fin 160000, W2 m ρ c (Proc.devRef .tc main_v1) (ix1 e) = aEI m c (ix2 (0 : Fin 2) e) := fun e =>
    (congrFun (W2_of_ne m ρ c main_v1 (by decide)) (ix1 e)).trans (w_src m ρ c e)
  have hw3 : ∀ e : Fin 160000, W2 m ρ c (Proc.devRef .tc main_v3) (ix1 e) = aEI m c (ix2 (1 : Fin 2) e) := fun e =>
    (congrFun (W2_of_ne m ρ c main_v3 (by decide)) (ix1 e)).trans (w_dst m ρ c e)
  rw [hz0, zero_add]
  unfold Cert.Model.raw Cert.Spec.into
  show (_ : EReal) = _
  refine Finset.sum_congr (Finset.filter_congr fun e _ => ?_) (fun e _ => ?_)
  · rw [col_apply, hw3 e]; rfl
  · show Host.gather gather_S10000x256_S160000x1_S160000x256_1_0_n_n_0_1_1256 (W2 m ρ c (Proc.devRef .tc main_v27)) _ (ix2 e o) = _
    rw [row_gather_apply (by norm_num) _ rfl rfl rfl rfl rfl rfl rfl]
    refine (congrArg (fun r : Fin 10000 => W2 m ρ c (Proc.devRef .tc main_v27) (ix2 r o)) (Fin.ext ?_ : _ = Cert.Model.src (aEI m c) e)).trans
      (hs_eq m ρ c (Cert.Model.src (aEI m c) e) o)
    show min (BitVec.toInt _).toNat (10000 - 1) = min (nrm (aEI m c (ix2 (0 : Fin 2) e))).toInt.toNat (10000 - 1)
    rw [col_apply]
    show min (BitVec.toInt (Scalar.select (IntOp.cmpi .slt (W2 m ρ c (Proc.devRef .tc main_v1) (ix1 e)) 0#32)
      (IntOp.addi (W2 m ρ c (Proc.devRef .tc main_v1) (ix1 e)) 10000#32) (W2 m ρ c (Proc.devRef .tc main_v1) (ix1 e)))).toNat (10000 - 1) = _
    rw [hw1 e]
    rfl

/-- The scaled rows again, as the second region finds them. -/
theorem e2_hs (n : Fin 10000) (o : Fin 256) :
    V3 m ρ c main_v27 (ix2 n o) = Cert.Model.hs (aX m c) (aEI m c) (aFW m c) (aFB m c) (aGW m c) n o := by
  rw [k_hs m ρ c]; exact hs_eq m ρ c n o

/-- The column of factors, as the second region finds it. -/
theorem e2_dis (n : Fin 10000) : V3 m ρ c main_v23 (ix2 n (0 : Fin 1)) = Cert.Model.d (aEI m c) n := by
  rw [k_dis m ρ c]; exact e_dis m ρ c n

/-- The kernel program's result as an array over the result buffer's index. -/
def resultArr : S10000x2.Idx → EReal := fun i =>
  Cert.Model.kernelOut (aX m c) (aEI m c) (aFW m c) (aFB m c) (aGW m c) (aGB m c) (aD1W m c) (aD1B m c) (aD2W m c) (aD2B m c)
    ⟨(i 0).val, idx2_lt0 i⟩ ⟨(i 1).val, idx2_lt1 i⟩

/-- THE KERNEL PROGRAM'S RESULT: the second region's output array after its write-backs is the model's function of the
    launch contents of the arguments. -/
theorem kernel_value : W4 m ρ c (Proc.devRef .tc main_v42) = resultArr m c := by
  show W4 m ρ c (Proc.devRef .tc (Pipeline.arrRef spec1 8)) = _
  rw [W4_arr m ρ c 8, final1 (V3 m ρ) c]
  funext i
  show decAt (V3 m ρ c main_v38) (V3 m ρ c main_v27) (V3 m ρ c main_v23) (V3 m ρ c main_v39) (V3 m ρ c main_arg6)
    (V3 m ρ c main_v40) (V3 m ρ c main_arg8) (V3 m ρ c main_v41) ⟨(i 0).val, idx2_lt0 i⟩ ⟨(i 1).val, idx2_lt1 i⟩ = _
  unfold decAt resultArr Cert.Model.kernelOut Cert.Model.dec Cert.Spec.decode Cert.Spec.dense Cert.Model.conv
  simp only [e2_raw m ρ c, e2_hs m ρ c, e2_dis m ρ c, k_gb m ρ c, k_a m ρ c, k_ab m ρ c, k_b m ρ c, k_bb m ρ c]

end Cert.KernelIdeal.Entry

end
-- ==== Proof.RefValue.lean ====
/-
  The reference program read index by index. Each stage of the program is read at an index given by coordinates, from
  the bottom up: the edge words and their normal forms; the neighbour sum of the features (a gather of rows followed
  by an accumulating scatter); the first dense layer; the joined row and the second layer with the whole weight; the
  longer edge list (the edges followed by one loop per node); the count of edges into a node and the guarded
  normalisation factor; the sum, over the longer list, of rows scaled by both endpoints' factors; and the two dense
  layers of the decoder with the rectifier between them. The last theorem says the program's result at (n, c) is the
  model function.
-/
import proofs.«102789_j62758062129644_2_alg».proof.Proof.RefReadP
import proofs.«102789_j62758062129644_2_alg».proof.Proof.Model
import proofs.«102789_j62758062129644_2_alg».proof.Proof.LibIndexed
import Idealize.ShloMosaic.Lib.Pipeline.Value
import Idealize.ShloMosaic.Lib.ValueIdx
import Idealize.ShloMosaic.PureOps.Ideal.Laws

noncomputable section

namespace Cert.RefValue

open Idealize.ShloMosaic Idealize.ShloMosaic.ValueIdx Idealize.SL.Sem Idealize.ShloMosaic.StableHlo
open Cert.ReferenceIdeal Cert.ReferenceIdeal.Gen Cert.ReferenceIdeal.ReadP
open Cert.Model Cert.Spec Cert.EdgeWords Cert.LibIndexed
open scoped BigOperators

variable (X : Arr2 10000 512) (EI : Edges) (FW : Arr2 512 512) (FB : Arr1 512) (GW : Arr2 1024 256) (GB : Arr1 256)
  (D1W : Arr2 256 128) (D1B : Arr1 128) (D2W : Arr2 128 2) (D2B : Arr1 2)

/-! ## Indices with equal coordinates are equal; the word of one -/

theorem idx1_ext {n : ℕ} {i j : (⟨1, ![n]⟩ : Shape).Idx} (h : (i 0).val = (j 0).val) : i = j :=
  funext fun a => match a with | ⟨0, _⟩ => Fin.ext h

theorem idx2_ext {n0 n1 : ℕ} {i j : (⟨2, ![n0, n1]⟩ : Shape).Idx} (h0 : (i 0).val = (j 0).val)
    (h1 : (i 1).val = (j 1).val) : i = j :=
  funext fun a => match a with | ⟨0, _⟩ => Fin.ext h0 | ⟨1, _⟩ => Fin.ext h1

/-- The word 0x3F800000 encodes the real number one. -/
theorem ofBits_one_f32 : Ideal.ofBits .f32 0x3F800000#32 = 1 := by
  simp [Ideal.ofBits, Ideal.ieee, -EReal.coe_mul]; norm_num

/-! ## The edge words -/

/-- The flattened first row of the edge array at e is the source word of edge e. -/
theorem v1_at (e : Fin 160000) : val_main_v1 (F := Ideal) EI (ix1 e) = EI (ix2 (0 : Fin 2) e) := by
  rw [val_main_v1_apply, val_main_v0_apply]
  exact congrArg EI (idx2_ext rfl (Nat.mod_eq_of_lt e.isLt))

/-- The flattened second row of the edge array at e is the target word of edge e. -/
theorem v3_at (e : Fin 160000) : val_main_v3 (F := Ideal) EI (ix1 e) = EI (ix2 (1 : Fin 2) e) := by
  rw [val_main_v3_apply, val_main_v2_apply]
  exact congrArg EI (idx2_ext rfl (Nat.mod_eq_of_lt e.isLt))

/-- The source word, a negative one moved up by the node count. -/
theorem v8_at (e : Fin 160000) : val_main_v8 (F := Ideal) EI (ix1 e) = nrm (EI (ix2 (0 : Fin 2) e)) := by
  rw [val_main_v8_apply, val_main_v5_apply, val_main_v7_apply, val_main_v4_apply, val_main_v6_apply, val_main_c_apply,
    val_main_c_0_apply, v1_at]
  rfl

theorem v9_at (e : Fin 160000) : val_main_v9 (F := Ideal) EI (ix2 e (0 : Fin 1)) = nrm (EI (ix2 (0 : Fin 2) e)) := by
  have ei : idx_main_v9 (ix2 e (0 : Fin 1)) = ix1 e := idx1_ext rfl
  rw [val_main_v9_apply, ei, v8_at]

theorem v12_at (e : Fin 160000) : val_main_v12 (F := Ideal) EI (ix2 e (0 : Fin 1)) = EI (ix2 (1 : Fin 2) e) := by
  have ei : idx_main_v12 (ix2 e (0 : Fin 1)) = ix1 e := idx1_ext rfl
  rw [val_main_v12_apply, ei, v3_at]

/-! ## The neighbour sum of the features -/

/-- The gathered rows: edge e reads the features' row at its source node. -/
theorem v10_at (e : Fin 160000) (k : Fin 512) :
    val_main_v10 (F := Ideal) X EI (ix2 e k) = X (ix2 (src EI e) k) := by
  unfold val_main_v10
  refine (row_gather_apply (N := 10000) (D := 512) (E := 160000) (by omega)
    gather_S10000x512_S160000x1_S160000x512_1_0_n_n_0_1_1512 rfl rfl rfl rfl rfl rfl rfl X
    (val_main_v9 (F := Ideal) EI) e k).trans ?_
  refine congrArg X (idx2_ext ?_ rfl)
  show min (val_main_v9 (F := Ideal) EI (ix2 e (0 : Fin 1))).toInt.toNat (10000 - 1) = (src EI e).val
  rw [v9_at]
  rfl

/-- The accumulating scatter into zeros: row n is the sum of the gathered rows over the edges whose target is n. -/
theorem v13_at (n : Fin 10000) (k : Fin 512) : val_main_v13 (F := Ideal) X EI (ix2 n k) = agg X EI n k := by
  unfold val_main_v13
  refine (row_host_scatterAdd_apply (N := 10000) (D := 512) (E := 160000)
    scatter_S10000x512_S160000x1_S160000x512_1_0_0_1 rfl rfl rfl rfl _ _ _ n k).trans ?_
  rw [val_main_v11_apply, val_main_cst_apply, Ideal.ofBits_def, Ideal.ofBits_zero_f32, zero_add]
  unfold agg into dst
  refine Finset.sum_congr (Finset.filter_congr fun e _ => ?_) fun e _ => v10_at X EI e k
  rw [v12_at]

/-! ## The first dense layer -/

theorem v17_at (n : Fin 10000) (k : Fin 512) :
    val_main_v17 (F := Ideal) X EI FW FB (ix2 n k) = h1 X EI FW FB n k := by
  rw [val_main_v17_apply, val_main_v14_apply, val_main_v16_apply, val_main_v15_apply, Ideal.addf_def]
  unfold h1
  refine congrArg₂ (fun a b : EReal => a + b) (Finset.sum_congr rfl fun j _ => ?_) (congrArg FB (idx1_ext rfl))
  have el : lidx_main_v14 (ix2 n k) j = ix2 n j := idx2_ext rfl rfl
  have er : ridx_main_v14 (ix2 n k) j = ix2 j k := idx2_ext rfl rfl
  rw [el, er, v13_at]

/-! ## The joined row and the second layer -/

/-- The features and the first layer side by side: the first 512 columns are the features, the rest the layer. -/
theorem v18_at (n : Fin 10000) (k' : Fin (512 + 512)) :
    val_main_v18 (F := Ideal) X EI FW FB (ix2 n k') = joined X EI FW FB n k' := by
  unfold val_main_v18 joined
  refine Fin.addCases (fun k => ?_) (fun k => ?_) k'
  · rw [Fin.addCases_left]
    exact concatenate_pair_apply_left _ X (val_main_v17 (F := Ideal) X EI FW FB)
      concatenates_S10000x512_S10000x512_S10000x1024_d1 (ix2 n (Fin.castAdd 512 k)) rfl (ix2 n k)
      (fun b => match b with | ⟨0, _⟩ => rfl | ⟨1, _⟩ => rfl)
  · rw [Fin.addCases_right]
    refine (concatenate_pair_apply_right _ X (val_main_v17 (F := Ideal) X EI FW FB)
      concatenates_S10000x512_S10000x512_S10000x1024_d1 (ix2 n (Fin.natAdd 512 k)) rfl rfl (ix2 n k)
      (fun b => match b with | ⟨0, _⟩ => fun _ => rfl | ⟨1, _⟩ => fun h => absurd rfl h) ?_).trans (v17_at X EI FW FB n k)
    show k.val + 512 = 512 + k.val
    omega

theorem v19_at (n : Fin 10000) (o : Fin 256) :
    val_main_v19 (F := Ideal) X EI FW FB GW (ix2 n o) = hJoin X EI FW FB GW n o := by
  rw [val_main_v19_apply]
  unfold hJoin
  refine Finset.sum_congr rfl fun k _ => ?_
  have el : lidx_main_v19 (ix2 n o) k = ix2 n k := idx2_ext rfl rfl
  have er : ridx_main_v19 (ix2 n o) k = ix2 k o := idx2_ext rfl rfl
  rw [el, er]
  exact congrArg (fun z : EReal => z * GW (ix2 k o)) (v18_at X EI FW FB n k)

/-! ## The longer edge list: the edges followed by one loop per node -/

/-- The source words over the longer list. -/
def srcW : Fin (160000 + 10000) → BitVec 32 :=
  Fin.addCases (fun e => EI (ix2 (0 : Fin 2) e)) (fun m => BitVec.ofNat 32 m.val)
/-- The target words over the longer list. -/
def dstW : Fin (160000 + 10000) → BitVec 32 :=
  Fin.addCases (fun e => EI (ix2 (1 : Fin 2) e)) (fun m => BitVec.ofNat 32 m.val)

theorem rowOf_srcW (e' : Fin (160000 + 10000)) : rowOf (srcW EI e') = srcL EI e' := by
  unfold srcW srcL
  refine Fin.addCases (fun e => ?_) (fun m => ?_) e'
  · rw [Fin.addCases_left, Fin.addCases_left]; rfl
  · rw [Fin.addCases_right, Fin.addCases_right]

theorem toInt_dstW (e' : Fin (160000 + 10000)) : (dstW EI e').toInt = dstL EI e' := by
  unfold dstW dstL
  refine Fin.addCases (fun e => ?_) (fun m => ?_) e'
  · rw [Fin.addCases_left, Fin.addCases_left]; rfl
  · rw [Fin.addCases_right, Fin.addCases_right]

theorem rowOf_dstW (e' : Fin (160000 + 10000)) : rowOf (dstW EI e') = dstRowL EI e' := by
  unfold dstW dstRowL
  refine Fin.addCases (fun e => ?_) (fun m => ?_) e'
  · rw [Fin.addCases_left, Fin.addCases_left]
  · rw [Fin.addCases_right, Fin.addCases_right]

/-- The source words joined with the node numbers. -/
theorem v21_at (e' : Fin (160000 + 10000)) : val_main_v21 (F := Ideal) EI (ix1 e') = srcW EI e' := by
  unfold val_main_v21 srcW
  refine Fin.addCases (fun e => ?_) (fun m => ?_) e'
  · rw [Fin.addCases_left]
    exact (concatenate_pair_apply_left _ (val_main_v1 (F := Ideal) EI) (val_main_v20 (F := Ideal))
      concatenates_S160000_S10000_S170000_d0 (ix1 (Fin.castAdd 10000 e)) rfl (ix1 e)
      (fun b => match b with | ⟨0, _⟩ => rfl)).trans (v1_at EI e)
  · rw [Fin.addCases_right]
    refine concatenate_pair_apply_right _ (val_main_v1 (F := Ideal) EI) (val_main_v20 (F := Ideal))
      concatenates_S160000_S10000_S170000_d0 (ix1 (Fin.natAdd 160000 m)) rfl rfl (ix1 m)
      (fun b => match b with | ⟨0, _⟩ => fun h => absurd rfl h) ?_
    show m.val + 160000 = 160000 + m.val
    omega

/-- The target words joined with the node numbers. -/
theorem v22_at (e' : Fin (160000 + 10000)) : val_main_v22 (F := Ideal) EI (ix1 e') = dstW EI e' := by
  unfold val_main_v22 dstW
  refine Fin.addCases (fun e => ?_) (fun m => ?_) e'
  · rw [Fin.addCases_left]
    exact (concatenate_pair_apply_left _ (val_main_v3 (F := Ideal) EI) (val_main_v20 (F := Ideal))
      concatenates_S160000_S10000_S170000_d0 (ix1 (Fin.castAdd 10000 e)) rfl (ix1 e)
      (fun b => match b with | ⟨0, _⟩ => rfl)).trans (v3_at EI e)
  · rw [Fin.addCases_right]
    refine concatenate_pair_apply_right _ (val_main_v3 (F := Ideal) EI) (val_main_v20 (F := Ideal))
      concatenates_S160000_S10000_S170000_d0 (ix1 (Fin.natAdd 160000 m)) rfl rfl (ix1 m)
      (fun b => match b with | ⟨0, _⟩ => fun h => absurd rfl h) ?_
    show m.val + 160000 = 160000 + m.val
    omega

/-! ## The count of edges into a node and the guarded factor -/

theorem v25_at (e' : Fin (160000 + 10000)) : val_main_v25 (F := Ideal) EI (ix2 e' (0 : Fin 1)) = dstW EI e' := by
  have ei : idx_main_v25 (ix2 e' (0 : Fin 1)) = ix1 e' := idx1_ext rfl
  rw [val_main_v25_apply, ei, v22_at]

/-- Ones scattered into zeros at the target words: the number of edges of the longer list into n. -/
theorem v26_at (n : Fin 10000) : val_main_v26 (F := Ideal) EI (ix1 n) = cnt (dstL EI) n := by
  unfold val_main_v26
  refine (flat_host_scatterAdd_apply (N := 10000) (E := 160000 + 10000) scatter_S10000_S170000x1_S170000_n_0_0_1
    rfl rfl rfl rfl _ _ _ n).trans ?_
  rw [val_main_v24_apply, val_main_cst_2_apply, Ideal.ofBits_def, Ideal.ofBits_zero_f32, zero_add]
  unfold cnt into
  refine Finset.sum_congr (Finset.filter_congr fun e _ => ?_) fun e _ => ?_
  · rw [v25_at, toInt_dstW]
  · rw [val_main_v23_apply, val_main_cst_1_apply, Ideal.ofBits_def]
    exact ofBits_one_f32

/-- The guarded factor: zero where nothing points at the node, else (max count 1)^(-1/2). -/
theorem v32_at (n : Fin 10000) : val_main_v32 (F := Ideal) EI (ix1 n) = dL EI n := by
  rw [val_main_v32_apply, val_main_v28_apply, val_main_v31_apply, val_main_v30_apply, val_main_v27_apply,
    val_main_cst_3_apply, val_main_v29_apply, val_main_cst_4_apply, val_main_call0_v1_apply, val_main_call0_v0_apply,
    val_main_cst_5_apply, v26_at, Ideal.hostUnary_rsqrt_def, Ideal.maximumf_def, Ideal.cmpf_def, Ideal.ofBits_def,
    Ideal.ofBits_def, Ideal.ofBits_zero_f32, ofBits_one_f32]
  unfold dL disGuard Scalar.select Ideal.cmp
  by_cases h : 0 < cnt (dstL EI) n
  · simp [h]
  · simp [h]

/-! ## The sum over the longer list of rows scaled by both endpoints' factors -/

/-- The source word over the longer list, a negative one moved up by the node count. -/
theorem v37_at (e' : Fin (160000 + 10000)) : val_main_v37 (F := Ideal) EI (ix1 e') = nrm (srcW EI e') := by
  rw [val_main_v37_apply, val_main_v34_apply, val_main_v36_apply, val_main_v33_apply, val_main_v35_apply,
    val_main_c_6_apply, val_main_c_7_apply, v21_at]
  rfl

/-- The target word over the longer list, a negative one moved up by the node count. -/
theorem v44_at (e' : Fin (160000 + 10000)) : val_main_v44 (F := Ideal) EI (ix1 e') = nrm (dstW EI e') := by
  rw [val_main_v44_apply, val_main_v41_apply, val_main_v43_apply, val_main_v40_apply, val_main_v42_apply,
    val_main_c_8_apply, val_main_c_9_apply, v22_at]
  rfl

theorem v52_at (e' : Fin (160000 + 10000)) : val_main_v52 (F := Ideal) EI (ix1 e') = nrm (srcW EI e') := by
  rw [val_main_v52_apply, val_main_v49_apply, val_main_v51_apply, val_main_v48_apply, val_main_v50_apply,
    val_main_c_10_apply, val_main_c_11_apply, v21_at]
  rfl

/-- The factor of the source node of each edge of the longer list. -/
theorem v39_at (e' : Fin (160000 + 10000)) : val_main_v39 (F := Ideal) EI (ix1 e') = dL EI (srcL EI e') := by
  unfold val_main_v39
  refine (flat_gather_apply (N := 10000) (E := 160000 + 10000) (by omega)
    gather_S10000_S170000x1_S170000_n_0_n_n_0_1_1 rfl rfl rfl rfl rfl rfl rfl (val_main_v32 (F := Ideal) EI)
    (val_main_v38 (F := Ideal) EI) e').trans ?_
  rw [← rowOf_srcW, ← v32_at]
  refine congrArg (val_main_v32 (F := Ideal) EI) (idx1_ext ?_)
  show min (val_main_v38 (F := Ideal) EI (ix2 e' (0 : Fin 1))).toInt.toNat (10000 - 1) = (rowOf (srcW EI e')).val
  have ei : idx_main_v38 (ix2 e' (0 : Fin 1)) = ix1 e' := idx1_ext rfl
  rw [val_main_v38_apply, ei, v37_at]
  rfl

/-- The factor of the node each edge's target word names, over the longer list. -/
theorem v46_at (e' : Fin (160000 + 10000)) : val_main_v46 (F := Ideal) EI (ix1 e') = dL EI (dstRowL EI e') := by
  unfold val_main_v46
  refine (flat_gather_apply (N := 10000) (E := 160000 + 10000) (by omega)
    gather_S10000_S170000x1_S170000_n_0_n_n_0_1_1 rfl rfl rfl rfl rfl rfl rfl (val_main_v32 (F := Ideal) EI)
    (val_main_v45 (F := Ideal) EI) e').trans ?_
  rw [← rowOf_dstW, ← v32_at]
  refine congrArg (val_main_v32 (F := Ideal) EI) (idx1_ext ?_)
  show min (val_main_v45 (F := Ideal) EI (ix2 e' (0 : Fin 1))).toInt.toNat (10000 - 1) = (rowOf (dstW EI e')).val
  have ei : idx_main_v45 (ix2 e' (0 : Fin 1)) = ix1 e' := idx1_ext rfl
  rw [val_main_v45_apply, ei, v44_at]
  rfl

theorem v47_at (e' : Fin (160000 + 10000)) :
    val_main_v47 (F := Ideal) EI (ix1 e') = dL EI (srcL EI e') * dL EI (dstRowL EI e') := by
  rw [val_main_v47_apply, v39_at, v46_at, Ideal.mulf_def]

/-- The second layer's row at the source node of each edge of the longer list. -/
theorem v54_at (e' : Fin (160000 + 10000)) (o : Fin 256) :
    val_main_v54 (F := Ideal) X EI FW FB GW (ix2 e' o) = hJoin X EI FW FB GW (srcL EI e') o := by
  unfold val_main_v54
  refine (row_gather_apply (N := 10000) (D := 256) (E := 160000 + 10000) (by omega)
    gather_S10000x256_S170000x1_S170000x256_1_0_n_n_0_1_1256 rfl rfl rfl rfl rfl rfl rfl
    (val_main_v19 (F := Ideal) X EI FW FB GW) (val_main_v53 (F := Ideal) EI) e' o).trans ?_
  rw [← rowOf_srcW, ← v19_at]
  refine congrArg (val_main_v19 (F := Ideal) X EI FW FB GW) (idx2_ext ?_ rfl)
  show min (val_main_v53 (F := Ideal) EI (ix2 e' (0 : Fin 1))).toInt.toNat (10000 - 1) = (rowOf (srcW EI e')).val
  have ei : idx_main_v53 (ix2 e' (0 : Fin 1)) = ix1 e' := idx1_ext rfl
  rw [val_main_v53_apply, ei, v52_at]
  rfl

theorem v56_at (e' : Fin (160000 + 10000)) (o : Fin 256) :
    val_main_v56 (F := Ideal) EI (ix2 e' o) = dL EI (srcL EI e') * dL EI (dstRowL EI e') := by
  have ei : idx_main_v55 (idx_main_v56 (ix2 e' o)) = ix1 e' := idx1_ext rfl
  rw [val_main_v56_apply, val_main_v55_apply, ei, v47_at]

theorem v57_at (e' : Fin (160000 + 10000)) (o : Fin 256) :
    val_main_v57 (F := Ideal) X EI FW FB GW (ix2 e' o)
      = hJoin X EI FW FB GW (srcL EI e') o * (dL EI (srcL EI e') * dL EI (dstRowL EI e')) := by
  rw [val_main_v57_apply, v54_at, v56_at, Ideal.mulf_def]

theorem v59_at (e' : Fin (160000 + 10000)) : val_main_v59 (F := Ideal) EI (ix2 e' (0 : Fin 1)) = dstW EI e' := by
  have ei : idx_main_v59 (ix2 e' (0 : Fin 1)) = ix1 e' := idx1_ext rfl
  rw [val_main_v59_apply, ei, v22_at]

/-- The accumulating scatter into zeros over the longer list. -/
theorem v60_at (n : Fin 10000) (o : Fin 256) :
    val_main_v60 (F := Ideal) X EI FW FB GW (ix2 n o)
      = ∑ e ∈ into (dstL EI) n, hJoin X EI FW FB GW (srcL EI e) o * (dL EI (srcL EI e) * dL EI (dstRowL EI e)) := by
  unfold val_main_v60
  refine (row_host_scatterAdd_apply (N := 10000) (D := 256) (E := 160000 + 10000)
    scatter_S10000x256_S170000x1_S170000x256_1_0_0_1 rfl rfl rfl rfl _ _ _ n o).trans ?_
  rw [val_main_v58_apply, val_main_cst_12_apply, Ideal.ofBits_def, Ideal.ofBits_zero_f32, zero_add]
  unfold into
  refine Finset.sum_congr (Finset.filter_congr fun e _ => ?_) fun e _ => v57_at X EI FW FB GW e o
  rw [v59_at, toInt_dstW]

/-- The normalised convolution with its bias. -/
theorem v63_at (n : Fin 10000) (o : Fin 256) :
    val_main_v63 (F := Ideal) X EI FW FB GW GB (ix2 n o) = convL X EI FW FB GW GB n o := by
  have ei : idx_main_v61 (idx_main_v62 (ix2 n o)) = ix1 o := idx1_ext rfl
  rw [val_main_v63_apply, val_main_v62_apply, val_main_v61_apply, ei, v60_at, Ideal.addf_def]
  rfl

/-! ## The decoder -/

/-- The decoder's first dense layer. -/
theorem v67_at (n : Fin 10000) (k : Fin 128) :
    val_main_v67 (F := Ideal) X EI FW FB GW GB D1W D1B (ix2 n k)
      = Spec.dense (convL X EI FW FB GW GB) (fun j k => D1W (ix2 j k)) (fun k => D1B (ix1 k)) n k := by
  have ei : idx_main_v65 (idx_main_v66 (ix2 n k)) = ix1 k := idx1_ext rfl
  rw [val_main_v67_apply, val_main_v64_apply, val_main_v66_apply, val_main_v65_apply, ei, Ideal.addf_def]
  unfold Spec.dense
  refine congrArg (fun z : EReal => z + D1B (ix1 k)) (Finset.sum_congr rfl fun j _ => ?_)
  have el : lidx_main_v64 (ix2 n k) j = ix2 n j := idx2_ext rfl rfl
  have er : ridx_main_v64 (ix2 n k) j = ix2 j k := idx2_ext rfl rfl
  rw [el, er, v63_at]

/-- THE REFERENCE'S RESULT at (n, c) is the model function. -/
theorem ref_value (n : Fin 10000) (c : Fin 2) :
    val_main_v72 (F := Ideal) X EI FW FB GW GB D1W D1B D2W D2B (ix2 n c)
      = refOut X EI FW FB GW GB D1W D1B D2W D2B n c := by
  have ei : idx_main_v70 (idx_main_v71 (ix2 n c)) = ix1 c := idx1_ext rfl
  rw [val_main_v72_apply, val_main_v69_apply, val_main_v71_apply, val_main_v70_apply, ei, Ideal.addf_def]
  unfold refOut dec Spec.decode
  refine congrArg (fun z : EReal => z + D2B (ix1 c)) (Finset.sum_congr rfl fun k _ => ?_)
  have el : lidx_main_v69 (ix2 n c) k = ix2 n k := idx2_ext rfl rfl
  have er : ridx_main_v69 (ix2 n c) k = ix2 k c := idx2_ext rfl rfl
  rw [el, er, val_main_v68_apply, val_main_call1_v0_apply, val_main_call1_cst_apply, v67_at, Ideal.maximumf_def,
    Ideal.ofBits_def]

end Cert.RefValue

end
-- ==== Proof.RefResult.lean ====
/-
  The reference program's result buffer, as a function of the ten launched arrays, is the model function of the
  kernel's side; and the reference program runs and leaves its arguments unchanged.

  The run of the reference names its result by the operations' composed term of the launched arrays. That term is the
  last stage of the program read one operation at a time; read at an index (n, c) it is the model function of the
  reference's side, which is the model function of the kernel's side.
-/
import proofs.«102789_j62758062129644_2_alg».proof.Defs
import proofs.«102789_j62758062129644_2_alg».proof.Proof.Gen.ReferenceIdeal
import proofs.«102789_j62758062129644_2_alg».proof.Proof.Gen.Pre_finite_inputs
import proofs.«102789_j62758062129644_2_alg».proof.Proof.RefValue
import proofs.«102789_j62758062129644_2_alg».proof.Proof.RefRunP
import proofs.«102789_j62758062129644_2_alg».proof.Proof.Model

noncomputable section

namespace Cert.RefValue

open Idealize.ShloMosaic Idealize.ShloMosaic.ValueIdx Idealize.SL.Sem
open Cert.ReferenceIdeal Cert.ReferenceIdeal.Gen

/-- The reference's result buffer on device c, from any launch memory: at (n, c') the kernel side's model function of
    the ten launched arrays. -/
theorem ref_result (m' : (ℓ : Loc Cert.ReferenceIdeal.nD Cert.ReferenceIdeal.τ Cert.ReferenceIdeal.sig) → Buf (Elt Ideal) ℓ)
    (c : Dev Cert.ReferenceIdeal.nD) :
    Cert.ReferenceIdeal.ValueP.res_main_v72 (F := Ideal) m' c
      = fun (i : (⟨2, ![10000, 2]⟩ : Shape).Idx) => Cert.Model.kernelOut
          (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2))
          (m' ((c.tc : Thread Cert.ReferenceIdeal.nD Cert.ReferenceIdeal.τ).loc Cert.ReferenceIdeal.main_arg3))
          (m' ((c.tc : Thread Cert.ReferenceIdeal.nD Cert.ReferenceIdeal.τ).loc Cert.ReferenceIdeal.main_arg4))
          (m' ((c.tc : Thread Cert.ReferenceIdeal.nD Cert.ReferenceIdeal.τ).loc Cert.ReferenceIdeal.main_arg5))
          (m' ((c.tc : Thread Cert.ReferenceIdeal.nD Cert.ReferenceIdeal.τ).loc Cert.ReferenceIdeal.main_arg6))
          (m' ((c.tc : Thread Cert.ReferenceIdeal.nD Cert.ReferenceIdeal.τ).loc Cert.ReferenceIdeal.main_arg7))
          (m' ((c.tc : Thread Cert.ReferenceIdeal.nD Cert.ReferenceIdeal.τ).loc Cert.ReferenceIdeal.main_arg8))
          (m' ((c.tc : Thread Cert.ReferenceIdeal.nD Cert.ReferenceIdeal.τ).loc Cert.ReferenceIdeal.main_arg9))
          ⟨(i 0).val, idx2_lt0 i⟩ ⟨(i 1).val, idx2_lt1 i⟩ := by
  rw [Cert.ReferenceIdeal.ReadP.val_main_v72_eq]
  funext i
  obtain ⟨a, b, rfl⟩ : ∃ (a : Fin 10000) (b : Fin 2), i = ix2 a b := ⟨i 0, i 1, eq_ix2 i⟩
  exact (ref_value _ _ _ _ _ _ _ _ _ _ a b).trans
    (congrFun (congrFun (Cert.Model.refOut_eq_kernelOut _ _ _ _ _ _ _ _ _ _) a) b)

/-- The reference program runs and leaves its ten arguments unchanged. -/
theorem frame_ref : Cert.frame_ReferenceIdeal (hReferenceIdeal := Cert.ReferenceIdeal.Gen.facts)
    (hPre_finite_inputs := Cert.Pre_finite_inputs.Gen.facts) :=
  fun m ρ _ => (θ_run Cert.ReferenceIdeal.defs _ _).mono (fun _ h c => (h c).2)
    (Cert.ReferenceIdeal.ValueP.run (F := Ideal) m ρ)

end Cert.RefValue

end
-- ==== Proof.lean ====
/-
  The certificate's five claims.

  Frames.  The word-level kernel and its idealization run — a stretch of host operations, a ten-point pipelined
  region, a second stretch, a second region — terminate without a fault and leave the arguments as launched (the
  generated frame certificates).  The reference is a straight line of host operations; its run, with the result
  dropped, is its frame.

  Preservation.  The ideal pass rewrote nothing, so there is nothing to preserve beyond the text read at the ideal
  instance.

  Agreement.  At the ideal instance both programs end with the same [10000, 2] array of extended reals: with d the
  normalisation factor (count of incoming edges plus one, to the power -1/2, a positive real), the kernel's second
  region computes  d[n]·(Σ_{e → n} h[src e]·d[src e] + h[n]·d[n]) + b  where the reference sums
  h[src e]·(d[src e]·d[n]) over the edges and the appended loops; a nonnegative real factor distributes over sums of
  extended reals, the loops contribute the node's own row, the 1024-long contraction splits into its two halves,
  and the two dense layers with the rectifier between are the same on both sides.  The kernel's array is read off
  its two regions' write-backs block by block; the reference's off its run, operation by operation.
-/
import proofs.«102789_j62758062129644_2_alg».proof.Defs
import proofs.«102789_j62758062129644_2_alg».proof.Proof.Gen.Kernel
import proofs.«102789_j62758062129644_2_alg».proof.Proof.Gen.Kernel.Skeleton
import proofs.«102789_j62758062129644_2_alg».proof.Proof.Gen.Kernel.Launch
import proofs.«102789_j62758062129644_2_alg».proof.Proof.Gen.Kernel.Points
import proofs.«102789_j62758062129644_2_alg».proof.Proof.Gen.Kernel.Frame
import proofs.«102789_j62758062129644_2_alg».proof.Proof.Gen.KernelIdeal
import proofs.«102789_j62758062129644_2_alg».proof.Proof.Gen.KernelIdeal.Skeleton
import proofs.«102789_j62758062129644_2_alg».proof.Proof.Gen.KernelIdeal.Launch
import proofs.«102789_j62758062129644_2_alg».proof.Proof.Gen.KernelIdeal.Points
import proofs.«102789_j62758062129644_2_alg».proof.Proof.Gen.KernelIdeal.Frame
import proofs.«102789_j62758062129644_2_alg».proof.Proof.Gen.ReferenceIdeal
import proofs.«102789_j62758062129644_2_alg».proof.Proof.Gen.Pre_finite_inputs
import proofs.«102789_j62758062129644_2_alg».proof.Proof.KernelRun
import proofs.«102789_j62758062129644_2_alg».proof.Proof.EntryTwo
import proofs.«102789_j62758062129644_2_alg».proof.Proof.RefResult
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem preserves : Cert.preserves_Kernel_KernelIdeal := trivial

/-- Both runs end with the result buffer at the model's function of the arguments, which agree. -/
theorem algebraic : Cert.algebraic_KernelIdeal_ReferenceIdeal := by
  intro m ρ m' ρ' _ hagree
  refine ⟨fun c => Cert.KernelIdeal.Entry.resultArr m c, ?_, ?_⟩
  · exact (θ_run Cert.KernelIdeal.defs _ _).mono
      (fun r h c => ⟨(h c).1.trans (Cert.KernelIdeal.Entry.kernel_value m ρ c), (h c).2⟩)
      (Cert.KernelIdeal.RunValue.run (F := Ideal) m ρ)
  · refine (θ_run Cert.ReferenceIdeal.defs _ _).mono (fun r h c => ⟨(h c).1.trans ?_, (h c).2⟩)
      (Cert.ReferenceIdeal.ValueP.run (F := Ideal) m' ρ')
    rw [Cert.RefValue.ref_result m' c]
    obtain ⟨h0, h1, h2, h3, h4, h5, h6, h7, h8, h9⟩ := hagree c
    rw [h0, h1, h2, h3, h4, h5, h6, h7, h8, h9]
    rfl

theorem claim : Cert.Claim :=
  ⟨Cert.Kernel.Gen.facts, Cert.KernelIdeal.Gen.facts, Cert.ReferenceIdeal.Gen.facts, Cert.Pre_finite_inputs.Gen.facts,
    frame_kernel, frame_kernel_ideal, Cert.RefValue.frame_ref, preserves, algebraic⟩

end Cert.Proof

end
